-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x8192x3 : Shape := ⟨3, ![128, 8192, 3]⟩
abbrev S1x27x3 : Shape := ⟨3, ![1, 27, 3]⟩
abbrev S_ : Shape := ⟨0, ![]⟩

class Facts : Prop where
  bcast_S_S128x8192x3 : S_.BroadcastsInDim S128x8192x3 (![] : Fin 0 → Fin S128x8192x3.rank)
  reducesTo_S128x8192x3_S_d0_1_2 : S128x8192x3.ReducesTo [0, 1, 2] S_
  h_S_ : 0 < S_.numel
  bcast_S_S1x27x3 : S_.BroadcastsInDim S1x27x3 (![] : Fin 0 → Fin S1x27x3.rank)
  reducesTo_S1x27x3_S_d0_1_2 : S1x27x3.ReducesTo [0, 1, 2] S_

variable [Facts]

def fn {F : FTy → Type} [FloatOps F] (main_arg0 : FVec F S128x8192x3 .f32) (main_arg1 : FVec F S1x27x3 .f32) : IVec S_ 1 :=
  let main_v0 : FVec F S128x8192x3 .f32 := Host.absf main_arg0
  let main_cst : FVec F S_ .f32 := constant S_ .f32 0x7F800000#32
  let main_v1 : FVec F S128x8192x3 .f32 := broadcastInDim S128x8192x3 ![] bcast_S_S128x8192x3 main_cst
  let main_v2 : IVec S128x8192x3 1 := cmpf .olt main_v0 main_v1
  let main_c : IVec S_ 1 := constantI S_ 1 1#1
  let main_v3 : IVec S_ 1 := (fun x v => Host.reduce IntOp.andi x v reducesTo_S128x8192x3_S_d0_1_2 h_S_) main_v2 main_c
  let main_v4 : FVec F S1x27x3 .f32 := Host.absf main_arg1
  let main_cst_0 : FVec F S_ .f32 := constant S_ .f32 0x7F800000#32
  let main_v5 : FVec F S1x27x3 .f32 := broadcastInDim S1x27x3 ![] bcast_S_S1x27x3 main_cst_0
  let main_v6 : IVec S1x27x3 1 := cmpf .olt main_v4 main_v5
  let main_c_1 : IVec S_ 1 := constantI S_ 1 1#1
  let main_v7 : IVec S_ 1 := (fun x v => Host.reduce IntOp.andi x v reducesTo_S1x27x3_S_d0_1_2 h_S_) main_v6 main_c_1
  let main_v8 : IVec S_ 1 := andi main_v3 main_v7
  main_v8
-- ==== Kernel.lean ====
abbrev S128x8192x3 : Shape := ⟨3, ![128, 8192, 3]⟩
abbrev S1x27x3 : Shape := ⟨3, ![1, 27, 3]⟩
abbrev S128x27x8192 : Shape := ⟨3, ![128, 27, 8192]⟩
abbrev S1x8192x3 : Shape := ⟨3, ![1, 8192, 3]⟩
abbrev S1x27x8192 : Shape := ⟨3, ![1, 27, 8192]⟩
abbrev S8192x3 : Shape := ⟨2, ![8192, 3]⟩
abbrev S27x3 : Shape := ⟨2, ![27, 3]⟩
abbrev S8192 : Shape := ⟨1, ![8192]⟩
abbrev S27 : Shape := ⟨1, ![27]⟩
abbrev S27x8192 : Shape := ⟨2, ![27, 8192]⟩
abbrev S1x8192 : Shape := ⟨2, ![1, 8192]⟩
abbrev S27x1 : Shape := ⟨2, ![27, 1]⟩
abbrev S_ : Shape := ⟨0, ![]⟩
abbrev S128x27 : Shape := ⟨2, ![128, 27]⟩
abbrev S128x27x1 : Shape := ⟨3, ![128, 27, 1]⟩
abbrev S128x27x512 : Shape := ⟨3, ![128, 27, 512]⟩
abbrev S128 : Shape := ⟨1, ![128]⟩
abbrev S128x1x1 : Shape := ⟨3, ![128, 1, 1]⟩
abbrev S1x27x1 : Shape := ⟨3, ![1, 27, 1]⟩
abbrev S1x1x8192 : Shape := ⟨3, ![1, 1, 8192]⟩
abbrev S128x27x8192x1 : Shape := ⟨4, ![128, 27, 8192, 1]⟩
abbrev S128x27x8192x3 : Shape := ⟨4, ![128, 27, 8192, 3]⟩
abbrev S128x27x3 : Shape := ⟨3, ![128, 27, 3]⟩
abbrev S128x1x8192x3 : Shape := ⟨4, ![128, 1, 8192, 3]⟩
abbrev S128x27x512x1 : Shape := ⟨4, ![128, 27, 512, 1]⟩
abbrev S1 : Shape := ⟨1, ![1]⟩
abbrev S1x1x1x1 : Shape := ⟨4, ![1, 1, 1, 1]⟩
abbrev S128x27x512x3 : Shape := ⟨4, ![128, 27, 512, 3]⟩
abbrev S128x27x1x3 : Shape := ⟨4, ![128, 27, 1, 3]⟩
abbrev S3456x512x3 : Shape := ⟨3, ![3456, 512, 3]⟩

abbrev nBuf : Space → Nat
  | .hbm => 88
  | .vmem => 5
  | .smem => 0
  | _ => 0

abbrev bufTy : (tb : Table) → Fin (tcTables nBuf tb) → BufTy
  | .hbm, ⟨0, _⟩ => ⟨S128x8192x3, .f32⟩
  | .hbm, ⟨1, _⟩ => ⟨S1x27x3, .f32⟩
  | .hbm, ⟨2, _⟩ => ⟨S128x27x8192, .i32⟩
  | .hbm, ⟨3, _⟩ => ⟨S_, .i32⟩
  | .hbm, ⟨4, _⟩ => ⟨S128x27x8192, .i32⟩
  | .hbm, ⟨5, _⟩ => ⟨S128x27x8192, .i1⟩
  | .hbm, ⟨6, _⟩ => ⟨S_, .i32⟩
  | .hbm, ⟨7, _⟩ => ⟨S_, .i32⟩
  | .hbm, ⟨8, _⟩ => ⟨S128x27x8192, .i32⟩
  | .hbm, ⟨9, _⟩ => ⟨S_, .i32⟩
  | .hbm, ⟨10, _⟩ => ⟨S128x27x8192, .i32⟩
  | .hbm, ⟨11, _⟩ => ⟨S128x27x8192, .i32⟩
  | .hbm, ⟨12, _⟩ => ⟨S_, .i32⟩
  | .hbm, ⟨13, _⟩ => ⟨S_, .i32⟩
  | .hbm, ⟨14, _⟩ => ⟨S128x27x8192, .i32⟩
  | .hbm, ⟨15, _⟩ => ⟨S128x27x8192, .i32⟩
  | .hbm, ⟨16, _⟩ => ⟨S128x27x8192, .i32⟩
  | .hbm, ⟨17, _⟩ => ⟨S_, .i1⟩
  | .hbm, ⟨18, _⟩ => ⟨S_, .i32⟩
  | .hbm, ⟨19, _⟩ => ⟨S128x27, .i1⟩
  | .hbm, ⟨20, _⟩ => ⟨S128x27, .i32⟩
  | .hbm, ⟨21, _⟩ => ⟨S128x27x1, .i32⟩
  | .hbm, ⟨22, _⟩ => ⟨S128x27x512, .i32⟩
  | .hbm, ⟨23, _⟩ => ⟨S128, .i32⟩
  | .hbm, ⟨24, _⟩ => ⟨S128x1x1, .i32⟩
  | .hbm, ⟨25, _⟩ => ⟨S27, .i32⟩
  | .hbm, ⟨26, _⟩ => ⟨S1x27x1, .i32⟩
  | .hbm, ⟨27, _⟩ => ⟨S8192, .i32⟩
  | .hbm, ⟨28, _⟩ => ⟨S1x1x8192, .i32⟩
  | .hbm, ⟨29, _⟩ => ⟨S128x27x8192, .i32⟩
  | .hbm, ⟨30, _⟩ => ⟨S_, .i32⟩
  | .hbm, ⟨31, _⟩ => ⟨S128x1x1, .i32⟩
  | .hbm, ⟨32, _⟩ => ⟨S128x1x1, .i1⟩
  | .hbm, ⟨33, _⟩ => ⟨S_, .i32⟩
  | .hbm, ⟨34, _⟩ => ⟨S128x1x1, .i32⟩
  | .hbm, ⟨35, _⟩ => ⟨S128x1x1, .i32⟩
  | .hbm, ⟨36, _⟩ => ⟨S128x1x1, .i32⟩
  | .hbm, ⟨37, _⟩ => ⟨S_, .i32⟩
  | .hbm, ⟨38, _⟩ => ⟨S1x27x1, .i32⟩
  | .hbm, ⟨39, _⟩ => ⟨S1x27x1, .i1⟩
  | .hbm, ⟨40, _⟩ => ⟨S_, .i32⟩
  | .hbm, ⟨41, _⟩ => ⟨S1x27x1, .i32⟩
  | .hbm, ⟨42, _⟩ => ⟨S1x27x1, .i32⟩
  | .hbm, ⟨43, _⟩ => ⟨S1x27x1, .i32⟩
  | .hbm, ⟨44, _⟩ => ⟨S_, .i32⟩
  | .hbm, ⟨45, _⟩ => ⟨S128x27x8192, .i32⟩
  | .hbm, ⟨46, _⟩ => ⟨S128x27x8192, .i1⟩
  | .hbm, ⟨47, _⟩ => ⟨S_, .i32⟩
  | .hbm, ⟨48, _⟩ => ⟨S128x27x8192, .i32⟩
  | .hbm, ⟨49, _⟩ => ⟨S128x27x8192, .i32⟩
  | .hbm, ⟨50, _⟩ => ⟨S128x27x8192, .i32⟩
  | .hbm, ⟨51, _⟩ => ⟨S128x27x8192, .i32⟩
  | .hbm, ⟨52, _⟩ => ⟨S128x27x8192, .i32⟩
  | .hbm, ⟨53, _⟩ => ⟨S128x27x8192x1, .i32⟩
  | .hbm, ⟨54, _⟩ => ⟨S128x27x8192x1, .i32⟩
  | .hbm, ⟨55, _⟩ => ⟨S128x27x8192x1, .i32⟩
  | .hbm, ⟨56, _⟩ => ⟨S128x27x8192x3, .i32⟩
  | .hbm, ⟨57, _⟩ => ⟨S128x27x512, .i32⟩
  | .hbm, ⟨58, _⟩ => ⟨S128x27x3, .f32⟩
  | .hbm, ⟨59, _⟩ => ⟨S128x1x8192x3, .f32⟩
  | .hbm, ⟨60, _⟩ => ⟨S128x27x512x1, .i32⟩
  | .hbm, ⟨61, _⟩ => ⟨S_, .i32⟩
  | .hbm, ⟨62, _⟩ => ⟨S128x27x512x1, .i32⟩
  | .hbm, ⟨63, _⟩ => ⟨S128x27x512x1, .i1⟩
  | .hbm, ⟨64, _⟩ => ⟨S_, .i32⟩
  | .hbm, ⟨65, _⟩ => ⟨S128x27x512x1, .i32⟩
  | .hbm, ⟨66, _⟩ => ⟨S128x27x512x1, .i32⟩
  | .hbm, ⟨67, _⟩ => ⟨S128x27x512x1, .i32⟩
  | .hbm, ⟨68, _⟩ => ⟨S128x8192x3, .f32⟩
  | .hbm, ⟨69, _⟩ => ⟨S1, .i32⟩
  | .hbm, ⟨70, _⟩ => ⟨S_, .i32⟩
  | .hbm, ⟨71, _⟩ => ⟨S128x27x512x1, .i32⟩
  | .hbm, ⟨72, _⟩ => ⟨S128x27x512x1, .i1⟩
  | .hbm, ⟨73, _⟩ => ⟨S1x1x1x1, .i32⟩
  | .hbm, ⟨74, _⟩ => ⟨S128x27x512x1, .i32⟩
  | .hbm, ⟨75, _⟩ => ⟨S128x27x512x1, .i1⟩
  | .hbm, ⟨76, _⟩ => ⟨S128x27x512x1, .i1⟩
  | .hbm, ⟨77, _⟩ => ⟨S_, .i1⟩
  | .hbm, ⟨78, _⟩ => ⟨S128x27x512, .i1⟩
  | .hbm, ⟨79, _⟩ => ⟨S128x27x512x3, .f32⟩
  | .hbm, ⟨80, _⟩ => ⟨S128x27x512x3, .i1⟩
  | .hbm, ⟨81, _⟩ => ⟨S_, .f32⟩
  | .hbm, ⟨82, _⟩ => ⟨S128x27x512x3, .f32⟩
  | .hbm, ⟨83, _⟩ => ⟨S128x27x512x3, .f32⟩
  | .hbm, ⟨84, _⟩ => ⟨S128x27x1x3, .f32⟩
  | .hbm, ⟨85, _⟩ => ⟨S128x27x512x3, .f32⟩
  | .hbm, ⟨86, _⟩ => ⟨S128x27x512x3, .f32⟩
  | .hbm, ⟨87, _⟩ => ⟨S3456x512x3, .f32⟩
  | .local _ .vmem, ⟨0, _⟩ => ⟨S1x8192x3, .f32⟩
  | .local _ .vmem, ⟨1, _⟩ => ⟨S1x8192x3, .f32⟩
  | .local _ .vmem, ⟨2, _⟩ => ⟨S1x27x3, .f32⟩
  | .local _ .vmem, ⟨3, _⟩ => ⟨S1x27x8192, .i32⟩
  | .local _ .vmem, ⟨4, _⟩ => ⟨S1x27x8192, .i32⟩
  | _, _ => ⟨S128x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_call0_call0_c : Ref sig .tc := ⟨.hbm, 6, rfl⟩
abbrev main_call0_call0_v0 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_call1_v0 : Ref sig .tc := ⟨.hbm, 13, rfl⟩
abbrev main_call1_v1 : Ref sig .tc := ⟨.hbm, 14, rfl⟩
abbrev main_v6 : Ref sig .tc := ⟨.hbm, 15, rfl⟩
abbrev main_call2_v0 : Ref sig .tc := ⟨.hbm, 16, rfl⟩
abbrev main_call2_c : Ref sig .tc := ⟨.hbm, 17, rfl⟩
abbrev main_call2_c_0 : Ref sig .tc := ⟨.hbm, 18, rfl⟩
abbrev main_call2_v1_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_6 : Ref sig .tc := ⟨.hbm, 44, rfl⟩
abbrev main_v27 : Ref sig .tc := ⟨.hbm, 45, rfl⟩
abbrev main_v28 : Ref sig .tc := ⟨.hbm, 46, rfl⟩
abbrev main_c_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call3_c : Ref sig .tc := ⟨.hbm, 61, rfl⟩
abbrev main_call3_v0 : Ref sig .tc := ⟨.hbm, 62, rfl⟩
abbrev main_call3_v1 : Ref sig .tc := ⟨.hbm, 63, rfl⟩
abbrev main_call3_c_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_c_1 : Ref sig .tc := ⟨.hbm, 69, rfl⟩
abbrev main_call3_c_2 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_3 : Ref sig .tc := ⟨.hbm, 77, rfl⟩
abbrev main_call3_v12 : Ref sig .tc := ⟨.hbm, 78, rfl⟩
abbrev main_call3_v13 : Ref sig .tc := ⟨.hbm, 79, rfl⟩
abbrev main_call3_v14 : Ref sig .tc := ⟨.hbm, 80, rfl⟩
abbrev main_call3_cst : Ref sig .tc := ⟨.hbm, 81, rfl⟩
abbrev main_call3_v15 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x27x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x27x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x8192x3_S1x8192x3_0_0_0 : ∀ a, (![0, 0, 0] : Fin 3 → Nat) a + S1x8192x3.size a ≤ S1x8192x3.size a
  h_S1x8192x3 : 0 < S1x8192x3.numel
  shapeCasts_S1x8192x3_S8192x3 : S1x8192x3.ShapeCasts S8192x3
  inb_S1x27x3_S1x27x3_0_0_0 : ∀ a, (![0, 0, 0] : Fin 3 → Nat) a + S1x27x3.size a ≤ S1x27x3.size a
  h_S1x27x3 : 0 < S1x27x3.numel
  shapeCasts_S1x27x3_S27x3 : S1x27x3.ShapeCasts S27x3
  reduces_S8192x3_S8192 : S8192x3.Reduces [1] S8192
  reduces_S27x3_S27 : S27x3.Reduces [1] S27
  shapeCasts_S8192_S1x8192 : S8192.ShapeCasts S1x8192
  shapeCasts_S27_S27x1 : S27.ShapeCasts S27x1
  broadcasts_S1x8192_S27x8192 : S1x8192.Broadcasts S27x8192
  broadcasts_S27x1_S27x8192 : S27x1.Broadcasts S27x8192
  natLt_1_32 : 1 < 32
  inb_S1x27x8192_S1x27x8192_0_0_0 : ∀ a, (![0, 0, 0] : Fin 3 → Nat) a + S1x27x8192.size a ≤ S1x27x8192.size a
  h_S1x27x8192 : 0 < S1x27x8192.numel
  shapeCasts_S1x27x8192_S27x8192 : S1x27x8192.ShapeCasts S27x8192
  shapeCasts_S27x8192_S1x27x8192 : S27x8192.ShapeCasts S1x27x8192
  bcast_S_S128x27x8192 : S_.BroadcastsInDim S128x27x8192 (![] : Fin 0 → Fin S128x27x8192.rank)
  bcast_S_S_ : S_.BroadcastsInDim S_ (![] : Fin 0 → Fin S_.rank)
  reduceWindows_S128x27x8192_S128x27x8192_w1s1p0_0_w1s1p0_0_w8192s1p8191_0 : S128x27x8192.ReduceWindows (![1, 1, 8192] : Fin 3 → Nat) ![1, 1, 1] ![0, 0, 8191] ![0, 0, 0] S128x27x8192
  h_S_ : 0 < S_.numel
  reducesTo_S128x27x8192_S128x27_d2 : S128x27x8192.ReducesTo [2] S128x27
  bcast_S128x27_S128x27x1_0_1 : S128x27.BroadcastsInDim S128x27x1 (![0, 1] : Fin 2 → Fin S128x27x1.rank)
  bcast_S128x27x1_S128x27x512_0_1_2 : S128x27x1.BroadcastsInDim S128x27x512 (![0, 1, 2] : Fin 3 → Fin S128x27x512.rank)
  bcast_S128_S128x1x1_0 : S128.BroadcastsInDim S128x1x1 (![0] : Fin 1 → Fin S128x1x1.rank)
  bcast_S27_S1x27x1_1 : S27.BroadcastsInDim S1x27x1 (![1] : Fin 1 → Fin S1x27x1.rank)
  bcast_S8192_S1x1x8192_2 : S8192.BroadcastsInDim S1x1x8192 (![2] : Fin 1 → Fin S1x1x8192.rank)
  bcast_S1x1x8192_S128x27x8192_0_1_2 : S1x1x8192.BroadcastsInDim S128x27x8192 (![0, 1, 2] : Fin 3 → Fin S128x27x8192.rank)
  bcast_S_S128x1x1 : S_.BroadcastsInDim S128x1x1 (![] : Fin 0 → Fin S128x1x1.rank)
  bcast_S_S1x27x1 : S_.BroadcastsInDim S1x27x1 (![] : Fin 0 → Fin S1x27x1.rank)
  bcast_S128x1x1_S128x27x8192_0_1_2 : S128x1x1.BroadcastsInDim S128x27x8192 (![0, 1, 2] : Fin 3 → Fin S128x27x8192.rank)
  bcast_S1x27x1_S128x27x8192_0_1_2 : S1x27x1.BroadcastsInDim S128x27x8192 (![0, 1, 2] : Fin 3 → Fin S128x27x8192.rank)
  bcast_S128x27x8192_S128x27x8192x1_0_1_2 : S128x27x8192.BroadcastsInDim S128x27x8192x1 (![0, 1, 2] : Fin 3 → Fin S128x27x8192x1.rank)
  concatenates_S128x27x8192x1_S128x27x8192x1_S128x27x8192x1_S128x27x8192x3_d3 : Shape.Concatenates [S128x27x8192x1, S128x27x8192x1, S128x27x8192x1] S128x27x8192x3 3
  bcast_S1x27x3_S128x27x3_0_1_2 : S1x27x3.BroadcastsInDim S128x27x3 (![0, 1, 2] : Fin 3 → Fin S128x27x3.rank)
  bcast_S128x8192x3_S128x1x8192x3_0_2_3 : S128x8192x3.BroadcastsInDim S128x1x8192x3 (![0, 2, 3] : Fin 3 → Fin S128x1x8192x3.rank)
  bcast_S128x27x512_S128x27x512x1_0_1_2 : S128x27x512.BroadcastsInDim S128x27x512x1 (![0, 1, 2] : Fin 3 → Fin S128x27x512x1.rank)
  bcast_S_S128x27x512x1 : S_.BroadcastsInDim S128x27x512x1 (![] : Fin 0 → Fin S128x27x512x1.rank)
  shapeCasts_S128x1x8192x3_S128x8192x3 : S128x1x8192x3.ShapeCasts S128x8192x3
  bcast_S1_S1x1x1x1_3 : S1.BroadcastsInDim S1x1x1x1 (![3] : Fin 1 → Fin S1x1x1x1.rank)
  bcast_S1x1x1x1_S128x27x512x1_0_1_2_3 : S1x1x1x1.BroadcastsInDim S128x27x512x1 (![0, 1, 2, 3] : Fin 4 → Fin S128x27x512x1.rank)
  reducesTo_S128x27x512x1_S128x27x512_d3 : S128x27x512x1.ReducesTo [3] S128x27x512
  bcast_S128x27x512_S128x27x512x3_0_1_2 : S128x27x512.BroadcastsInDim S128x27x512x3 (![0, 1, 2] : Fin 3 → Fin S128x27x512x3.rank)
  bcast_S_S128x27x512x3 : S_.BroadcastsInDim S128x27x512x3 (![] : Fin 0 → Fin S128x27x512x3.rank)
  bcast_S128x27x3_S128x27x1x3_0_1_3 : S128x27x3.BroadcastsInDim S128x27x1x3 (![0, 1, 3] : Fin 3 → Fin S128x27x1x3.rank)
  bcast_S128x27x1x3_S128x27x512x3_0_1_2_3 : S128x27x1x3.BroadcastsInDim S128x27x512x3 (![0, 1, 2, 3] : Fin 4 → Fin S128x27x512x3.rank)
  shapeCasts_S128x27x512x3_S3456x512x3 : S128x27x512x3.ShapeCasts S3456x512x3
  dot_S27x3_S8192x3_S27x8192_1_1_0_0_n_n_wf : DotDims.WF S27x3 S8192x3 S27x8192 [1] [1] [0] [0] [] []
  scatter_S128x27x512_S128x27x8192x3_S128x27x8192_n_012_012_3_wf : ScatterDims.WF S128x27x512 S128x27x8192x3 S128x27x8192 [] [0, 1, 2] [0, 1, 2] 3
  gather_S128x8192x3_S128x27x512x1_S128x27x512x3_3_1_0_0_1_3_113_wf : GatherDims.WF S128x8192x3 S128x27x512x1 S128x27x512x3 [3] [1] [0] [1] [0] 3 ![1, 1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x3.size a ≤ S128x8192x3.size a
  hwx0_0 : ∀ i : grid0.Coords, EltTy.bits .f32 = 32 ∨ (Rect.block (s := S128x8192x3) S1x8192x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x27x3.size a ≤ S1x27x3.size a
  hwx0_1 : ∀ i : grid0.Coords, EltTy.bits .f32 = 32 ∨ (Rect.block (s := S1x27x3) S1x27x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x27x8192.size a ≤ S128x27x8192.size a
  hwx0_2 : ∀ i : grid0.Coords, EltTy.bits .i32 = 32 ∨ (Rect.block (s := S128x27x8192) S1x27x8192.size (cc0_transform_2 i) (hinb0_2 i)).WholeWords (EltTy.packing .i32)

variable [Facts₀]

def dot_S27x3_S8192x3_S27x8192_1_1_0_0_n_n : DotDims S27x3 S8192x3 S27x8192 where
  lhsContracting := [1]
  rhsContracting := [1]
  lhsNonContracting := [0]
  rhsNonContracting := [0]
  lhsBatch := []
  rhsBatch := []
  wf := dot_S27x3_S8192x3_S27x8192_1_1_0_0_n_n_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S128x27x512_S128x27x8192x3_S128x27x8192_n_012_012_3 : ScatterDims S128x27x512 S128x27x8192x3 S128x27x8192 where
  updateWindowDims := []
  insertedWindowDims := [0, 1, 2]
  scatterDimsToOperandDims := [0, 1, 2]
  indexVectorDim := 3
  wf := scatter_S128x27x512_S128x27x8192x3_S128x27x8192_n_012_012_3_wf
def gather_S128x8192x3_S128x27x512x1_S128x27x512x3_3_1_0_0_1_3_113 : GatherDims S128x8192x3 S128x27x512x1 S128x27x512x3 where
  offsetDims := [3]
  collapsedSliceDims := [1]
  operandBatchingDims := [0]
  startIndicesBatchingDims := [0]
  startIndexMap := [1]
  indexVectorDim := 3
  sliceSizes := ![1, 1, 3]
  wf := gather_S128x8192x3_S128x27x512x1_S128x27x512x3_3_1_0_0_1_3_113_wf

abbrev win0_0 : Pipeline.Window sig grid0 :=
  Pipeline.Window.ofSpec (Memref.whole main_arg0) S1x8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x27x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x27x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x8192x3 : Shape := ⟨3, ![128, 8192, 3]⟩
abbrev S1x27x3 : Shape := ⟨3, ![1, 27, 3]⟩
abbrev S128x27x3 : Shape := ⟨3, ![128, 27, 3]⟩
abbrev S_ : Shape := ⟨0, ![]⟩
abbrev S128x8192 : Shape := ⟨2, ![128, 8192]⟩
abbrev S128x27 : Shape := ⟨2, ![128, 27]⟩
abbrev S128x27x8192 : Shape := ⟨3, ![128, 27, 8192]⟩
abbrev S128x1x8192 : Shape := ⟨3, ![128, 1, 8192]⟩
abbrev S128x27x1 : Shape := ⟨3, ![128, 27, 1]⟩
abbrev S128x27x512 : Shape := ⟨3, ![128, 27, 512]⟩
abbrev S128 : Shape := ⟨1, ![128]⟩
abbrev S128x1x1 : Shape := ⟨3, ![128, 1, 1]⟩
abbrev S27 : Shape := ⟨1, ![27]⟩
abbrev S1x27x1 : Shape := ⟨3, ![1, 27, 1]⟩
abbrev S8192 : Shape := ⟨1, ![8192]⟩
abbrev S1x1x8192 : Shape := ⟨3, ![1, 1, 8192]⟩
abbrev S128x27x8192x1 : Shape := ⟨4, ![128, 27, 8192, 1]⟩
abbrev S128x27x8192x3 : Shape := ⟨4, ![128, 27, 8192, 3]⟩
abbrev S128x1x8192x3 : Shape := ⟨4, ![128, 1, 8192, 3]⟩
abbrev S128x27x512x1 : Shape := ⟨4, ![128, 27, 512, 1]⟩
abbrev S1 : Shape := ⟨1, ![1]⟩
abbrev S1x1x1x1 : Shape := ⟨4, ![1, 1, 1, 1]⟩
abbrev S128x27x512x3 : Shape := ⟨4, ![128, 27, 512, 3]⟩
abbrev S128x27x1x3 : Shape := ⟨4, ![128, 27, 1, 3]⟩
abbrev S3456x512x3 : Shape := ⟨3, ![3456, 512, 3]⟩

abbrev nBuf : Space → Nat
  | .hbm => 104
  | .vmem => 0
  | .smem => 0
  | _ => 0

abbrev bufTy : (tb : Table) → Fin (tcTables nBuf tb) → BufTy
  | .hbm, ⟨0, _⟩ => ⟨S128x8192x3, .f32⟩
  | .hbm, ⟨1, _⟩ => ⟨S1x27x3, .f32⟩
  | .hbm, ⟨2, _⟩ => ⟨S128x27x3, .f32⟩
  | .hbm, ⟨3, _⟩ => ⟨S128x8192x3, .f32⟩
  | .hbm, ⟨4, _⟩ => ⟨S_, .f32⟩
  | .hbm, ⟨5, _⟩ => ⟨S128x8192, .f32⟩
  | .hbm, ⟨6, _⟩ => ⟨S128x27x3, .f32⟩
  | .hbm, ⟨7, _⟩ => ⟨S_, .f32⟩
  | .hbm, ⟨8, _⟩ => ⟨S128x27, .f32⟩
  | .hbm, ⟨9, _⟩ => ⟨S128x27x8192, .f32⟩
  | .hbm, ⟨10, _⟩ => ⟨S128x1x8192, .f32⟩
  | .hbm, ⟨11, _⟩ => ⟨S128x27x1, .f32⟩
  | .hbm, ⟨12, _⟩ => ⟨S128x27x8192, .f32⟩
  | .hbm, ⟨13, _⟩ => ⟨S128x27x8192, .f32⟩
  | .hbm, ⟨14, _⟩ => ⟨S128x27x8192, .f32⟩
  | .hbm, ⟨15, _⟩ => ⟨S_, .f32⟩
  | .hbm, ⟨16, _⟩ => ⟨S128x27x8192, .f32⟩
  | .hbm, ⟨17, _⟩ => ⟨S128x27x8192, .f32⟩
  | .hbm, ⟨18, _⟩ => ⟨S128x27x8192, .f32⟩
  | .hbm, ⟨19, _⟩ => ⟨S_, .f32⟩
  | .hbm, ⟨20, _⟩ => ⟨S128x27x8192, .f32⟩
  | .hbm, ⟨21, _⟩ => ⟨S128x27x8192, .i1⟩
  | .hbm, ⟨22, _⟩ => ⟨S128x27x8192, .i32⟩
  | .hbm, ⟨23, _⟩ => ⟨S_, .i32⟩
  | .hbm, ⟨24, _⟩ => ⟨S_, .i32⟩
  | .hbm, ⟨25, _⟩ => ⟨S128x27x8192, .i32⟩
  | .hbm, ⟨26, _⟩ => ⟨S_, .i32⟩
  | .hbm, ⟨27, _⟩ => ⟨S128x27x8192, .i32⟩
  | .hbm, ⟨28, _⟩ => ⟨S128x27x8192, .i32⟩
  | .hbm, ⟨29, _⟩ => ⟨S_, .i32⟩
  | .hbm, ⟨30, _⟩ => ⟨S_, .i32⟩
  | .hbm, ⟨31, _⟩ => ⟨S128x27x8192, .i32⟩
  | .hbm, ⟨32, _⟩ => ⟨S128x27x8192, .i32⟩
  | .hbm, ⟨33, _⟩ => ⟨S128x27x8192, .i32⟩
  | .hbm, ⟨34, _⟩ => ⟨S_, .i1⟩
  | .hbm, ⟨35, _⟩ => ⟨S_, .i32⟩
  | .hbm, ⟨36, _⟩ => ⟨S128x27, .i1⟩
  | .hbm, ⟨37, _⟩ => ⟨S128x27, .i32⟩
  | .hbm, ⟨38, _⟩ => ⟨S128x27x1, .i32⟩
  | .hbm, ⟨39, _⟩ => ⟨S128x27x512, .i32⟩
  | .hbm, ⟨40, _⟩ => ⟨S128, .i32⟩
  | .hbm, ⟨41, _⟩ => ⟨S128x1x1, .i32⟩
  | .hbm, ⟨42, _⟩ => ⟨S27, .i32⟩
  | .hbm, ⟨43, _⟩ => ⟨S1x27x1, .i32⟩
  | .hbm, ⟨44, _⟩ => ⟨S8192, .i32⟩
  | .hbm, ⟨45, _⟩ => ⟨S1x1x8192, .i32⟩
  | .hbm, ⟨46, _⟩ => ⟨S128x27x8192, .i32⟩
  | .hbm, ⟨47, _⟩ => ⟨S_, .i32⟩
  | .hbm, ⟨48, _⟩ => ⟨S128x1x1, .i32⟩
  | .hbm, ⟨49, _⟩ => ⟨S128x1x1, .i1⟩
  | .hbm, ⟨50, _⟩ => ⟨S_, .i32⟩
  | .hbm, ⟨51, _⟩ => ⟨S128x1x1, .i32⟩
  | .hbm, ⟨52, _⟩ => ⟨S128x1x1, .i32⟩
  | .hbm, ⟨53, _⟩ => ⟨S128x1x1, .i32⟩
  | .hbm, ⟨54, _⟩ => ⟨S_, .i32⟩
  | .hbm, ⟨55, _⟩ => ⟨S1x27x1, .i32⟩
  | .hbm, ⟨56, _⟩ => ⟨S1x27x1, .i1⟩
  | .hbm, ⟨57, _⟩ => ⟨S_, .i32⟩
  | .hbm, ⟨58, _⟩ => ⟨S1x27x1, .i32⟩
  | .hbm, ⟨59, _⟩ => ⟨S1x27x1, .i32⟩
  | .hbm, ⟨60, _⟩ => ⟨S1x27x1, .i32⟩
  | .hbm, ⟨61, _⟩ => ⟨S_, .i32⟩
  | .hbm, ⟨62, _⟩ => ⟨S128x27x8192, .i32⟩
  | .hbm, ⟨63, _⟩ => ⟨S128x27x8192, .i1⟩
  | .hbm, ⟨64, _⟩ => ⟨S_, .i32⟩
  | .hbm, ⟨65, _⟩ => ⟨S128x27x8192, .i32⟩
  | .hbm, ⟨66, _⟩ => ⟨S128x27x8192, .i32⟩
  | .hbm, ⟨67, _⟩ => ⟨S128x27x8192, .i32⟩
  | .hbm, ⟨68, _⟩ => ⟨S128x27x8192, .i32⟩
  | .hbm, ⟨69, _⟩ => ⟨S128x27x8192, .i32⟩
  | .hbm, ⟨70, _⟩ => ⟨S128x27x8192x1, .i32⟩
  | .hbm, ⟨71, _⟩ => ⟨S128x27x8192x1, .i32⟩
  | .hbm, ⟨72, _⟩ => ⟨S128x27x8192x1, .i32⟩
  | .hbm, ⟨73, _⟩ => ⟨S128x27x8192x3, .i32⟩
  | .hbm, ⟨74, _⟩ => ⟨S128x27x512, .i32⟩
  | .hbm, ⟨75, _⟩ => ⟨S128x1x8192x3, .f32⟩
  | .hbm, ⟨76, _⟩ => ⟨S128x27x512x1, .i32⟩
  | .hbm, ⟨77, _⟩ => ⟨S_, .i32⟩
  | .hbm, ⟨78, _⟩ => ⟨S128x27x512x1, .i32⟩
  | .hbm, ⟨79, _⟩ => ⟨S128x27x512x1, .i1⟩
  | .hbm, ⟨80, _⟩ => ⟨S_, .i32⟩
  | .hbm, ⟨81, _⟩ => ⟨S128x27x512x1, .i32⟩
  | .hbm, ⟨82, _⟩ => ⟨S128x27x512x1, .i32⟩
  | .hbm, ⟨83, _⟩ => ⟨S128x27x512x1, .i32⟩
  | .hbm, ⟨84, _⟩ => ⟨S128x8192x3, .f32⟩
  | .hbm, ⟨85, _⟩ => ⟨S1, .i32⟩
  | .hbm, ⟨86, _⟩ => ⟨S_, .i32⟩
  | .hbm, ⟨87, _⟩ => ⟨S128x27x512x1, .i32⟩
  | .hbm, ⟨88, _⟩ => ⟨S128x27x512x1, .i1⟩
  | .hbm, ⟨89, _⟩ => ⟨S1x1x1x1, .i32⟩
  | .hbm, ⟨90, _⟩ => ⟨S128x27x512x1, .i32⟩
  | .hbm, ⟨91, _⟩ => ⟨S128x27x512x1, .i1⟩
  | .hbm, ⟨92, _⟩ => ⟨S128x27x512x1, .i1⟩
  | .hbm, ⟨93, _⟩ => ⟨S_, .i1⟩
  | .hbm, ⟨94, _⟩ => ⟨S128x27x512, .i1⟩
  | .hbm, ⟨95, _⟩ => ⟨S128x27x512x3, .f32⟩
  | .hbm, ⟨96, _⟩ => ⟨S128x27x512x3, .i1⟩
  | .hbm, ⟨97, _⟩ => ⟨S_, .f32⟩
  | .hbm, ⟨98, _⟩ => ⟨S128x27x512x3, .f32⟩
  | .hbm, ⟨99, _⟩ => ⟨S128x27x512x3, .f32⟩
  | .hbm, ⟨100, _⟩ => ⟨S128x27x1x3, .f32⟩
  | .hbm, ⟨101, _⟩ => ⟨S128x27x512x3, .f32⟩
  | .hbm, ⟨102, _⟩ => ⟨S128x27x512x3, .f32⟩
  | .hbm, ⟨103, _⟩ => ⟨S3456x512x3, .f32⟩
  | _, _ => ⟨S128x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_call0_c : Ref sig .tc := ⟨.hbm, 23, rfl⟩
abbrev main_call0_call0_v0 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_call2_v0 : Ref sig .tc := ⟨.hbm, 33, rfl⟩
abbrev main_call2_c : Ref sig .tc := ⟨.hbm, 34, rfl⟩
abbrev main_call2_c_0 : Ref sig .tc := ⟨.hbm, 35, rfl⟩
abbrev main_call2_v1_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_6 : Ref sig .tc := ⟨.hbm, 54, rfl⟩
abbrev main_v35 : Ref sig .tc := ⟨.hbm, 55, rfl⟩
abbrev main_v36 : Ref sig .tc := ⟨.hbm, 56, rfl⟩
abbrev main_c_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_v14 : Ref sig .tc := ⟨.hbm, 96, rfl⟩
abbrev main_call3_cst : Ref sig .tc := ⟨.hbm, 97, rfl⟩
abbrev main_call3_v15 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩

abbrev nD : Nat := 1
abbrev τ : Topo := Topo.v7x

variable {F : FTy → Type} [FloatOps F]

class Facts₀ : Prop where
  bcast_S1x27x3_S128x27x3_0_1_2 : S1x27x3.BroadcastsInDim S128x27x3 (![0, 1, 2] : Fin 3 → Fin S128x27x3.rank)
  reducesTo_S128x8192x3_S128x8192_d2 : S128x8192x3.ReducesTo [2] S128x8192
  h_S_ : 0 < S_.numel
  reducesTo_S128x27x3_S128x27_d2 : S128x27x3.ReducesTo [2] S128x27
  bcast_S128x8192_S128x1x8192_0_2 : S128x8192.BroadcastsInDim S128x1x8192 (![0, 2] : Fin 2 → Fin S128x1x8192.rank)
  bcast_S128x27_S128x27x1_0_1 : S128x27.BroadcastsInDim S128x27x1 (![0, 1] : Fin 2 → Fin S128x27x1.rank)
  bcast_S128x1x8192_S128x27x8192_0_1_2 : S128x1x8192.BroadcastsInDim S128x27x8192 (![0, 1, 2] : Fin 3 → Fin S128x27x8192.rank)
  bcast_S128x27x1_S128x27x8192_0_1_2 : S128x27x1.BroadcastsInDim S128x27x8192 (![0, 1, 2] : Fin 3 → Fin S128x27x8192.rank)
  bcast_S_S128x27x8192 : S_.BroadcastsInDim S128x27x8192 (![] : Fin 0 → Fin S128x27x8192.rank)
  natLt_1_32 : 1 < 32
  bcast_S_S_ : S_.BroadcastsInDim S_ (![] : Fin 0 → Fin S_.rank)
  reduceWindows_S128x27x8192_S128x27x8192_w1s1p0_0_w1s1p0_0_w8192s1p8191_0 : S128x27x8192.ReduceWindows (![1, 1, 8192] : Fin 3 → Nat) ![1, 1, 1] ![0, 0, 8191] ![0, 0, 0] S128x27x8192
  reducesTo_S128x27x8192_S128x27_d2 : S128x27x8192.ReducesTo [2] S128x27
  bcast_S128x27x1_S128x27x512_0_1_2 : S128x27x1.BroadcastsInDim S128x27x512 (![0, 1, 2] : Fin 3 → Fin S128x27x512.rank)
  bcast_S128_S128x1x1_0 : S128.BroadcastsInDim S128x1x1 (![0] : Fin 1 → Fin S128x1x1.rank)
  bcast_S27_S1x27x1_1 : S27.BroadcastsInDim S1x27x1 (![1] : Fin 1 → Fin S1x27x1.rank)
  bcast_S8192_S1x1x8192_2 : S8192.BroadcastsInDim S1x1x8192 (![2] : Fin 1 → Fin S1x1x8192.rank)
  bcast_S1x1x8192_S128x27x8192_0_1_2 : S1x1x8192.BroadcastsInDim S128x27x8192 (![0, 1, 2] : Fin 3 → Fin S128x27x8192.rank)
  bcast_S_S128x1x1 : S_.BroadcastsInDim S128x1x1 (![] : Fin 0 → Fin S128x1x1.rank)
  bcast_S_S1x27x1 : S_.BroadcastsInDim S1x27x1 (![] : Fin 0 → Fin S1x27x1.rank)
  bcast_S128x1x1_S128x27x8192_0_1_2 : S128x1x1.BroadcastsInDim S128x27x8192 (![0, 1, 2] : Fin 3 → Fin S128x27x8192.rank)
  bcast_S1x27x1_S128x27x8192_0_1_2 : S1x27x1.BroadcastsInDim S128x27x8192 (![0, 1, 2] : Fin 3 → Fin S128x27x8192.rank)
  bcast_S128x27x8192_S128x27x8192x1_0_1_2 : S128x27x8192.BroadcastsInDim S128x27x8192x1 (![0, 1, 2] : Fin 3 → Fin S128x27x8192x1.rank)
  concatenates_S128x27x8192x1_S128x27x8192x1_S128x27x8192x1_S128x27x8192x3_d3 : Shape.Concatenates [S128x27x8192x1, S128x27x8192x1, S128x27x8192x1] S128x27x8192x3 3
  bcast_S128x8192x3_S128x1x8192x3_0_2_3 : S128x8192x3.BroadcastsInDim S128x1x8192x3 (![0, 2, 3] : Fin 3 → Fin S128x1x8192x3.rank)
  bcast_S128x27x512_S128x27x512x1_0_1_2 : S128x27x512.BroadcastsInDim S128x27x512x1 (![0, 1, 2] : Fin 3 → Fin S128x27x512x1.rank)
  bcast_S_S128x27x512x1 : S_.BroadcastsInDim S128x27x512x1 (![] : Fin 0 → Fin S128x27x512x1.rank)
  shapeCasts_S128x1x8192x3_S128x8192x3 : S128x1x8192x3.ShapeCasts S128x8192x3
  bcast_S1_S1x1x1x1_3 : S1.BroadcastsInDim S1x1x1x1 (![3] : Fin 1 → Fin S1x1x1x1.rank)
  bcast_S1x1x1x1_S128x27x512x1_0_1_2_3 : S1x1x1x1.BroadcastsInDim S128x27x512x1 (![0, 1, 2, 3] : Fin 4 → Fin S128x27x512x1.rank)
  reducesTo_S128x27x512x1_S128x27x512_d3 : S128x27x512x1.ReducesTo [3] S128x27x512
  bcast_S128x27x512_S128x27x512x3_0_1_2 : S128x27x512.BroadcastsInDim S128x27x512x3 (![0, 1, 2] : Fin 3 → Fin S128x27x512x3.rank)
  bcast_S_S128x27x512x3 : S_.BroadcastsInDim S128x27x512x3 (![] : Fin 0 → Fin S128x27x512x3.rank)
  bcast_S128x27x3_S128x27x1x3_0_1_3 : S128x27x3.BroadcastsInDim S128x27x1x3 (![0, 1, 3] : Fin 3 → Fin S128x27x1x3.rank)
  bcast_S128x27x1x3_S128x27x512x3_0_1_2_3 : S128x27x1x3.BroadcastsInDim S128x27x512x3 (![0, 1, 2, 3] : Fin 4 → Fin S128x27x512x3.rank)
  shapeCasts_S128x27x512x3_S3456x512x3 : S128x27x512x3.ShapeCasts S3456x512x3
  dot_S128x27x3_S128x8192x3_S128x27x8192_2_2_1_1_0_0_wf : DotDims.WF S128x27x3 S128x8192x3 S128x27x8192 [2] [2] [1] [1] [0] [0]
  scatter_S128x27x512_S128x27x8192x3_S128x27x8192_n_012_012_3_wf : ScatterDims.WF S128x27x512 S128x27x8192x3 S128x27x8192 [] [0, 1, 2] [0, 1, 2] 3
  gather_S128x8192x3_S128x27x512x1_S128x27x512x3_3_1_0_0_1_3_113_wf : GatherDims.WF S128x8192x3 S128x27x512x1 S128x27x512x3 [3] [1] [0] [1] [0] 3 ![1, 1, 3]

variable [Facts₀]

def dot_S128x27x3_S128x8192x3_S128x27x8192_2_2_1_1_0_0 : DotDims S128x27x3 S128x8192x3 S128x27x8192 where
  lhsContracting := [2]
  rhsContracting := [2]
  lhsNonContracting := [1]
  rhsNonContracting := [1]
  lhsBatch := [0]
  rhsBatch := [0]
  wf := dot_S128x27x3_S128x8192x3_S128x27x8192_2_2_1_1_0_0_wf
def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def scatter_S128x27x512_S128x27x8192x3_S128x27x8192_n_012_012_3 : ScatterDims S128x27x512 S128x27x8192x3 S128x27x8192 where
  updateWindowDims := []
  insertedWindowDims := [0, 1, 2]
  scatterDimsToOperandDims := [0, 1, 2]
  indexVectorDim := 3
  wf := scatter_S128x27x512_S128x27x8192x3_S128x27x8192_n_012_012_3_wf
def gather_S128x8192x3_S128x27x512x1_S128x27x512x3_3_1_0_0_1_3_113 : GatherDims S128x8192x3 S128x27x512x1 S128x27x512x3 where
  offsetDims := [3]
  collapsedSliceDims := [1]
  operandBatchingDims := [0]
  startIndicesBatchingDims := [0]
  startIndexMap := [1]
  indexVectorDim := 3
  sliceSizes := ![1, 1, 3]
  wf := gather_S128x8192x3_S128x27x512x1_S128x27x512x3_3_1_0_0_1_3_113_wf

class Facts : Prop extends Facts₀ where

variable [Facts]
-- ==== Proof.KFrame.lean ====
/-
  The frame of the kernel program as printed (word level): one launch of the mask kernel over the 128 batches, then the host lines that turn
  the mask into the grouped neighbours. The kernel's body reads its two input blocks whole, computes one [1, 27, 8192]
  block of the mask and stores it whole; nothing is kept between batches. The proof data name what each staging
  buffer holds after the body at batch t (the inputs' blocks unchanged, the output's the payload of the two input
  blocks), the body obligation is the body's run on those buffers, and the launch theorem for a region followed by
  host lines gives: every execution terminates, the three arrays of the launch end at what the library computes from
  the proof data, and every other buffer ends at the host lines' fold over the region's exit contents. The host
  lines write none of the three arrays, so the two argument arrays end as launched.
-/
import proofs.«112360_j40630390620888_2_alg».proof.Proof.Gen.Kernel.Launch
import proofs.«112360_j40630390620888_2_alg».proof.Proof.Gen.Kernel.Skeleton
import proofs.«112360_j40630390620888_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region -/

/-- The host lines after the region, stretch by stretch (each outlined function a stretch of its own). -/
abbrev tailOps : List (List (HloOp τ sig (Elt F))) :=
  [hostOps1, hostOps1_1, hostOps1_2, hostOps1_3, hostOps1_4, hostOps1_5, hostOps1_6, hostOps1_7]

/-- Core `c`'s buffer contents when the region is entered: no host line runs before it, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

/-- @main is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- None of a stretch's lines writes one of the launch's three arrays: each writes its own result buffer. -/
theorem hostOps1_keeps : (hostOps1 : List (HloOp τ sig (Elt F))).Forall fun op =>
    ∀ w : Fin cfg0.W, Proc.devRef (τ := τ) .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_1_keeps : (hostOps1_1 : List (HloOp τ sig (Elt F))).Forall fun op =>
    ∀ w : Fin cfg0.W, Proc.devRef (τ := τ) .tc (Pipeline.arrRef spec0 w) ∉ op.writes := by
  simp only [hostOps1_1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_2_keeps : (hostOps1_2 : List (HloOp τ sig (Elt F))).Forall fun op =>
    ∀ w : Fin cfg0.W, Proc.devRef (τ := τ) .tc (Pipeline.arrRef spec0 w) ∉ op.writes := by
  simp only [hostOps1_2, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_3_keeps : (hostOps1_3 : List (HloOp τ sig (Elt F))).Forall fun op =>
    ∀ w : Fin cfg0.W, Proc.devRef (τ := τ) .tc (Pipeline.arrRef spec0 w) ∉ op.writes := by
  simp only [hostOps1_3, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_4_keeps : (hostOps1_4 : List (HloOp τ sig (Elt F))).Forall fun op =>
    ∀ w : Fin cfg0.W, Proc.devRef (τ := τ) .tc (Pipeline.arrRef spec0 w) ∉ op.writes := by
  simp only [hostOps1_4, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_5_keeps : (hostOps1_5 : List (HloOp τ sig (Elt F))).Forall fun op =>
    ∀ w : Fin cfg0.W, Proc.devRef (τ := τ) .tc (Pipeline.arrRef spec0 w) ∉ op.writes := by
  simp only [hostOps1_5, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_6_keeps : (hostOps1_6 : List (HloOp τ sig (Elt F))).Forall fun op =>
    ∀ w : Fin cfg0.W, Proc.devRef (τ := τ) .tc (Pipeline.arrRef spec0 w) ∉ op.writes := by
  simp only [hostOps1_6, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_7_keeps : (hostOps1_7 : List (HloOp τ sig (Elt F))).Forall fun op =>
    ∀ w : Fin cfg0.W, Proc.devRef (τ := τ) .tc (Pipeline.arrRef spec0 w) ∉ op.writes := by
  simp only [hostOps1_7, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- A fact of every line of every stretch, from the stretches' own. -/
theorem tail_forall {p : HloOp τ sig (Elt F) → Prop}
    (h0 : (hostOps1 : List (HloOp τ sig (Elt F))).Forall p) (h1 : (hostOps1_1 : List (HloOp τ sig (Elt F))).Forall p)
    (h2 : (hostOps1_2 : List (HloOp τ sig (Elt F))).Forall p) (h3 : (hostOps1_3 : List (HloOp τ sig (Elt F))).Forall p)
    (h4 : (hostOps1_4 : List (HloOp τ sig (Elt F))).Forall p) (h5 : (hostOps1_5 : List (HloOp τ sig (Elt F))).Forall p)
    (h6 : (hostOps1_6 : List (HloOp τ sig (Elt F))).Forall p) (h7 : (hostOps1_7 : List (HloOp τ sig (Elt F))).Forall p) :
    ∀ ops ∈ (tailOps : List (List (HloOp τ sig (Elt F)))), ∀ op ∈ ops, p op := by
  intro ops hops op hop
  simp only [tailOps, List.mem_cons, List.mem_nil_iff, or_false] at hops
  rcases hops with rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop

/-- The lines after the region touch the launch's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_forall (p := fun op => op.bufs ⊆ StableHlo.tcRefs τ sig)
    hostOps1_sub hostOps1_1_sub hostOps1_2_sub hostOps1_3_sub hostOps1_4_sub hostOps1_5_sub hostOps1_6_sub hostOps1_7_sub ops hops op hop)
/-- They allocate nothing. -/
theorem sfx_fresh : ∀ ops ∈ (tailOps : List (List (HloOp τ sig (Elt F)))), ∀ op ∈ ops, op.fresh = ∅ :=
  tail_forall hostOps1_fresh hostOps1_1_fresh hostOps1_2_fresh hostOps1_3_fresh hostOps1_4_fresh hostOps1_5_fresh hostOps1_6_fresh hostOps1_7_fresh
/-- And write no array of the launch. -/
theorem sfx_keeps : ∀ ops ∈ (tailOps : List (List (HloOp τ sig (Elt F)))), ∀ op ∈ ops,
    ∀ w, Proc.devRef .tc (Pipeline.arrRef spec0 w) ∉ op.writes :=
  tail_forall hostOps1_keeps hostOps1_1_keeps hostOps1_2_keeps hostOps1_3_keeps hostOps1_4_keeps hostOps1_5_keeps hostOps1_6_keeps hostOps1_7_keeps

/-! ## The windows' blocks -/

/-- Window `w`'s block at batch `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every batch, fetched there or not (the centres are
    fetched once: their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rX : Rect S1x8192x3 := Rect.unit (s := S1x8192x3) ![0, 0, 0] S1x8192x3.size inb_S1x8192x3_S1x8192x3_0_0_0
abbrev rC : Rect S1x27x3 := Rect.unit (s := S1x27x3) ![0, 0, 0] S1x27x3.size inb_S1x27x3_S1x27x3_0_0_0
abbrev rM : Rect S1x27x8192 := Rect.unit (s := S1x27x8192) ![0, 0, 0] S1x27x8192.size inb_S1x27x8192_S1x27x8192_0_0_0

/-- The mask block's staging buffer after the body: its one whole store of the payload of the two input blocks. -/
def maskOut (x0 : Vec F S1x8192x3 .f32) (x1 : Vec F S1x27x3 .f32) : Vec F S1x27x8192 .i32 :=
  View.canon [⟨rM, k0_pay1 (View.ld x0 rX) (View.ld x1 rC)⟩]

/-- The one store covers the buffer. -/
theorem maskCover (p0 : Vec F S1x27x8192 .i32) (y : S1x27x8192.Idx) :
    ∃ pc ∈ ([⟨rM, p0⟩] : List (View.Piece (Elt F) S1x27x8192 .i32)), y ∈ pc.1.set :=
  View.cover_of_tiled [⟨rM, p0⟩] S1x27x8192.size (by rfl) y

set_option maxHeartbeats 1000000 in
/-- The kernel body on whole staging memrefs, the inputs' at contents `x0`, `x1` and the output's at anything, runs to
    the continuation holding the inputs' as they were and the output's at `maskOut x0 x1`. -/
theorem sound_kernel (c : Dev nD) (E : Set ℕ) (i : grid0.Coords) (arg1 : Memref sig .tc .vmem S1x8192x3 .f32) (harg1 : arg1.IsWhole)
    (arg2 : Memref sig .tc .vmem S1x27x3 .f32) (harg2 : arg2.IsWhole) (arg3 : Memref sig .tc .vmem S1x27x8192 .i32) (harg3 : arg3.IsWhole)
    (x0 : Vec F S1x8192x3 .f32) (x1 : Vec F S1x27x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (maskOut x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (maskCover _)

/-! ## The proof data -/

/-- The proof data of the launch on core `c`: the arrays as the region finds them; after the body at batch `t` each
    input's buffer at its block and the output's at the payload of the input blocks; nothing of the kernel's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => maskOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = maskOut (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the launch's three arrays end at what the library computes from
    the proof data and every other buffer at the host lines' fold over the region's exit contents. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The two argument arrays are input windows' arrays: they end as the region found them, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_eq m c main_arg0))),
      ((h c).1 1).trans (((dats m 0 c).arrAt_in 1 rfl _).trans ((A_eq m c 1).trans (V_eq m c main_arg1)))⟩) (run_main m ρ)

end Cert.Kernel.Hand

end
-- ==== Proof.KIFrame.lean ====
/-
  The frame of the idealized kernel program: one launch of the mask kernel over the 128 batches, then the host lines that turn
  the mask into the grouped neighbours. The kernel's body reads its two input blocks whole, computes one [1, 27, 8192]
  block of the mask and stores it whole; nothing is kept between batches. The proof data name what each staging
  buffer holds after the body at batch t (the inputs' blocks unchanged, the output's the payload of the two input
  blocks), the body obligation is the body's run on those buffers, and the launch theorem for a region followed by
  host lines gives: every execution terminates, the three arrays of the launch end at what the library computes from
  the proof data, and every other buffer ends at the host lines' fold over the region's exit contents. The host
  lines write none of the three arrays, so the two argument arrays end as launched.
-/
import proofs.«112360_j40630390620888_2_alg».proof.Proof.Gen.KernelIdeal.Launch
import proofs.«112360_j40630390620888_2_alg».proof.Proof.Gen.KernelIdeal.Skeleton
import proofs.«112360_j40630390620888_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region -/

/-- The host lines after the region, stretch by stretch (each outlined function a stretch of its own). -/
abbrev tailOps : List (List (HloOp τ sig (Elt F))) :=
  [hostOps1, hostOps1_1, hostOps1_2, hostOps1_3, hostOps1_4, hostOps1_5, hostOps1_6, hostOps1_7]

/-- Core `c`'s buffer contents when the region is entered: no host line runs before it, so the launch contents. -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

theorem V_eq (c : Dev nD) (b : Ref sig .tc) : V m c b = m ((c : Thread nD τ).loc b) := rfl

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor

/-- @main is the region continued by the host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [] tailOps (by simp only [List.Forall])
    (by simp only [List.Forall]) main_chain

/-- None of a stretch's lines writes one of the launch's three arrays: each writes its own result buffer. -/
theorem hostOps1_keeps : (hostOps1 : List (HloOp τ sig (Elt F))).Forall fun op =>
    ∀ w : Fin cfg0.W, Proc.devRef (τ := τ) .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_1_keeps : (hostOps1_1 : List (HloOp τ sig (Elt F))).Forall fun op =>
    ∀ w : Fin cfg0.W, Proc.devRef (τ := τ) .tc (Pipeline.arrRef spec0 w) ∉ op.writes := by
  simp only [hostOps1_1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_2_keeps : (hostOps1_2 : List (HloOp τ sig (Elt F))).Forall fun op =>
    ∀ w : Fin cfg0.W, Proc.devRef (τ := τ) .tc (Pipeline.arrRef spec0 w) ∉ op.writes := by
  simp only [hostOps1_2, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_3_keeps : (hostOps1_3 : List (HloOp τ sig (Elt F))).Forall fun op =>
    ∀ w : Fin cfg0.W, Proc.devRef (τ := τ) .tc (Pipeline.arrRef spec0 w) ∉ op.writes := by
  simp only [hostOps1_3, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_4_keeps : (hostOps1_4 : List (HloOp τ sig (Elt F))).Forall fun op =>
    ∀ w : Fin cfg0.W, Proc.devRef (τ := τ) .tc (Pipeline.arrRef spec0 w) ∉ op.writes := by
  simp only [hostOps1_4, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_5_keeps : (hostOps1_5 : List (HloOp τ sig (Elt F))).Forall fun op =>
    ∀ w : Fin cfg0.W, Proc.devRef (τ := τ) .tc (Pipeline.arrRef spec0 w) ∉ op.writes := by
  simp only [hostOps1_5, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_6_keeps : (hostOps1_6 : List (HloOp τ sig (Elt F))).Forall fun op =>
    ∀ w : Fin cfg0.W, Proc.devRef (τ := τ) .tc (Pipeline.arrRef spec0 w) ∉ op.writes := by
  simp only [hostOps1_6, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)
theorem hostOps1_7_keeps : (hostOps1_7 : List (HloOp τ sig (Elt F))).Forall fun op =>
    ∀ w : Fin cfg0.W, Proc.devRef (τ := τ) .tc (Pipeline.arrRef spec0 w) ∉ op.writes := by
  simp only [hostOps1_7, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.nary_writes, Finset.mem_singleton] <;> exact StableHlo.devRef_ne_of_ne (by decide)

/-- A fact of every line of every stretch, from the stretches' own. -/
theorem tail_forall {p : HloOp τ sig (Elt F) → Prop}
    (h0 : (hostOps1 : List (HloOp τ sig (Elt F))).Forall p) (h1 : (hostOps1_1 : List (HloOp τ sig (Elt F))).Forall p)
    (h2 : (hostOps1_2 : List (HloOp τ sig (Elt F))).Forall p) (h3 : (hostOps1_3 : List (HloOp τ sig (Elt F))).Forall p)
    (h4 : (hostOps1_4 : List (HloOp τ sig (Elt F))).Forall p) (h5 : (hostOps1_5 : List (HloOp τ sig (Elt F))).Forall p)
    (h6 : (hostOps1_6 : List (HloOp τ sig (Elt F))).Forall p) (h7 : (hostOps1_7 : List (HloOp τ sig (Elt F))).Forall p) :
    ∀ ops ∈ (tailOps : List (List (HloOp τ sig (Elt F)))), ∀ op ∈ ops, p op := by
  intro ops hops op hop
  simp only [tailOps, List.mem_cons, List.mem_nil_iff, or_false] at hops
  rcases hops with rfl | rfl | rfl | rfl | rfl | rfl | rfl | rfl
  · exact (List.forall_iff_forall_mem.mp h0) op hop
  · exact (List.forall_iff_forall_mem.mp h1) op hop
  · exact (List.forall_iff_forall_mem.mp h2) op hop
  · exact (List.forall_iff_forall_mem.mp h3) op hop
  · exact (List.forall_iff_forall_mem.mp h4) op hop
  · exact (List.forall_iff_forall_mem.mp h5) op hop
  · exact (List.forall_iff_forall_mem.mp h6) op hop
  · exact (List.forall_iff_forall_mem.mp h7) op hop

/-- The lines after the region touch the launch's arrays and the buffers that bypass it only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_forall (p := fun op => op.bufs ⊆ StableHlo.tcRefs τ sig)
    hostOps1_sub hostOps1_1_sub hostOps1_2_sub hostOps1_3_sub hostOps1_4_sub hostOps1_5_sub hostOps1_6_sub hostOps1_7_sub ops hops op hop)
/-- They allocate nothing. -/
theorem sfx_fresh : ∀ ops ∈ (tailOps : List (List (HloOp τ sig (Elt F)))), ∀ op ∈ ops, op.fresh = ∅ :=
  tail_forall hostOps1_fresh hostOps1_1_fresh hostOps1_2_fresh hostOps1_3_fresh hostOps1_4_fresh hostOps1_5_fresh hostOps1_6_fresh hostOps1_7_fresh
/-- And write no array of the launch. -/
theorem sfx_keeps : ∀ ops ∈ (tailOps : List (List (HloOp τ sig (Elt F)))), ∀ op ∈ ops,
    ∀ w, Proc.devRef .tc (Pipeline.arrRef spec0 w) ∉ op.writes :=
  tail_forall hostOps1_keeps hostOps1_1_keeps hostOps1_2_keeps hostOps1_3_keeps hostOps1_4_keeps hostOps1_5_keeps hostOps1_6_keeps hostOps1_7_keeps

/-! ## The windows' blocks -/

/-- Window `w`'s block at batch `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every batch, fetched there or not (the centres are
    fetched once: their block index never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body -/

abbrev rX : Rect S1x8192x3 := Rect.unit (s := S1x8192x3) ![0, 0, 0] S1x8192x3.size inb_S1x8192x3_S1x8192x3_0_0_0
abbrev rC : Rect S1x27x3 := Rect.unit (s := S1x27x3) ![0, 0, 0] S1x27x3.size inb_S1x27x3_S1x27x3_0_0_0
abbrev rM : Rect S1x27x8192 := Rect.unit (s := S1x27x8192) ![0, 0, 0] S1x27x8192.size inb_S1x27x8192_S1x27x8192_0_0_0

/-- The mask block's staging buffer after the body: its one whole store of the payload of the two input blocks. -/
def maskOut (x0 : Vec F S1x8192x3 .f32) (x1 : Vec F S1x27x3 .f32) : Vec F S1x27x8192 .i32 :=
  View.canon [⟨rM, k0_pay1 (View.ld x0 rX) (View.ld x1 rC)⟩]

/-- The one store covers the buffer. -/
theorem maskCover (p0 : Vec F S1x27x8192 .i32) (y : S1x27x8192.Idx) :
    ∃ pc ∈ ([⟨rM, p0⟩] : List (View.Piece (Elt F) S1x27x8192 .i32)), y ∈ pc.1.set :=
  View.cover_of_tiled [⟨rM, p0⟩] S1x27x8192.size (by rfl) y

set_option maxHeartbeats 1000000 in
/-- The kernel body on whole staging memrefs, the inputs' at contents `x0`, `x1` and the output's at anything, runs to
    the continuation holding the inputs' as they were and the output's at `maskOut x0 x1`. -/
theorem sound_kernel (c : Dev nD) (E : Set ℕ) (i : grid0.Coords) (arg1 : Memref sig .tc .vmem S1x8192x3 .f32) (harg1 : arg1.IsWhole)
    (arg2 : Memref sig .tc .vmem S1x27x3 .f32) (harg2 : arg2.IsWhole) (arg3 : Memref sig .tc .vmem S1x27x8192 .i32) (harg3 : arg3.IsWhole)
    (x0 : Vec F S1x8192x3 .f32) (x1 : Vec F S1x27x3 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (maskOut x0 x1)) -∗ K ⟨⟩))
      ⊢ wp frame (wpE (defs₀ (F := F)) Variants.none c none) E (cc0__mask_kernel i arg1 harg1 arg2 harg2 arg3 harg3) K := by
  simp only [cc0__mask_kernel_eq_skeleton]; unfold cc0__mask_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (maskCover _)

/-! ## The proof data -/

/-- The proof data of the launch on core `c`: the arrays as the region finds them; after the body at batch `t` each
    input's buffer at its block and the output's at the payload of the input blocks; nothing of the kernel's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => maskOut (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = maskOut (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; the launch's three arrays end at what the library computes from
    the proof data and every other buffer at the host lines' fold over the region's exit contents. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The two argument arrays are input windows' arrays: they end as the region found them, which is as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats m 0 c).arrAt_in 0 rfl _).trans ((A_eq m c 0).trans (V_eq m c main_arg0))),
      ((h c).1 1).trans (((dats m 0 c).arrAt_in 1 rfl _).trans ((A_eq m c 1).trans (V_eq m c main_arg1)))⟩) (run_main m ρ)

end Cert.KernelIdeal.Hand

end
-- ==== Proof.RefMask.lean ====
/-
  The reference's ball-query mask as one pure function of the two argument arrays: for a batch b, a centre p and a
  point n, whether |x[b,n,:]|² + |c[p,:]|² − 2·⟨c[p,:], x[b,n,:]⟩ lies below the squared radius 1/16. The lines are
  the reference's first sixteen operations, one `have` each, in the program's order.
-/
import proofs.«112360_j40630390620888_2_alg».proof.ReferenceIdeal

noncomputable section

namespace Cert.ReferenceIdeal.Hand

open Idealize.ShloMosaic Idealize.SL.Sem Cert.ReferenceIdeal
open Cert.ReferenceIdeal.Facts₀ Cert.ReferenceIdeal.Facts

variable {F : FTy → Type} [FloatOps F] [Cert.ReferenceIdeal.Facts]

/-- The squared distance of every point to every centre, expanded as |x|² + |c|² − 2⟨c, x⟩, compared with 1/16. -/
def maskR (x : FVec F S128x8192x3 .f32) (c : FVec F S1x27x3 .f32) : IVec S128x27x8192 1 :=
  have v0 : FVec F S128x27x3 .f32 := broadcastInDim S128x27x3 ![0, 1, 2] bcast_S1x27x3_S128x27x3_0_1_2 c
  have v1 : FVec F S128x8192x3 .f32 := mulf x x
  have cst : FVec F S_ .f32 := constant S_ .f32 0x00000000#32
  have v2 : FVec F S128x8192 .f32 := Host.reduceAdd v1 cst reducesTo_S128x8192x3_S128x8192_d2 h_S_
  have v3 : FVec F S128x27x3 .f32 := mulf v0 v0
  have cst_0 : FVec F S_ .f32 := constant S_ .f32 0x00000000#32
  have v4 : FVec F S128x27 .f32 := Host.reduceAdd v3 cst_0 reducesTo_S128x27x3_S128x27_d2 h_S_
  have v5 : FVec F S128x27x8192 .f32 := Host.dotGeneral dot_S128x27x3_S128x8192x3_S128x27x8192_2_2_1_1_0_0 none v0 x
  have v6 : FVec F S128x1x8192 .f32 := broadcastInDim S128x1x8192 ![0, 2] bcast_S128x8192_S128x1x8192_0_2 v2
  have v7 : FVec F S128x27x1 .f32 := broadcastInDim S128x27x1 ![0, 1] bcast_S128x27_S128x27x1_0_1 v4
  have v8 : FVec F S128x27x8192 .f32 := broadcastInDim S128x27x8192 ![0, 1, 2] bcast_S128x1x8192_S128x27x8192_0_1_2 v6
  have v9 : FVec F S128x27x8192 .f32 := broadcastInDim S128x27x8192 ![0, 1, 2] bcast_S128x27x1_S128x27x8192_0_1_2 v7
  have v10 : FVec F S128x27x8192 .f32 := addf v8 v9
  have cst_1 : FVec F S_ .f32 := constant S_ .f32 0x40000000#32
  have v11 : FVec F S128x27x8192 .f32 := broadcastInDim S128x27x8192 ![] bcast_S_S128x27x8192 cst_1
  have v12 : FVec F S128x27x8192 .f32 := mulf v11 v5
  have v13 : FVec F S128x27x8192 .f32 := subf v10 v12
  have cst_2 : FVec F S_ .f32 := constant S_ .f32 0x3D800000#32
  have v14 : FVec F S128x27x8192 .f32 := broadcastInDim S128x27x8192 ![] bcast_S_S128x27x8192 cst_2
  cmpf .olt v13 v14

end Cert.ReferenceIdeal.Hand

end
-- ==== Proof.MaskBlockK.lean ====
/-
  The kernel's side of the ball-query mask, read at one index. For one batch the kernel holds the points as an
  [8192, 3] matrix and the centres as a [27, 3] matrix, and stores the [27, 8192] table whose entry (p, n) says whether
  |x_n|² + |c_p|² − 2·⟨c_p, x_n⟩ < 1/16, widened to a 32-bit word. This file reads that entry as a function of the three
  coordinates of the point and of the centre: the two squared norms are sums over the coordinate axis, the inner
  product is the matrix product's entry, and everything else is pointwise or a change of layout.
-/
import proofs.«112360_j40630390620888_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.MaskBlock

open Idealize.ShloMosaic Idealize.ShloMosaic.ValueIdx

/-- Whether the point with coordinates `X` lies within distance 1/4 of the centre with coordinates `C`, as both
    programs compute it over the extended reals: |X|² + |C|² − 2·⟨C, X⟩ < 1/16, one bit. The constants stay the
    words 2.0 and 0.0625 of the programs. -/
def within (X C : Fin 3 → EReal) : BitVec 1 :=
  FloatOps.cmpf (F := Ideal) (φ := .f32) .olt
    ((∑ d : Fin 3, X d * X d) + (∑ d : Fin 3, C d * C d)
      - Ideal.ofBits .f32 0x40000000#32 * ∑ d : Fin 3, C d * X d)
    (Ideal.ofBits .f32 0x3D800000#32)

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum over the second axis of an `[a, 3]` matrix reads, at row `i`, the sum of the row's three entries (the
    accumulator is the zero word, the neutral element, which the sum over the extended reals does not see). -/
theorem rowSum3_apply {a : ℕ} (src : FVec Ideal ⟨2, ![a, 3]⟩ .f32) (h : Shape.Reduces ⟨2, ![a, 3]⟩ [1] ⟨1, ![a]⟩)
    (hφ : FKind.Formats .f32) (hacc : (0x00000000#32 : BitVec 32) = 0x00000000#32) (i : Fin a) :
    multiReduction .add [1] ⟨1, ![a]⟩ src 0x00000000#32 h hφ hacc (ix1 i) = ∑ d : Fin 3, src (ix2 i d) := by
  refine (Ideal.multiReduction_add_single src 0x00000000#32 h hφ hacc (ix1 i)).trans ?_
  show ∑ d : Fin 3, src (h.lift (ix1 i) d) = ∑ d : Fin 3, src (ix2 i d)
  refine Finset.sum_congr rfl fun d _ => congrArg src ?_
  funext ax
  apply Fin.ext
  match ax with
  | ⟨0, _⟩ => rfl
  | ⟨1, _⟩ => rfl

open Cert.KernelIdeal Cert.KernelIdeal.Gen

/-- The product of the centres' matrix with the points' matrix, both contracted along their coordinate axis, into a
    zero accumulator: entry `(p, n)` is the sum over the three coordinates of the products. -/
theorem matmul_rows_apply (A : FVec Ideal S27x3 .f32) (B : FVec Ideal S8192x3 .f32) (p : Fin 27) (n : Fin 8192) :
    matmul dot_S27x3_S8192x3_S27x8192_1_1_0_0_n_n none A B (constant S27x8192 .f32 0x00000000#32) (ix2 p n)
      = ∑ d : Fin 3, A (ix2 p d) * B (ix2 n d) := by
  show FloatOps.matmul _ none A B (constant S27x8192 .f32 0x00000000#32) (ix2 p n) = _
  rw [Ideal.matmul_constant_zero_apply,
    ← Equiv.sum_comp (contrEquiv1 dot_S27x3_S8192x3_S27x8192_1_1_0_0_n_n 3 rfl rfl).symm]
  refine Finset.sum_congr rfl fun d _ => ?_
  have c3 := contrEquiv1_symm_val dot_S27x3_S8192x3_S27x8192_1_1_0_0_n_n 3 rfl rfl d
  have l : dot_S27x3_S8192x3_S27x8192_1_1_0_0_n_n.lhsIdx (ix2 p n)
      ((contrEquiv1 _ 3 rfl rfl).symm d) = ix2 p d := by
    funext ax; apply Fin.ext
    match ax with
    | ⟨0, _⟩ => simp [DotDims.lhsIdx, dot_S27x3_S8192x3_S27x8192_1_1_0_0_n_n]; rfl
    | ⟨1, _⟩ => simp [DotDims.lhsIdx, dot_S27x3_S8192x3_S27x8192_1_1_0_0_n_n]; exact c3
  have r : dot_S27x3_S8192x3_S27x8192_1_1_0_0_n_n.rhsIdx (ix2 p n)
      ((contrEquiv1 _ 3 rfl rfl).symm d) = ix2 n d := by
    funext ax; apply Fin.ext
    match ax with
    | ⟨0, _⟩ => simp [DotDims.rhsIdx, dot_S27x3_S8192x3_S27x8192_1_1_0_0_n_n]; rfl
    | ⟨1, _⟩ => simp [DotDims.rhsIdx, dot_S27x3_S8192x3_S27x8192_1_1_0_0_n_n]; exact c3
  rw [l, r]

/-- The kernel's stored block at `(0, p, n)`: the bit `within` of point `n`'s and centre `p`'s coordinates, widened
    to 32 bits. -/
theorem kernel_apply (x0 : Vec Ideal S1x8192x3 .f32) (c : FVec Ideal S1x27x3 .f32) (p : Fin 27) (n : Fin 8192) :
    k0_pay1 (F := Ideal) x0 c (ix3 (0 : Fin 1) p n)
      = (within (fun d => x0 (ix3 (0 : Fin 1) n d)) (fun d => c (ix3 (0 : Fin 1) p d))).setWidth 32 := by
  unfold k0_pay1
  -- the unit batch axis of the stored block
  refine (shapeCast_ab_1ab_apply _ _ (0 : Fin 1) p n).trans ?_
  -- the pointwise operations
  simp only [extui_apply, cmpf_apply, subf_apply, addf_apply, mulf_apply, broadcast_apply]
  -- the row of squared norms of the points laid under every centre, the column of the centres' beside every point
  rw [broadcastTo_1b_ab_apply, broadcastTo_a1_ab_apply, shapeCast_a_1a_apply, shapeCast_a_a1_apply]
  -- the two sums of squares and the inner product
  rw [rowSum3_apply, rowSum3_apply, matmul_rows_apply]
  -- the operands' own unit batch axis
  simp only [mulf_apply, shapeCast_1ab_ab_apply]
  rfl

end Cert.MaskBlock

end
-- ==== Proof.MaskBlockR.lean ====
/-
  The reference's side of the ball-query mask, read at one index. The reference computes, for all batches at once,
  the [128, 27, 8192] table whose entry (b, p, n) says whether |x_{b,n}|² + |c_p|² − 2·⟨c_p, x_{b,n}⟩ < 1/16. This file
  reads that entry as the same function of the point's and the centre's three coordinates that the kernel's entry is:
  the squared norms are the host's sums over the coordinate axis from a zero initial value, the inner product is the
  batched product's entry, and the rest is pointwise or a broadcast.
-/
import proofs.«112360_j40630390620888_2_alg».proof.Proof.RefMask
import proofs.«112360_j40630390620888_2_alg».proof.Proof.MaskBlockK
import Idealize.ShloMosaic.Lib.ValueIdx
import Idealize.ShloMosaic.Lib.ValueLayout
import Idealize.ShloMosaic.Lib.Pipeline.Value
import Idealize.ShloMosaic.PureOps.Ideal.Laws

noncomputable section

namespace Cert.MaskBlock

open Idealize.ShloMosaic Idealize.ShloMosaic.ValueIdx
open Cert.ReferenceIdeal Cert.ReferenceIdeal.Hand Cert.ReferenceIdeal.Facts₀

section RefLayout
variable {α : Type}

/-- The centres repeated for every batch: entry `(b, p, d)` is the centre's entry `(0, p, d)`. -/
theorem bcast_centres_apply (v : S1x27x3.Idx → α) (h : S1x27x3.BroadcastsInDim S128x27x3 ![0, 1, 2])
    (b : Fin 128) (p : Fin 27) (d : Fin 3) :
    broadcastInDim S128x27x3 ![0, 1, 2] h v (ix3 b p d) = v (ix3 (0 : Fin 1) p d) :=
  broadcastInDim_apply ![0, 1, 2] h v _ _ fun a => by
    match a with
    | ⟨0, _⟩ => rfl
    | ⟨1, _⟩ => rfl
    | ⟨2, _⟩ => rfl

/-- A `[128, 8192]` array given a unit middle axis: entry `(b, u, n)` is the entry `(b, n)`. -/
theorem bcast_points_unit_apply (v : S128x8192.Idx → α) (h : S128x8192.BroadcastsInDim S128x1x8192 ![0, 2])
    (b : Fin 128) (u : Fin 1) (n : Fin 8192) :
    broadcastInDim S128x1x8192 ![0, 2] h v (ix3 b u n) = v (ix2 b n) :=
  broadcastInDim_apply ![0, 2] h v _ _ fun a => by
    match a with
    | ⟨0, _⟩ => rfl
    | ⟨1, _⟩ => rfl

/-- … and then repeated for every centre: entry `(b, p, n)` is the entry `(b, 0, n)`. -/
theorem bcast_points_all_apply (v : S128x1x8192.Idx → α) (h : S128x1x8192.BroadcastsInDim S128x27x8192 ![0, 1, 2])
    (b : Fin 128) (p : Fin 27) (n : Fin 8192) :
    broadcastInDim S128x27x8192 ![0, 1, 2] h v (ix3 b p n) = v (ix3 b (0 : Fin 1) n) :=
  broadcastInDim_apply ![0, 1, 2] h v _ _ fun a => by
    match a with
    | ⟨0, _⟩ => rfl
    | ⟨1, _⟩ => rfl
    | ⟨2, _⟩ => rfl

/-- A `[128, 27]` array given a unit last axis: entry `(b, p, u)` is the entry `(b, p)`. -/
theorem bcast_centres_unit_apply (v : S128x27.Idx → α) (h : S128x27.BroadcastsInDim S128x27x1 ![0, 1])
    (b : Fin 128) (p : Fin 27) (u : Fin 1) :
    broadcastInDim S128x27x1 ![0, 1] h v (ix3 b p u) = v (ix2 b p) :=
  broadcastInDim_apply ![0, 1] h v _ _ fun a => by
    match a with
    | ⟨0, _⟩ => rfl
    | ⟨1, _⟩ => rfl

/-- … and then repeated for every point: entry `(b, p, n)` is the entry `(b, p, 0)`. -/
theorem bcast_centres_all_apply (v : S128x27x1.Idx → α) (h : S128x27x1.BroadcastsInDim S128x27x8192 ![0, 1, 2])
    (b : Fin 128) (p : Fin 27) (n : Fin 8192) :
    broadcastInDim S128x27x8192 ![0, 1, 2] h v (ix3 b p n) = v (ix3 b p (0 : Fin 1)) :=
  broadcastInDim_apply ![0, 1, 2] h v _ _ fun a => by
    match a with
    | ⟨0, _⟩ => rfl
    | ⟨1, _⟩ => rfl
    | ⟨2, _⟩ => rfl

/-- A scalar repeated everywhere reads the scalar. -/
theorem bcast_scalar_apply (v : S_.Idx → α) (h : S_.BroadcastsInDim S128x27x8192 ![])
    (b : Fin 128) (p : Fin 27) (n : Fin 8192) :
    broadcastInDim S128x27x8192 ![] h v (ix3 b p n) = v ix0 :=
  broadcastInDim_apply ![] h v _ _ fun a => a.elim0

end RefLayout

/-- The host's sum over a point's three coordinates, from a zero initial value. -/
theorem hostSum_points_apply (src : FVec Ideal S128x8192x3 .f32) (h' : S128x8192x3.ReducesTo [2] S128x8192)
    (hu : 0 < S_.numel) (b : Fin 128) (n : Fin 8192) :
    Host.reduceAdd src (constant S_ .f32 0x00000000#32) h' hu (ix2 b n) = ∑ d : Fin 3, src (ix3 b n d) := by
  have h : S128x8192x3.Reduces [2] S128x8192 := by decide
  show Ideal.hostReduceAdd h' src (Ideal.ofBits .f32 0x00000000#32) (ix2 b n) = _
  rw [Ideal.hostReduceAdd_single h' h, Ideal.ofBits_zero_f32, zero_add]
  show ∑ d : Fin 3, src (h.lift (ix2 b n) d) = _
  refine Finset.sum_congr rfl fun d _ => congrArg src ?_
  funext ax
  apply Fin.ext
  match ax with
  | ⟨0, _⟩ => rfl
  | ⟨1, _⟩ => rfl
  | ⟨2, _⟩ => rfl

/-- The host's sum over a centre's three coordinates, from a zero initial value. -/
theorem hostSum_centres_apply (src : FVec Ideal S128x27x3 .f32) (h' : S128x27x3.ReducesTo [2] S128x27)
    (hu : 0 < S_.numel) (b : Fin 128) (p : Fin 27) :
    Host.reduceAdd src (constant S_ .f32 0x00000000#32) h' hu (ix2 b p) = ∑ d : Fin 3, src (ix3 b p d) := by
  have h : S128x27x3.Reduces [2] S128x27 := by decide
  show Ideal.hostReduceAdd h' src (Ideal.ofBits .f32 0x00000000#32) (ix2 b p) = _
  rw [Ideal.hostReduceAdd_single h' h, Ideal.ofBits_zero_f32, zero_add]
  show ∑ d : Fin 3, src (h.lift (ix2 b p) d) = _
  refine Finset.sum_congr rfl fun d _ => congrArg src ?_
  funext ax
  apply Fin.ext
  match ax with
  | ⟨0, _⟩ => rfl
  | ⟨1, _⟩ => rfl
  | ⟨2, _⟩ => rfl

variable [Cert.ReferenceIdeal.Facts]

/-- The batched product of the centres with the points: entry `(b, p, n)` is the sum over the three coordinates. -/
theorem dot_batched_apply (A : FVec Ideal S128x27x3 .f32) (B : FVec Ideal S128x8192x3 .f32)
    (b : Fin 128) (p : Fin 27) (n : Fin 8192) :
    Host.dotGeneral dot_S128x27x3_S128x8192x3_S128x27x8192_2_2_1_1_0_0 none A B (ix3 b p n)
      = ∑ d : Fin 3, A (ix3 b p d) * B (ix3 b n d) := by
  show FloatOps.dotGeneral _ none _ A B (ix3 b p n) = _
  rw [Ideal.dotGeneral_apply,
    ← Equiv.sum_comp (contrEquiv1 dot_S128x27x3_S128x8192x3_S128x27x8192_2_2_1_1_0_0 3 rfl rfl).symm]
  refine Finset.sum_congr rfl fun d _ => ?_
  have c3 := contrEquiv1_symm_val dot_S128x27x3_S128x8192x3_S128x27x8192_2_2_1_1_0_0 3 rfl rfl d
  have l : dot_S128x27x3_S128x8192x3_S128x27x8192_2_2_1_1_0_0.lhsIdx (ix3 b p n)
      ((contrEquiv1 _ 3 rfl rfl).symm d) = ix3 b p d := by
    funext ax; apply Fin.ext
    match ax with
    | ⟨0, _⟩ => simp [DotDims.lhsIdx, dot_S128x27x3_S128x8192x3_S128x27x8192_2_2_1_1_0_0]; rfl
    | ⟨1, _⟩ => simp [DotDims.lhsIdx, dot_S128x27x3_S128x8192x3_S128x27x8192_2_2_1_1_0_0]; rfl
    | ⟨2, _⟩ => simp [DotDims.lhsIdx, dot_S128x27x3_S128x8192x3_S128x27x8192_2_2_1_1_0_0]; exact c3
  have r : dot_S128x27x3_S128x8192x3_S128x27x8192_2_2_1_1_0_0.rhsIdx (ix3 b p n)
      ((contrEquiv1 _ 3 rfl rfl).symm d) = ix3 b n d := by
    funext ax; apply Fin.ext
    match ax with
    | ⟨0, _⟩ => simp [DotDims.rhsIdx, dot_S128x27x3_S128x8192x3_S128x27x8192_2_2_1_1_0_0]; rfl
    | ⟨1, _⟩ => simp [DotDims.rhsIdx, dot_S128x27x3_S128x8192x3_S128x27x8192_2_2_1_1_0_0]; rfl
    | ⟨2, _⟩ => simp [DotDims.rhsIdx, dot_S128x27x3_S128x8192x3_S128x27x8192_2_2_1_1_0_0]; exact c3
  rw [l, r]

/-- The reference's mask at `(b, p, n)`: the bit `within` of point `(b, n)`'s and centre `p`'s coordinates. -/
theorem reference_apply (x : FVec Ideal S128x8192x3 .f32) (c : FVec Ideal S1x27x3 .f32)
    (b : Fin 128) (p : Fin 27) (n : Fin 8192) :
    maskR (F := Ideal) x c (ix3 b p n)
      = within (fun d => x (ix3 b n d)) (fun d => c (ix3 (0 : Fin 1) p d)) := by
  unfold maskR
  -- the pointwise operations
  simp only [cmpf_apply, subf_apply, addf_apply, mulf_apply]
  -- the broadcasts of the two squared norms and of the two constants, then the sums and the inner product
  rw [bcast_points_all_apply, bcast_points_unit_apply, bcast_centres_all_apply, bcast_centres_unit_apply,
    bcast_scalar_apply, bcast_scalar_apply, hostSum_points_apply, hostSum_centres_apply, dot_batched_apply]
  simp only [mulf_apply, constant_apply]
  -- the centres were repeated for every batch: entry (b, p, d) is the centre's own entry
  have hc : (fun d : Fin 3 => broadcastInDim S128x27x3 ![0, 1, 2] bcast_S1x27x3_S128x27x3_0_1_2 c (ix3 b p d))
      = fun d : Fin 3 => c (ix3 (0 : Fin 1) p d) :=
    funext fun d => bcast_centres_apply c _ b p d
  exact congrArg (within fun d => x (ix3 b n d)) hc

end Cert.MaskBlock

end
-- ==== Proof.MaskBlock.lean ====
/-
  The kernel's block of the ball-query mask for one batch agrees, entry by entry, with the reference's mask for that
  batch. Both entries are the same one-bit comparison |x|² + |c|² − 2·⟨c, x⟩ < 1/16 of the point's and the centre's three
  coordinates (`within`); the kernel widens the bit to a 32-bit word before it stores it, the reference converts the
  whole mask afterwards, and the kernel's block of points is the batch's slice of the reference's points.
-/
import proofs.«112360_j40630390620888_2_alg».proof.Proof.Gen.KernelIdeal.Skeleton
import proofs.«112360_j40630390620888_2_alg».proof.Proof.RefMask
import proofs.«112360_j40630390620888_2_alg».proof.Proof.MaskBlockK
import proofs.«112360_j40630390620888_2_alg».proof.Proof.MaskBlockR
import Idealize.ShloMosaic.Lib.ValueIdx
import Idealize.ShloMosaic.Lib.ValueLayout
import Idealize.ShloMosaic.Lib.Pipeline.Value
import Idealize.ShloMosaic.PureOps.Ideal.Laws

noncomputable section

namespace Cert.MaskBlock

open Idealize.ShloMosaic Idealize.ShloMosaic.ValueIdx

variable [Cert.KernelIdeal.Facts] [Cert.ReferenceIdeal.Facts]

/-- For batch `b`, whose points the kernel holds as the block `x0`: the kernel's stored word at `(0, p, n)` is the
    reference's mask bit at `(b, p, n)`, widened to 32 bits. -/
theorem mask_block (x : FVec Ideal Cert.KernelIdeal.S128x8192x3 .f32) (c : FVec Ideal Cert.KernelIdeal.S1x27x3 .f32)
    (b : Fin 128) (x0 : Vec Ideal Cert.KernelIdeal.S1x8192x3 .f32)
    (hx0 : ∀ (n : Fin 8192) (d : Fin 3), x0 (ix3 (0 : Fin 1) n d) = x (ix3 b n d)) (p : Fin 27) (n : Fin 8192) :
    Cert.KernelIdeal.Gen.k0_pay1 (F := Ideal) x0 c (ix3 (0 : Fin 1) p n)
      = (extui 32 (Cert.ReferenceIdeal.Hand.maskR (F := Ideal) x c) Cert.ReferenceIdeal.Facts₀.natLt_1_32) (ix3 b p n) := by
  have hrow : (fun d : Fin 3 => x0 (ix3 (0 : Fin 1) n d)) = fun d : Fin 3 => x (ix3 b n d) :=
    funext fun d => hx0 n d
  rw [kernel_apply, extui_apply, reference_apply, hrow]

end Cert.MaskBlock

end
-- ==== Proof.KIValue.lean ====
/-
  The mask array after the launch, as one function of the two argument arrays. Batch t's block of the mask is the
  whole [1, 27, 8192] slab at row t; the body's payload there, read at centre p and point n, is the reference's mask
  at (t, p, n) widened to 32 bits (the index-by-index lemma of the mask). The 128 slabs tile the array, so the array
  ends holding that function everywhere; the two argument arrays are inputs and end as launched.
-/
import proofs.«112360_j40630390620888_2_alg».proof.Proof.KIFrame
import proofs.«112360_j40630390620888_2_alg».proof.Proof.RefMask
import proofs.«112360_j40630390620888_2_alg».proof.Proof.Gen.ReferenceIdeal
import proofs.«112360_j40630390620888_2_alg».proof.Proof.MaskBlock
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg)

/-- The whole mask as 32-bit integers: the reference's mask of the two arrays, widened. -/
abbrev G (x : FVec Ideal S128x8192x3 .f32) (c : FVec Ideal S1x27x3 .f32) : IVec S128x27x8192 32 :=
  extui 32 (Cert.ReferenceIdeal.Hand.maskR (F := Ideal) x c) Cert.ReferenceIdeal.Facts₀.natLt_1_32

theorem hz3 : (![0, 0, 0] : Fin 3 → Nat) = fun _ => 0 := funext fun a => by fin_cases a <;> rfl

/-- The printed index maps over the grid: the points' and the mask's blocks sit at row t, the centres' at row 0. -/
theorem idx_facts : ∀ t : Fin cfg0.N, win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem t_lt (t : Fin cfg0.N) : t.val < 128 := lt_of_lt_of_eq t.isLt N_0

/-- The centres' block at any batch is the whole centres array. -/
theorem centres_blk (c : Dev nD) (t : Fin cfg0.N) : iblk m c 1 t = V m c main_arg1 := by
  obtain ⟨-, -, -, e0, e1, e2, -, -, -⟩ := idx_facts t
  funext j
  show V m c main_arg1 (((cfg0.win 1).blk t).view.emb j) = V m c main_arg1 j
  refine congrArg _ ?_
  funext a; apply Fin.ext
  match a with
  | ⟨0, _⟩ => show win0_1.index t (0 : Fin 3) * 1 + 1 * (j 0).val = (j 0).val; omega
  | ⟨1, _⟩ => show win0_1.index t (1 : Fin 3) * 27 + 1 * (j 1).val = (j 1).val; omega
  | ⟨2, _⟩ => show win0_1.index t (2 : Fin 3) * 3 + 1 * (j 2).val = (j 2).val; omega

/-- The points' block at batch t is row t of the points array. -/
theorem points_blk (c : Dev nD) (t : Fin cfg0.N) (n : Fin 8192) (d : Fin 3) :
    iblk m c 0 t (ix3 (0 : Fin 1) n d) = V m c main_arg0 (ix3 (⟨t.val, t_lt t⟩ : Fin 128) n d) := by
  obtain ⟨e0, e1, e2, -, -, -, -, -, -⟩ := idx_facts t
  show V m c main_arg0 (((cfg0.win 0).blk t).view.emb (ix3 (0 : Fin 1) n d)) = _
  refine congrArg _ ?_
  funext a; apply Fin.ext
  match a with
  | ⟨0, _⟩ => show win0_0.index t (0 : Fin 3) * 1 + 1 * 0 = t.val; omega
  | ⟨1, _⟩ => show win0_0.index t (1 : Fin 3) * 8192 + 1 * n.val = n.val; omega
  | ⟨2, _⟩ => show win0_0.index t (2 : Fin 3) * 3 + 1 * d.val = d.val; omega

/-- What batch t writes back is block t of the whole mask. -/
theorem flushed_eq (c : Dev nD) (t : Fin cfg0.N) :
    (dats m 0 c).flushed 2 t = ((cfg0.win 2).blk t).view.read (Elt Ideal) (G (V m c main_arg0) (V m c main_arg1)) := by
  show (cfg0.win 2).cut (grid0.coords t) ((dats m 0 c).after 2 t) = _
  rw [after0_2]
  unfold maskOut
  rw [View.canon_unit_zero hz3]
  simp only [View.ld_unit_zero (S := S1x8192x3) hz3, View.ld_unit_zero (S := S1x27x3) hz3]
  rw [centres_blk]
  obtain ⟨-, -, -, -, -, -, e0, e1, e2⟩ := idx_facts t
  funext j
  obtain ⟨p, n, rfl⟩ : ∃ (p : Fin 27) (n : Fin 8192), j = ix3 (0 : Fin 1) p n :=
    ⟨j 1, j 2, by funext a; match a with | ⟨0, _⟩ => exact Fin.ext (by have h : (j 0).val < 1 := (j 0).isLt; show (j 0).val = 0; omega) | ⟨1, _⟩ => rfl | ⟨2, _⟩ => rfl⟩
  show k0_pay1 (iblk m c 0 t) (V m c main_arg1) (ix3 (0 : Fin 1) p n) = G (V m c main_arg0) (V m c main_arg1) (((cfg0.win 2).blk t).view.emb (ix3 (0 : Fin 1) p n))
  have hemb : ((cfg0.win 2).blk t).view.emb (ix3 (0 : Fin 1) p n) = ix3 (⟨t.val, t_lt t⟩ : Fin 128) p n := by
    funext a; apply Fin.ext
    match a with
    | ⟨0, _⟩ => show win0_2.index t (0 : Fin 3) * 1 + 1 * 0 = t.val; omega
    | ⟨1, _⟩ => show win0_2.index t (1 : Fin 3) * 27 + 1 * p.val = p.val; omega
    | ⟨2, _⟩ => show win0_2.index t (2 : Fin 3) * 8192 + 1 * n.val = n.val; omega
  rw [hemb]
  exact Cert.MaskBlock.mask_block (V m c main_arg0) (V m c main_arg1) ⟨t.val, t_lt t⟩ (iblk m c 0 t) (points_blk m c t) p n

/-- An index of the mask array is in batch t's block iff its row is t. -/
theorem mem_blk (t : Fin cfg0.N) (i : S128x27x8192.Idx) :
    i ∈ ((cfg0.win 2).blk t).view.set ↔ ∀ a : Fin 3, win0_2.index t a * S1x27x8192.size a ≤ (i a).val ∧ (i a).val < win0_2.index t a * S1x27x8192.size a + S1x27x8192.size a := by
  show i ∈ ((View.whole main_v0).slice (win0_2.rect t)).set ↔ _
  rw [View.set_slice_whole, Rect.mem_set_unit]
  exact Iff.rfl

/-- Every index of the mask array lies in the block of the batch that is its row. -/
theorem cover (i : S128x27x8192.Idx) : ∃ t : Fin cfg0.N, (cfg0.win 2).flush t = true ∧ i ∈ ((cfg0.win 2).blk t).view.set := by
  have hi0 : (i 0).val < 128 := (i 0).isLt
  have hi1 : (i 1).val < 27 := (i 1).isLt
  have hi2 : (i 2).val < 8192 := (i 2).isLt
  refine ⟨⟨(i 0).val, lt_of_lt_of_eq hi0 N_0.symm⟩, flush0_2 _, ?_⟩
  rw [mem_blk]
  obtain ⟨-, -, -, -, -, -, e0, e1, e2⟩ := idx_facts ⟨(i 0).val, lt_of_lt_of_eq hi0 N_0.symm⟩
  intro a
  match a with
  | ⟨0, _⟩ => show win0_2.index _ (0 : Fin 3) * 1 ≤ (i 0).val ∧ (i 0).val < win0_2.index _ (0 : Fin 3) * 1 + 1; simp only at e0; omega
  | ⟨1, _⟩ => show win0_2.index _ (1 : Fin 3) * 27 ≤ (i 1).val ∧ (i 1).val < win0_2.index _ (1 : Fin 3) * 27 + 27; omega
  | ⟨2, _⟩ => show win0_2.index _ (2 : Fin 3) * 8192 ≤ (i 2).val ∧ (i 2).val < win0_2.index _ (2 : Fin 3) * 8192 + 8192; omega

/-- The mask array after the launch is the whole mask of the two argument arrays as launched. -/
theorem final_mask (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

end Cert.KernelIdeal.HandValue

end
-- ==== Proof.KTail.lean ====
/-
  What the host lines after the mask kernel compute, as one pure function. From the mask (one bit per batch, centre
  and point), the same mask as 32-bit integers, the points x and the centres c: the running count of in-ball points
  along each row gives every in-ball point its slot (its count minus one; 512 for a point outside the ball); the first
  in-ball point of a row (0 if none) fills all 512 slots of the row; each point is then written to its slot, slots
  past 511 dropped; the points at the chosen indices are gathered and the row's centre is subtracted. The lines
  are the program's, one `have` each, in the program's order, the outlined functions' lines in place.
-/
import proofs.«112360_j40630390620888_2_alg».proof.KernelIdeal

noncomputable section

namespace Cert.KernelIdeal.Hand

open Idealize.ShloMosaic Idealize.SL.Sem Cert.KernelIdeal
open Cert.KernelIdeal.Facts₀ Cert.KernelIdeal.Facts

variable {F : FTy → Type} [FloatOps F] [Cert.KernelIdeal.Facts]

/-- Three index columns [128, 27, 8192, 1] joined along the last axis. -/
def join3 (p q r : IVec S128x27x8192x1 32) : IVec S128x27x8192x3 32 :=
  concatenate S128x27x8192x3 3 [⟨S128x27x8192x1, p⟩, ⟨S128x27x8192x1, q⟩, ⟨S128x27x8192x1, r⟩] concatenates_S128x27x8192x1_S128x27x8192x1_S128x27x8192x1_S128x27x8192x3_d3

/-- The index of the point chosen for every slot of every row, from the mask `mask` and its 32-bit form `cs`. -/
def idxOf (mask : IVec S128x27x8192 1) (cs : IVec S128x27x8192 32) : IVec S128x27x512x1 32 :=
  -- the running count along each row
  have k0c : IVec S_ 32 := constantI S_ 32 0#32
  have k0v0 : IVec S_ 32 := broadcastInDim S_ ![] bcast_S_S_ k0c
  have v3 : IVec S128x27x8192 32 := Host.reduceWindow IntOp.addi ![1, 1, 8192] ![1, 1, 1] ![0, 0, 8191] ![0, 0, 0] cs k0v0 reduceWindows_S128x27x8192_S128x27x8192_w1s1p0_0_w1s1p0_0_w8192s1p8191_0 h_S_
  have c_0 : IVec S_ 32 := constantI S_ 32 1#32
  have v4 : IVec S128x27x8192 32 := broadcastInDim S128x27x8192 ![] bcast_S_S128x27x8192 c_0
  have v5 : IVec S128x27x8192 32 := subi v3 v4
  have c_1 : IVec S_ 32 := constantI S_ 32 512#32
  -- the slot of every point: its count minus one inside the ball, 512 outside
  have w0 : IVec S_ 32 := id c_1
  have w1 : IVec S128x27x8192 32 := broadcastInDim S128x27x8192 ![] bcast_S_S128x27x8192 w0
  have v6 : IVec S128x27x8192 32 := select mask v5 w1
  -- the first in-ball point of every row
  have a0 : IVec S128x27x8192 32 := iotaInDim S128x27x8192 32 2
  have ac : IVec S_ 1 := constantI S_ 1 0#1
  have ac0 : IVec S_ 32 := constantI S_ 32 0#32
  have v7 : IVec S128x27 32 := fun j => (Host.reduce2 reducer_argmax_i1_i32 mask a0 ac ac0 reducesTo_S128x27x8192_S128x27_d2 h_S_ j).2
  have v8 : IVec S128x27x1 32 := broadcastInDim S128x27x1 ![0, 1] bcast_S128x27_S128x27x1_0_1 v7
  have v9 : IVec S128x27x512 32 := broadcastInDim S128x27x512 ![0, 1, 2] bcast_S128x27x1_S128x27x512_0_1_2 v8
  have v10 : IVec S128 32 := iotaInDim S128 32 0
  have v11 : IVec S128x1x1 32 := broadcastInDim S128x1x1 ![0] bcast_S128_S128x1x1_0 v10
  have v12 : IVec S27 32 := iotaInDim S27 32 0
  have v13 : IVec S1x27x1 32 := broadcastInDim S1x27x1 ![1] bcast_S27_S1x27x1_1 v12
  have v14 : IVec S8192 32 := iotaInDim S8192 32 0
  have v15 : IVec S1x1x8192 32 := broadcastInDim S1x1x8192 ![2] bcast_S8192_S1x1x8192_2 v14
  have v16 : IVec S128x27x8192 32 := broadcastInDim S128x27x8192 ![0, 1, 2] bcast_S1x1x8192_S128x27x8192_0_1_2 v15
  have c_2 : IVec S_ 32 := constantI S_ 32 0#32
  have v17 : IVec S128x1x1 32 := broadcastInDim S128x1x1 ![] bcast_S_S128x1x1 c_2
  have v18 : IVec S128x1x1 1 := cmpi .slt v11 v17
  have c_3 : IVec S_ 32 := constantI S_ 32 128#32
  have v19 : IVec S128x1x1 32 := broadcastInDim S128x1x1 ![] bcast_S_S128x1x1 c_3
  have v20 : IVec S128x1x1 32 := addi v11 v19
  have v21 : IVec S128x1x1 32 := select v18 v20 v11
  have c_4 : IVec S_ 32 := constantI S_ 32 0#32
  have v22 : IVec S1x27x1 32 := broadcastInDim S1x27x1 ![] bcast_S_S1x27x1 c_4
  have v23 : IVec S1x27x1 1 := cmpi .slt v13 v22
  have c_5 : IVec S_ 32 := constantI S_ 32 27#32
  have v24 : IVec S1x27x1 32 := broadcastInDim S1x27x1 ![] bcast_S_S1x27x1 c_5
  have v25 : IVec S1x27x1 32 := addi v13 v24
  have v26 : IVec S1x27x1 32 := select v23 v25 v13
  have c_6 : IVec S_ 32 := constantI S_ 32 0#32
  have v27 : IVec S128x27x8192 32 := broadcastInDim S128x27x8192 ![] bcast_S_S128x27x8192 c_6
  have v28 : IVec S128x27x8192 1 := cmpi .slt v6 v27
  have c_7 : IVec S_ 32 := constantI S_ 32 512#32
  have v29 : IVec S128x27x8192 32 := broadcastInDim S128x27x8192 ![] bcast_S_S128x27x8192 c_7
  have v30 : IVec S128x27x8192 32 := addi v6 v29
  have v31 : IVec S128x27x8192 32 := select v28 v30 v6
  have v32 : IVec S128x27x8192 32 := broadcastInDim S128x27x8192 ![0, 1, 2] bcast_S128x1x1_S128x27x8192_0_1_2 v21
  have v33 : IVec S128x27x8192 32 := broadcastInDim S128x27x8192 ![0, 1, 2] bcast_S1x27x1_S128x27x8192_0_1_2 v26
  have v34 : IVec S128x27x8192x1 32 := broadcastInDim S128x27x8192x1 ![0, 1, 2] bcast_S128x27x8192_S128x27x8192x1_0_1_2 v32
  have v35 : IVec S128x27x8192x1 32 := broadcastInDim S128x27x8192x1 ![0, 1, 2] bcast_S128x27x8192_S128x27x8192x1_0_1_2 v33
  have v36 : IVec S128x27x8192x1 32 := broadcastInDim S128x27x8192x1 ![0, 1, 2] bcast_S128x27x8192_S128x27x8192x1_0_1_2 v31
  have v37 : IVec S128x27x8192x3 32 := join3 v34 v35 v36
  -- every point written to its slot
  have v38 : IVec S128x27x512 32 := Host.scatter scatter_S128x27x512_S128x27x8192x3_S128x27x8192_n_012_012_3 (fun _ b => b) v9 v37 v16
  broadcastInDim S128x27x512x1 ![0, 1, 2] bcast_S128x27x512_S128x27x512x1_0_1_2 v38

/-- The points at the chosen indices `v41`, re-centred: `v40` the points with a unit centre axis, `v39` the centres
    repeated over the batches. -/
def tailB (v41 : IVec S128x27x512x1 32) (v40 : FVec F S128x1x8192x3 .f32) (v39 : FVec F S128x27x3 .f32) :
    FVec F S3456x512x3 .f32 :=
  -- the points at the chosen indices (a negative index counted from the end; an index out of range gives the fill value)
  have t_c : IVec S_ 32 := constantI S_ 32 0#32
  have t0 : IVec S128x27x512x1 32 := broadcastInDim S128x27x512x1 ![] bcast_S_S128x27x512x1 t_c
  have t1 : IVec S128x27x512x1 1 := cmpi .slt v41 t0
  have t_c0 : IVec S_ 32 := constantI S_ 32 8192#32
  have t2 : IVec S128x27x512x1 32 := broadcastInDim S128x27x512x1 ![] bcast_S_S128x27x512x1 t_c0
  have t3 : IVec S128x27x512x1 32 := addi v41 t2
  have t4 : IVec S128x27x512x1 32 := select t1 t3 v41
  have t5 : FVec F S128x8192x3 .f32 := shapeCast S128x8192x3 v40 shapeCasts_S128x1x8192x3_S128x8192x3
  have t_c1 : IVec S1 32 := constantI S1 32 8191#32
  have t_c2 : IVec S_ 32 := constantI S_ 32 0#32
  have t6 : IVec S128x27x512x1 32 := broadcastInDim S128x27x512x1 ![] bcast_S_S128x27x512x1 t_c2
  have t7 : IVec S128x27x512x1 1 := cmpi .sge t4 t6
  have t8 : IVec S1x1x1x1 32 := broadcastInDim S1x1x1x1 ![3] bcast_S1_S1x1x1x1_3 t_c1
  have t9 : IVec S128x27x512x1 32 := broadcastInDim S128x27x512x1 ![0, 1, 2, 3] bcast_S1x1x1x1_S128x27x512x1_0_1_2_3 t8
  have t10 : IVec S128x27x512x1 1 := cmpi .sle t4 t9
  have t11 : IVec S128x27x512x1 1 := andi t7 t10
  have t_c3 : IVec S_ 1 := constantI S_ 1 1#1
  have t12 : IVec S128x27x512 1 := Host.reduce IntOp.andi t11 t_c3 reducesTo_S128x27x512x1_S128x27x512_d3 h_S_
  have t13 : FVec F S128x27x512x3 .f32 := Host.gather gather_S128x8192x3_S128x27x512x1_S128x27x512x3_3_1_0_0_1_3_113 t5 t4
  have t14 : IVec S128x27x512x3 1 := broadcastInDim S128x27x512x3 ![0, 1, 2] bcast_S128x27x512_S128x27x512x3_0_1_2 t12
  have t_cst : FVec F S_ .f32 := constant S_ .f32 0x7FC00000#32
  have t15 : FVec F S128x27x512x3 .f32 := broadcastInDim S128x27x512x3 ![] bcast_S_S128x27x512x3 t_cst
  have v42 : FVec F S128x27x512x3 .f32 := select t14 t13 t15
  -- re-centred on the row's centre
  have v43 : FVec F S128x27x1x3 .f32 := broadcastInDim S128x27x1x3 ![0, 1, 3] bcast_S128x27x3_S128x27x1x3_0_1_3 v39
  have v44 : FVec F S128x27x512x3 .f32 := broadcastInDim S128x27x512x3 ![0, 1, 2, 3] bcast_S128x27x1x3_S128x27x512x3_0_1_2_3 v43
  have v45 : FVec F S128x27x512x3 .f32 := subf v42 v44
  shapeCast S3456x512x3 v45 shapeCasts_S128x27x512x3_S3456x512x3

/-- The grouped, re-centred neighbours from the mask `mask`, its 32-bit form `cs`, the points and the centres. -/
def tail (mask : IVec S128x27x8192 1) (cs : IVec S128x27x8192 32) (x : FVec F S128x8192x3 .f32) (c : FVec F S1x27x3 .f32) :
    FVec F S3456x512x3 .f32 :=
  tailB (idxOf mask cs) (broadcastInDim S128x1x8192x3 ![0, 2, 3] bcast_S128x8192x3_S128x1x8192x3_0_2_3 x)
    (broadcastInDim S128x27x3 ![0, 1, 2] bcast_S1x27x3_S128x27x3_0_1_2 c)

/-- The mask read back from its 32-bit form: positive means inside the ball. -/
def maskOf (v0 : IVec S128x27x8192 32) : IVec S128x27x8192 1 :=
  have c : IVec S_ 32 := constantI S_ 32 0#32
  have v1 : IVec S128x27x8192 32 := broadcastInDim S128x27x8192 ![] bcast_S_S128x27x8192 c
  cmpi .sgt v0 v1

end Cert.KernelIdeal.Hand

end
-- ==== Proof.KTailAfter.lean ====
/-
  The host lines after the mask kernel, folded over any buffer contents, leave in the result buffer the pure function
  `tail` of three buffers' contents: the mask kernel's result (read as 32-bit integers, and as the mask through
  "positive"), the points and the centres. Every line writes a buffer of its own, so the fold at a buffer is the
  composition of the lines that lead to it; the reductions, the scatter and the gather are never opened. The lines
  are read in two parts: those that compute the chosen point of every slot, and those that gather and re-centre.
-/
import proofs.«112360_j40630390620888_2_alg».proof.Proof.Gen.KernelIdeal.Launch
import proofs.«112360_j40630390620888_2_alg».proof.Proof.KTail
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]

/-- The three index columns joined: the line's result at its own buffer, each column read at its own buffer. -/
theorem join3_result' (hxs hy) (W : Valuation τ sig (Elt F)) :
    (StableHlo.nary (τ := τ) ![main_v34, main_v35, main_v36] main_v37 (fun u => concatenate S128x27x8192x3 3 [⟨S128x27x8192x1, u 0⟩, ⟨S128x27x8192x1, u 1⟩, ⟨S128x27x8192x1, u 2⟩] concatenates_S128x27x8192x1_S128x27x8192x1_S128x27x8192x1_S128x27x8192x3_d3) hxs hy).result W (no_index (Proc.devRef .tc main_v37))
      = join3 (W (Proc.devRef .tc main_v34)) (W (Proc.devRef .tc main_v35)) (W (Proc.devRef .tc main_v36)) := by
  rw [nary_result]; rfl

/-- Folding two runs of lines one after the other is folding their concatenation. -/
theorem after_append {Val : EltTy → Type} (A B : List (HloOp τ sig Val)) (W : Valuation τ sig Val) :
    after (A ++ B) W = after B (after A W) := by
  induction A generalizing W with
  | nil => rfl
  | cons op A ih => simp only [List.cons_append, after_cons]; exact ih _

/-- The lines up to the chosen indices (and the two re-laid argument arrays). -/
abbrev linesA : List (HloOp τ sig (Elt F)) :=
  List.flatten [hostOps1, hostOps1_1, hostOps1_2, hostOps1_3, hostOps1_4, hostOps1_5]
/-- The gather and the re-centring. -/
abbrev linesB : List (HloOp τ sig (Elt F)) :=
  List.flatten [hostOps1_6, hostOps1_7]
/-- All the host lines after the region, in order. -/
abbrev tailLines : List (HloOp τ sig (Elt F)) :=
  List.flatten [hostOps1, hostOps1_1, hostOps1_2, hostOps1_3, hostOps1_4, hostOps1_5, hostOps1_6, hostOps1_7]

theorem tailLines_eq : (tailLines : List (HloOp τ sig (Elt F))) = linesA ++ linesB := by
  simp only [tailLines, linesA, linesB, List.flatten_cons, List.flatten_nil, List.append_nil, List.append_assoc]

attribute [local irreducible] Host.reduce Host.reduce2 Host.reduceWindow Host.gather Host.scatter concatenate in
set_option maxRecDepth 65536 in
set_option maxHeartbeats 2000000 in
/-- The chosen indices after the first part. -/
theorem idx_after (W : Valuation τ sig (Elt F)) :
    after (linesA (F := F)) W (main_v41 : DevRef τ sig) = idxOf (maskOf (W (main_v0 : DevRef τ sig))) (W (main_v0 : DevRef τ sig)) := by
  simp only [linesA, hostOps1, hostOps1_1, hostOps1_2, hostOps1_3, hostOps1_4, hostOps1_5,
    List.flatten_cons, List.flatten_nil, List.append_nil, List.cons_append, List.nil_append]
  simp (disch := decide) only [after_cons, after_nil,
      nullary_result', unary_result', binary_result', ternary_result', quaternary_result', reshape_result', join3_result',
      nullary_result_ne', unary_result_ne', binary_result_ne', ternary_result_ne', quaternary_result_ne', reshape_result_ne',
      nary_result_ne']
  try simp only [TRef.toBuf, TRef.ofBuf, cast_eq, id]
  unfold idxOf maskOf
  dsimp only
  rfl

set_option maxRecDepth 65536 in
set_option maxHeartbeats 2000000 in
/-- The points with a unit centre axis after the first part. -/
theorem x_after (W : Valuation τ sig (Elt F)) :
    after (linesA (F := F)) W (main_v40 : DevRef τ sig)
      = broadcastInDim S128x1x8192x3 ![0, 2, 3] bcast_S128x8192x3_S128x1x8192x3_0_2_3 (W (main_arg0 : DevRef τ sig)) := by
  simp only [linesA, hostOps1, hostOps1_1, hostOps1_2, hostOps1_3, hostOps1_4, hostOps1_5,
    List.flatten_cons, List.flatten_nil, List.append_nil, List.cons_append, List.nil_append]
  simp (disch := decide) only [after_cons, after_nil,
      nullary_result', unary_result', binary_result', ternary_result', quaternary_result', reshape_result', join3_result',
      nullary_result_ne', unary_result_ne', binary_result_ne', ternary_result_ne', quaternary_result_ne', reshape_result_ne',
      nary_result_ne']
  try simp only [TRef.toBuf, TRef.ofBuf, cast_eq, id]

set_option maxRecDepth 65536 in
set_option maxHeartbeats 2000000 in
/-- The centres repeated over the batches after the first part. -/
theorem c_after (W : Valuation τ sig (Elt F)) :
    after (linesA (F := F)) W (main_v39 : DevRef τ sig)
      = broadcastInDim S128x27x3 ![0, 1, 2] bcast_S1x27x3_S128x27x3_0_1_2 (W (main_arg1 : DevRef τ sig)) := by
  simp only [linesA, hostOps1, hostOps1_1, hostOps1_2, hostOps1_3, hostOps1_4, hostOps1_5,
    List.flatten_cons, List.flatten_nil, List.append_nil, List.cons_append, List.nil_append]
  simp (disch := decide) only [after_cons, after_nil,
      nullary_result', unary_result', binary_result', ternary_result', quaternary_result', reshape_result', join3_result',
      nullary_result_ne', unary_result_ne', binary_result_ne', ternary_result_ne', quaternary_result_ne', reshape_result_ne',
      nary_result_ne']
  try simp only [TRef.toBuf, TRef.ofBuf, cast_eq, id]

/-- The gather's lines over their buffers (the called function's lines are lines over buffers like any other). -/
abbrev gatherLines : List (HloOp τ sig (Elt F)) :=
  [ StableHlo.nullary main_call3_c (constantI S_ 32 0#32),
    StableHlo.unary main_call3_c main_call3_v0 (broadcastInDim S128x27x512x1 ![] bcast_S_S128x27x512x1),
    StableHlo.binary main_v41 main_call3_v0 main_call3_v1 (cmpi .slt),
    StableHlo.nullary main_call3_c_0 (constantI S_ 32 8192#32),
    StableHlo.unary main_call3_c_0 main_call3_v2 (broadcastInDim S128x27x512x1 ![] bcast_S_S128x27x512x1),
    StableHlo.binary main_v41 main_call3_v2 main_call3_v3 addi,
    StableHlo.ternary main_call3_v1 main_call3_v3 main_v41 main_call3_v4 select,
    StableHlo.reshape main_v40 main_call3_v5 rfl shapeCasts_S128x1x8192x3_S128x8192x3,
    StableHlo.nullary main_call3_c_1 (constantI S1 32 8191#32),
    StableHlo.nullary main_call3_c_2 (constantI S_ 32 0#32),
    StableHlo.unary main_call3_c_2 main_call3_v6 (broadcastInDim S128x27x512x1 ![] bcast_S_S128x27x512x1),
    StableHlo.binary main_call3_v4 main_call3_v6 main_call3_v7 (cmpi .sge),
    StableHlo.unary main_call3_c_1 main_call3_v8 (broadcastInDim S1x1x1x1 ![3] bcast_S1_S1x1x1x1_3),
    StableHlo.unary main_call3_v8 main_call3_v9 (broadcastInDim S128x27x512x1 ![0, 1, 2, 3] bcast_S1x1x1x1_S128x27x512x1_0_1_2_3),
    StableHlo.binary main_call3_v4 main_call3_v9 main_call3_v10 (cmpi .sle),
    StableHlo.binary main_call3_v7 main_call3_v10 main_call3_v11 andi,
    StableHlo.nullary main_call3_c_3 (constantI S_ 1 1#1),
    StableHlo.binary main_call3_v11 main_call3_c_3 main_call3_v12 (fun x v => Host.reduce IntOp.andi x v reducesTo_S128x27x512x1_S128x27x512_d3 h_S_),
    StableHlo.binary main_call3_v5 main_call3_v4 main_call3_v13 (fun x i => Host.gather gather_S128x8192x3_S128x27x512x1_S128x27x512x3_3_1_0_0_1_3_113 x i),
    StableHlo.unary main_call3_v12 main_call3_v14 (broadcastInDim S128x27x512x3 ![0, 1, 2] bcast_S128x27x512_S128x27x512x3_0_1_2),
    StableHlo.nullary main_call3_cst (constant S_ .f32 0x7FC00000#32),
    StableHlo.unary main_call3_cst main_call3_v15 (broadcastInDim S128x27x512x3 ![] bcast_S_S128x27x512x3),
    StableHlo.ternary main_call3_v14 main_call3_v13 main_call3_v15 main_v42 select ]

attribute [local irreducible] Host.reduce Host.reduce2 Host.reduceWindow Host.gather Host.scatter concatenate in
theorem gatherLines_eq : (hostOps1_6 : List (HloOp τ sig (Elt F))) = gatherLines := rfl

attribute [local irreducible] Host.reduce Host.reduce2 Host.reduceWindow Host.gather Host.scatter concatenate in
set_option maxRecDepth 65536 in
set_option maxHeartbeats 1000000 in
/-- The result after the second part, from the three buffers it reads. -/
theorem b_after (W : Valuation τ sig (Elt F)) :
    after (linesB (F := F)) W (main_v46 : DevRef τ sig)
      = tailB (W (main_v41 : DevRef τ sig)) (W (main_v40 : DevRef τ sig)) (W (main_v39 : DevRef τ sig)) := by
  rw [show (linesB : List (HloOp τ sig (Elt F))) = gatherLines ++ hostOps1_7 from by
    simp only [linesB, List.flatten_cons, List.flatten_nil, List.append_nil, gatherLines_eq]]
  simp only [gatherLines, hostOps1_7, List.cons_append, List.nil_append]
  simp (disch := decide) only [after_cons, after_nil,
      nullary_result', unary_result', binary_result', ternary_result', quaternary_result', reshape_result',
      nullary_result_ne', unary_result_ne', binary_result_ne', ternary_result_ne', quaternary_result_ne', reshape_result_ne']
  unfold tailB
  dsimp only
  rfl

/-- The fold of all the lines at the result buffer is `tail` of the contents the lines start from. -/
theorem tail_after (W : Valuation τ sig (Elt F)) :
    after (tailLines (F := F)) W (main_v46 : DevRef τ sig)
      = tail (maskOf (W (main_v0 : DevRef τ sig))) (W (main_v0 : DevRef τ sig)) (W (main_arg0 : DevRef τ sig)) (W (main_arg1 : DevRef τ sig)) := by
  rw [tailLines_eq, after_append, b_after, idx_after, x_after, c_after]
  rfl

end Cert.KernelIdeal.Hand

end
-- ==== Proof.KIRun.lean ====
/-
  The idealized kernel program's run, read as values: the result buffer ends at `tail` of the whole mask (read back
  through "positive"), the whole mask as 32-bit integers, the points and the centres as launched; the two argument
  arrays end as launched. The host lines start from the region's exit contents, in which the launch's three arrays
  hold what the launch left: the mask array the whole mask, the two inputs their launch contents.
-/
import proofs.«112360_j40630390620888_2_alg».proof.Proof.KIValue
import proofs.«112360_j40630390620888_2_alg».proof.Proof.KTailAfter

set_option maxRecDepth 16384

noncomputable section

namespace Cert.KernelIdeal.HandValue

open Idealize.ShloMosaic Idealize.ShloMosaic.TcCoe
open Idealize.SL Idealize.SL.Sem
open Idealize.ShloMosaic.Pipeline (Dat Cfg Window)
open Cert.KernelIdeal Cert.KernelIdeal.Gen Cert.KernelIdeal.Hand

variable (m : (ℓ : Loc nD τ sig) → Buf (Elt Ideal) ℓ) (ρ : Dev nD → PrngReg)

/-- The result buffer after the host lines. -/
theorem tail_value (c : Dev nD) :
    Pipeline.afterTail₀ cfgs (dats m) 0 (V0 m) tailOps c main_v46
      = tail (F := Ideal) (maskOf (G (m ((c : Thread nD τ).loc main_arg0)) (m ((c : Thread nD τ).loc main_arg1))))
          (G (m ((c : Thread nD τ).loc main_arg0)) (m ((c : Thread nD τ).loc main_arg1)))
          (m ((c : Thread nD τ).loc main_arg0)) (m ((c : Thread nD τ).loc main_arg1)) := by
  unfold Pipeline.afterTail₀
  refine (tail_after (F := Ideal) _).trans ?_
  have h2 : Pipeline.withArrays spec0 c (V0 m c) (fun w => (dats m 0 c).arrAt w cfg0.N) (main_v0 : DevRef τ sig)
      = G (m ((c : Thread nD τ).loc main_arg0)) (m ((c : Thread nD τ).loc main_arg1)) :=
    (Pipeline.withArrays_arr spec0 launch0.win.arr_inj c (V0 m c) (fun w => (dats m 0 c).arrAt w cfg0.N) 2).trans (final_mask m c)
  have h0 : Pipeline.withArrays spec0 c (V0 m c) (fun w => (dats m 0 c).arrAt w cfg0.N) (main_arg0 : DevRef τ sig)
      = m ((c : Thread nD τ).loc main_arg0) :=
    (Pipeline.withArrays_arr spec0 launch0.win.arr_inj c (V0 m c) (fun w => (dats m 0 c).arrAt w cfg0.N) 0).trans
      (((dats m 0 c).arrAt_in 0 rfl _).trans ((A_eq m c 0).trans (V_eq m c main_arg0)))
  have h1 : Pipeline.withArrays spec0 c (V0 m c) (fun w => (dats m 0 c).arrAt w cfg0.N) (main_arg1 : DevRef τ sig)
      = m ((c : Thread nD τ).loc main_arg1) :=
    (Pipeline.withArrays_arr spec0 launch0.win.arr_inj c (V0 m c) (fun w => (dats m 0 c).arrAt w cfg0.N) 1).trans
      (((dats m 0 c).arrAt_in 1 rfl _).trans ((A_eq m c 1).trans (V_eq m c main_arg1)))
  rw [h2, h0, h1]

/-- The run, read: the result at `tail` of the whole mask and the arguments; the arguments as launched. -/
theorem run_value : θ_run defs (onTc (τ := τ) (main (F := Ideal))) ⟨m, fun _ => 0, ρ⟩ (fun r => ∀ c : Dev nD,
      r.2.mem ((c.tc : Thread nD τ).loc main_v46)
        = tail (F := Ideal) (maskOf (G (m ((c : Thread nD τ).loc main_arg0)) (m ((c : Thread nD τ).loc main_arg1))))
            (G (m ((c : Thread nD τ).loc main_arg0)) (m ((c : Thread nD τ).loc main_arg1)))
            (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v46 (Pipeline.mem_restRefs_of main_v46 (by decide) (by decide))).trans (tail_value m c),
      ((h c).1 0).trans (((dats m 0 c).arrAt_in 0 rfl _).trans ((A_eq m c 0).trans (V_eq m c main_arg0))),
      ((h c).1 1).trans (((dats m 0 c).arrAt_in 1 rfl _).trans ((A_eq m c 1).trans (V_eq m c main_arg1)))⟩) (run_main m ρ)

end Cert.KernelIdeal.HandValue

end
-- ==== Proof.RefOps.lean ====
/-
  The reference program's host function as one straight line of whole-array operations. Each outlined helper
  (the running count along the point axis, the three-way select, the first-true index, the gather along an axis)
  is written out at its call over that call's own buffers, so the function is a list of one hundred and two
  operations in program order; the list is then run: every buffer ends at the fold of the operations over the
  contents it was launched with.
-/
import proofs.«112360_j40630390620888_2_alg».proof.ReferenceIdeal
import Idealize.ShloMosaic.Lib.StableHlo.Run

noncomputable section

namespace Cert.ReferenceIdeal.Hand

open Idealize.ShloMosaic Idealize.ShloMosaic.TcCoe Idealize.SL.Sem Cert.ReferenceIdeal
open Cert.ReferenceIdeal.Facts₀ Cert.ReferenceIdeal.Facts

variable {F : FTy → Type} [FloatOps F] [Cert.ReferenceIdeal.Facts]

/-- The host function's one hundred and two operations, in order. The mask's twenty come first (sixteen arrays and four scalar constants); the running count is
    the widening of the mask, the scalar zero, its rank-zero broadcast and the windowed sum; the three-way select is the
    scalar's conversion to its own type, its broadcast and the select; the first-true index is the point iota, the two
    initial values and one line per result of the two-operand reduction; the gather along the point axis is
    twenty-three lines (the index wrapped when negative, the array with its unit axis dropped, the bounds test reduced
    over the index vector, the gather, the NaN fill and the select); the rest are the function's own. -/
abbrev ops : List (HloOp τ sig (Elt F)) :=
  [ StableHlo.unary main_arg1 main_v0 (broadcastInDim S128x27x3 ![0, 1, 2] bcast_S1x27x3_S128x27x3_0_1_2 : (⟨S1x27x3, .f32⟩ : BufTy).Contents (Elt F) → (⟨S128x27x3, .f32⟩ : BufTy).Contents (Elt F)),
    StableHlo.binary main_arg0 main_arg0 main_v1 (mulf : (⟨S128x8192x3, .f32⟩ : BufTy).Contents (Elt F) → (⟨S128x8192x3, .f32⟩ : BufTy).Contents (Elt F) → (⟨S128x8192x3, .f32⟩ : BufTy).Contents (Elt F)),
    StableHlo.nullary main_cst (constant S_ .f32 0x00000000#32),
    StableHlo.binary main_v1 main_cst main_v2 ((fun x v => Host.reduceAdd x v reducesTo_S128x8192x3_S128x8192_d2 h_S_) : (⟨S128x8192x3, .f32⟩ : BufTy).Contents (Elt F) → (⟨S_, .f32⟩ : BufTy).Contents (Elt F) → (⟨S128x8192, .f32⟩ : BufTy).Contents (Elt F)),
    StableHlo.binary main_v0 main_v0 main_v3 (mulf : (⟨S128x27x3, .f32⟩ : BufTy).Contents (Elt F) → (⟨S128x27x3, .f32⟩ : BufTy).Contents (Elt F) → (⟨S128x27x3, .f32⟩ : BufTy).Contents (Elt F)),
    StableHlo.nullary main_cst_0 (constant S_ .f32 0x00000000#32),
    StableHlo.binary main_v3 main_cst_0 main_v4 ((fun x v => Host.reduceAdd x v reducesTo_S128x27x3_S128x27_d2 h_S_) : (⟨S128x27x3, .f32⟩ : BufTy).Contents (Elt F) → (⟨S_, .f32⟩ : BufTy).Contents (Elt F) → (⟨S128x27, .f32⟩ : BufTy).Contents (Elt F)),
    StableHlo.binary main_v0 main_arg0 main_v5 ((fun l r => Host.dotGeneral dot_S128x27x3_S128x8192x3_S128x27x8192_2_2_1_1_0_0 none l r) : (⟨S128x27x3, .f32⟩ : BufTy).Contents (Elt F) → (⟨S128x8192x3, .f32⟩ : BufTy).Contents (Elt F) → (⟨S128x27x8192, .f32⟩ : BufTy).Contents (Elt F)),
    StableHlo.unary main_v2 main_v6 (broadcastInDim S128x1x8192 ![0, 2] bcast_S128x8192_S128x1x8192_0_2 : (⟨S128x8192, .f32⟩ : BufTy).Contents (Elt F) → (⟨S128x1x8192, .f32⟩ : BufTy).Contents (Elt F)),
    StableHlo.unary main_v4 main_v7 (broadcastInDim S128x27x1 ![0, 1] bcast_S128x27_S128x27x1_0_1 : (⟨S128x27, .f32⟩ : BufTy).Contents (Elt F) → (⟨S128x27x1, .f32⟩ : BufTy).Contents (Elt F)),
    StableHlo.unary main_v6 main_v8 (broadcastInDim S128x27x8192 ![0, 1, 2] bcast_S128x1x8192_S128x27x8192_0_1_2 : (⟨S128x1x8192, .f32⟩ : BufTy).Contents (Elt F) → (⟨S128x27x8192, .f32⟩ : BufTy).Contents (Elt F)),
    StableHlo.unary main_v7 main_v9 (broadcastInDim S128x27x8192 ![0, 1, 2] bcast_S128x27x1_S128x27x8192_0_1_2 : (⟨S128x27x1, .f32⟩ : BufTy).Contents (Elt F) → (⟨S128x27x8192, .f32⟩ : BufTy).Contents (Elt F)),
    StableHlo.binary main_v8 main_v9 main_v10 (addf : (⟨S128x27x8192, .f32⟩ : BufTy).Contents (Elt F) → (⟨S128x27x8192, .f32⟩ : BufTy).Contents (Elt F) → (⟨S128x27x8192, .f32⟩ : BufTy).Contents (Elt F)),
    StableHlo.nullary main_cst_1 (constant S_ .f32 0x40000000#32),
    StableHlo.unary main_cst_1 main_v11 (broadcastInDim S128x27x8192 ![] bcast_S_S128x27x8192 : (⟨S_, .f32⟩ : BufTy).Contents (Elt F) → (⟨S128x27x8192, .f32⟩ : BufTy).Contents (Elt F)),
    StableHlo.binary main_v11 main_v5 main_v12 (mulf : (⟨S128x27x8192, .f32⟩ : BufTy).Contents (Elt F) → (⟨S128x27x8192, .f32⟩ : BufTy).Contents (Elt F) → (⟨S128x27x8192, .f32⟩ : BufTy).Contents (Elt F)),
    StableHlo.binary main_v10 main_v12 main_v13 (subf : (⟨S128x27x8192, .f32⟩ : BufTy).Contents (Elt F) → (⟨S128x27x8192, .f32⟩ : BufTy).Contents (Elt F) → (⟨S128x27x8192, .f32⟩ : BufTy).Contents (Elt F)),
    StableHlo.nullary main_cst_2 (constant S_ .f32 0x3D800000#32),
    StableHlo.unary main_cst_2 main_v14 (broadcastInDim S128x27x8192 ![] bcast_S_S128x27x8192 : (⟨S_, .f32⟩ : BufTy).Contents (Elt F) → (⟨S128x27x8192, .f32⟩ : BufTy).Contents (Elt F)),
    StableHlo.binary main_v13 main_v14 main_v15 (cmpf .olt : (⟨S128x27x8192, .f32⟩ : BufTy).Contents (Elt F) → (⟨S128x27x8192, .f32⟩ : BufTy).Contents (Elt F) → (⟨S128x27x8192, .i1⟩ : BufTy).Contents (Elt F)),
    StableHlo.TRef.unary (.of main_v15 : StableHlo.TRef sig ⟨S128x27x8192, .i1⟩) main_call0.v0 (extui 32 · natLt_1_32),
    StableHlo.TRef.nullary main_call0.call0.c (constantI S_ 32 0#32),
    StableHlo.TRef.unary main_call0.call0.c main_call0.call0.v0 (broadcastInDim S_ ![] bcast_S_S_),
    StableHlo.TRef.binary main_call0.v0 main_call0.call0.v0 main_call0.call0.v1 (fun x v => Host.reduceWindow IntOp.addi ![1, 1, 8192] ![1, 1, 1] ![0, 0, 8191] ![0, 0, 0] x v reduceWindows_S128x27x8192_S128x27x8192_w1s1p0_0_w1s1p0_0_w8192s1p8191_0 h_S_),
    StableHlo.nullary main_c (constantI S_ 32 1#32),
    StableHlo.unary main_c main_v17 (broadcastInDim S128x27x8192 ![] bcast_S_S128x27x8192 : (⟨S_, .i32⟩ : BufTy).Contents (Elt F) → (⟨S128x27x8192, .i32⟩ : BufTy).Contents (Elt F)),
    StableHlo.binary main_v16 main_v17 main_v18 (subi : (⟨S128x27x8192, .i32⟩ : BufTy).Contents (Elt F) → (⟨S128x27x8192, .i32⟩ : BufTy).Contents (Elt F) → (⟨S128x27x8192, .i32⟩ : BufTy).Contents (Elt F)),
    StableHlo.nullary main_c_3 (constantI S_ 32 512#32),
    StableHlo.TRef.unary (.of main_c_3 : StableHlo.TRef sig ⟨S_, .i32⟩) main_call1.v0 id,
    StableHlo.TRef.unary main_call1.v0 main_call1.v1 (broadcastInDim S128x27x8192 ![] bcast_S_S128x27x8192),
    StableHlo.TRef.ternary (.of main_v15 : StableHlo.TRef sig ⟨S128x27x8192, .i1⟩) (.of main_v18 : StableHlo.TRef sig ⟨S128x27x8192, .i32⟩) main_call1.v1 main_call1.v2 select,
    StableHlo.TRef.nullary main_call2.v0 (iotaInDim S128x27x8192 32 2),
    StableHlo.TRef.nullary main_call2.c (constantI S_ 1 0#1),
    StableHlo.TRef.nullary main_call2.c_0 (constantI S_ 32 0#32),
    StableHlo.TRef.quaternary (.of main_v15 : StableHlo.TRef sig ⟨S128x27x8192, .i1⟩) main_call2.v0 main_call2.c main_call2.c_0 main_call2.v1_0 (fun x y u v j => (Host.reduce2 reducer_argmax_i1_i32 x y u v reducesTo_S128x27x8192_S128x27_d2 h_S_ j).1),
    StableHlo.TRef.quaternary (.of main_v15 : StableHlo.TRef sig ⟨S128x27x8192, .i1⟩) main_call2.v0 main_call2.c main_call2.c_0 main_call2.v1_1 (fun x y u v j => (Host.reduce2 reducer_argmax_i1_i32 x y u v reducesTo_S128x27x8192_S128x27_d2 h_S_ j).2),
    StableHlo.unary main_v20 main_v21 (broadcastInDim S128x27x1 ![0, 1] bcast_S128x27_S128x27x1_0_1 : (⟨S128x27, .i32⟩ : BufTy).Contents (Elt F) → (⟨S128x27x1, .i32⟩ : BufTy).Contents (Elt F)),
    StableHlo.unary main_v21 main_v22 (broadcastInDim S128x27x512 ![0, 1, 2] bcast_S128x27x1_S128x27x512_0_1_2 : (⟨S128x27x1, .i32⟩ : BufTy).Contents (Elt F) → (⟨S128x27x512, .i32⟩ : BufTy).Contents (Elt F)),
    StableHlo.nullary main_v23 (iotaInDim S128 32 0),
    StableHlo.unary main_v23 main_v24 (broadcastInDim S128x1x1 ![0] bcast_S128_S128x1x1_0 : (⟨S128, .i32⟩ : BufTy).Contents (Elt F) → (⟨S128x1x1, .i32⟩ : BufTy).Contents (Elt F)),
    StableHlo.nullary main_v25 (iotaInDim S27 32 0),
    StableHlo.unary main_v25 main_v26 (broadcastInDim S1x27x1 ![1] bcast_S27_S1x27x1_1 : (⟨S27, .i32⟩ : BufTy).Contents (Elt F) → (⟨S1x27x1, .i32⟩ : BufTy).Contents (Elt F)),
    StableHlo.nullary main_v27 (iotaInDim S8192 32 0),
    StableHlo.unary main_v27 main_v28 (broadcastInDim S1x1x8192 ![2] bcast_S8192_S1x1x8192_2 : (⟨S8192, .i32⟩ : BufTy).Contents (Elt F) → (⟨S1x1x8192, .i32⟩ : BufTy).Contents (Elt F)),
    StableHlo.unary main_v28 main_v29 (broadcastInDim S128x27x8192 ![0, 1, 2] bcast_S1x1x8192_S128x27x8192_0_1_2 : (⟨S1x1x8192, .i32⟩ : BufTy).Contents (Elt F) → (⟨S128x27x8192, .i32⟩ : BufTy).Contents (Elt F)),
    StableHlo.nullary main_c_4 (constantI S_ 32 0#32),
    StableHlo.unary main_c_4 main_v30 (broadcastInDim S128x1x1 ![] bcast_S_S128x1x1 : (⟨S_, .i32⟩ : BufTy).Contents (Elt F) → (⟨S128x1x1, .i32⟩ : BufTy).Contents (Elt F)),
    StableHlo.binary main_v24 main_v30 main_v31 (cmpi .slt : (⟨S128x1x1, .i32⟩ : BufTy).Contents (Elt F) → (⟨S128x1x1, .i32⟩ : BufTy).Contents (Elt F) → (⟨S128x1x1, .i1⟩ : BufTy).Contents (Elt F)),
    StableHlo.nullary main_c_5 (constantI S_ 32 128#32),
    StableHlo.unary main_c_5 main_v32 (broadcastInDim S128x1x1 ![] bcast_S_S128x1x1 : (⟨S_, .i32⟩ : BufTy).Contents (Elt F) → (⟨S128x1x1, .i32⟩ : BufTy).Contents (Elt F)),
    StableHlo.binary main_v24 main_v32 main_v33 (addi : (⟨S128x1x1, .i32⟩ : BufTy).Contents (Elt F) → (⟨S128x1x1, .i32⟩ : BufTy).Contents (Elt F) → (⟨S128x1x1, .i32⟩ : BufTy).Contents (Elt F)),
    StableHlo.ternary main_v31 main_v33 main_v24 main_v34 (select : (⟨S128x1x1, .i1⟩ : BufTy).Contents (Elt F) → (⟨S128x1x1, .i32⟩ : BufTy).Contents (Elt F) → (⟨S128x1x1, .i32⟩ : BufTy).Contents (Elt F) → (⟨S128x1x1, .i32⟩ : BufTy).Contents (Elt F)),
    StableHlo.nullary main_c_6 (constantI S_ 32 0#32),
    StableHlo.unary main_c_6 main_v35 (broadcastInDim S1x27x1 ![] bcast_S_S1x27x1 : (⟨S_, .i32⟩ : BufTy).Contents (Elt F) → (⟨S1x27x1, .i32⟩ : BufTy).Contents (Elt F)),
    StableHlo.binary main_v26 main_v35 main_v36 (cmpi .slt : (⟨S1x27x1, .i32⟩ : BufTy).Contents (Elt F) → (⟨S1x27x1, .i32⟩ : BufTy).Contents (Elt F) → (⟨S1x27x1, .i1⟩ : BufTy).Contents (Elt F)),
    StableHlo.nullary main_c_7 (constantI S_ 32 27#32),
    StableHlo.unary main_c_7 main_v37 (broadcastInDim S1x27x1 ![] bcast_S_S1x27x1 : (⟨S_, .i32⟩ : BufTy).Contents (Elt F) → (⟨S1x27x1, .i32⟩ : BufTy).Contents (Elt F)),
    StableHlo.binary main_v26 main_v37 main_v38 (addi : (⟨S1x27x1, .i32⟩ : BufTy).Contents (Elt F) → (⟨S1x27x1, .i32⟩ : BufTy).Contents (Elt F) → (⟨S1x27x1, .i32⟩ : BufTy).Contents (Elt F)),
    StableHlo.ternary main_v36 main_v38 main_v26 main_v39 (select : (⟨S1x27x1, .i1⟩ : BufTy).Contents (Elt F) → (⟨S1x27x1, .i32⟩ : BufTy).Contents (Elt F) → (⟨S1x27x1, .i32⟩ : BufTy).Contents (Elt F) → (⟨S1x27x1, .i32⟩ : BufTy).Contents (Elt F)),
    StableHlo.nullary main_c_8 (constantI S_ 32 0#32),
    StableHlo.unary main_c_8 main_v40 (broadcastInDim S128x27x8192 ![] bcast_S_S128x27x8192 : (⟨S_, .i32⟩ : BufTy).Contents (Elt F) → (⟨S128x27x8192, .i32⟩ : BufTy).Contents (Elt F)),
    StableHlo.binary main_v19 main_v40 main_v41 (cmpi .slt : (⟨S128x27x8192, .i32⟩ : BufTy).Contents (Elt F) → (⟨S128x27x8192, .i32⟩ : BufTy).Contents (Elt F) → (⟨S128x27x8192, .i1⟩ : BufTy).Contents (Elt F)),
    StableHlo.nullary main_c_9 (constantI S_ 32 512#32),
    StableHlo.unary main_c_9 main_v42 (broadcastInDim S128x27x8192 ![] bcast_S_S128x27x8192 : (⟨S_, .i32⟩ : BufTy).Contents (Elt F) → (⟨S128x27x8192, .i32⟩ : BufTy).Contents (Elt F)),
    StableHlo.binary main_v19 main_v42 main_v43 (addi : (⟨S128x27x8192, .i32⟩ : BufTy).Contents (Elt F) → (⟨S128x27x8192, .i32⟩ : BufTy).Contents (Elt F) → (⟨S128x27x8192, .i32⟩ : BufTy).Contents (Elt F)),
    StableHlo.ternary main_v41 main_v43 main_v19 main_v44 (select : (⟨S128x27x8192, .i1⟩ : BufTy).Contents (Elt F) → (⟨S128x27x8192, .i32⟩ : BufTy).Contents (Elt F) → (⟨S128x27x8192, .i32⟩ : BufTy).Contents (Elt F) → (⟨S128x27x8192, .i32⟩ : BufTy).Contents (Elt F)),
    StableHlo.unary main_v34 main_v45 (broadcastInDim S128x27x8192 ![0, 1, 2] bcast_S128x1x1_S128x27x8192_0_1_2 : (⟨S128x1x1, .i32⟩ : BufTy).Contents (Elt F) → (⟨S128x27x8192, .i32⟩ : BufTy).Contents (Elt F)),
    StableHlo.unary main_v39 main_v46 (broadcastInDim S128x27x8192 ![0, 1, 2] bcast_S1x27x1_S128x27x8192_0_1_2 : (⟨S1x27x1, .i32⟩ : BufTy).Contents (Elt F) → (⟨S128x27x8192, .i32⟩ : BufTy).Contents (Elt F)),
    StableHlo.unary main_v45 main_v47 (broadcastInDim S128x27x8192x1 ![0, 1, 2] bcast_S128x27x8192_S128x27x8192x1_0_1_2 : (⟨S128x27x8192, .i32⟩ : BufTy).Contents (Elt F) → (⟨S128x27x8192x1, .i32⟩ : BufTy).Contents (Elt F)),
    StableHlo.unary main_v46 main_v48 (broadcastInDim S128x27x8192x1 ![0, 1, 2] bcast_S128x27x8192_S128x27x8192x1_0_1_2 : (⟨S128x27x8192, .i32⟩ : BufTy).Contents (Elt F) → (⟨S128x27x8192x1, .i32⟩ : BufTy).Contents (Elt F)),
    StableHlo.unary main_v44 main_v49 (broadcastInDim S128x27x8192x1 ![0, 1, 2] bcast_S128x27x8192_S128x27x8192x1_0_1_2 : (⟨S128x27x8192, .i32⟩ : BufTy).Contents (Elt F) → (⟨S128x27x8192x1, .i32⟩ : BufTy).Contents (Elt F)),
    StableHlo.nary ![main_v47, main_v48, main_v49] main_v50 (fun u => concatenate S128x27x8192x3 3 [⟨S128x27x8192x1, u 0⟩, ⟨S128x27x8192x1, u 1⟩, ⟨S128x27x8192x1, u 2⟩] concatenates_S128x27x8192x1_S128x27x8192x1_S128x27x8192x1_S128x27x8192x3_d3),
    StableHlo.ternary main_v22 main_v50 main_v29 main_v51 ((fun x i u => Host.scatter scatter_S128x27x512_S128x27x8192x3_S128x27x8192_n_012_012_3 (fun _ b => b) x i u) : (⟨S128x27x512, .i32⟩ : BufTy).Contents (Elt F) → (⟨S128x27x8192x3, .i32⟩ : BufTy).Contents (Elt F) → (⟨S128x27x8192, .i32⟩ : BufTy).Contents (Elt F) → (⟨S128x27x512, .i32⟩ : BufTy).Contents (Elt F)),
    StableHlo.unary main_arg0 main_v52 (broadcastInDim S128x1x8192x3 ![0, 2, 3] bcast_S128x8192x3_S128x1x8192x3_0_2_3 : (⟨S128x8192x3, .f32⟩ : BufTy).Contents (Elt F) → (⟨S128x1x8192x3, .f32⟩ : BufTy).Contents (Elt F)),
    StableHlo.unary main_v51 main_v53 (broadcastInDim S128x27x512x1 ![0, 1, 2] bcast_S128x27x512_S128x27x512x1_0_1_2 : (⟨S128x27x512, .i32⟩ : BufTy).Contents (Elt F) → (⟨S128x27x512x1, .i32⟩ : BufTy).Contents (Elt F)),
    StableHlo.TRef.nullary main_call3.c (constantI S_ 32 0#32),
    StableHlo.TRef.unary main_call3.c main_call3.v0 (broadcastInDim S128x27x512x1 ![] bcast_S_S128x27x512x1),
    StableHlo.TRef.binary (.of main_v53 : StableHlo.TRef sig ⟨S128x27x512x1, .i32⟩) main_call3.v0 main_call3.v1 (cmpi .slt),
    StableHlo.TRef.nullary main_call3.c_0 (constantI S_ 32 8192#32),
    StableHlo.TRef.unary main_call3.c_0 main_call3.v2 (broadcastInDim S128x27x512x1 ![] bcast_S_S128x27x512x1),
    StableHlo.TRef.binary (.of main_v53 : StableHlo.TRef sig ⟨S128x27x512x1, .i32⟩) main_call3.v2 main_call3.v3 addi,
    StableHlo.TRef.ternary main_call3.v1 main_call3.v3 (.of main_v53 : StableHlo.TRef sig ⟨S128x27x512x1, .i32⟩) main_call3.v4 select,
    StableHlo.TRef.reshape (.of main_v52 : StableHlo.TRef sig ⟨S128x1x8192x3, .f32⟩) main_call3.v5 rfl shapeCasts_S128x1x8192x3_S128x8192x3,
    StableHlo.TRef.nullary main_call3.c_1 (constantI S1 32 8191#32),
    StableHlo.TRef.nullary main_call3.c_2 (constantI S_ 32 0#32),
    StableHlo.TRef.unary main_call3.c_2 main_call3.v6 (broadcastInDim S128x27x512x1 ![] bcast_S_S128x27x512x1),
    StableHlo.TRef.binary main_call3.v4 main_call3.v6 main_call3.v7 (cmpi .sge),
    StableHlo.TRef.unary main_call3.c_1 main_call3.v8 (broadcastInDim S1x1x1x1 ![3] bcast_S1_S1x1x1x1_3),
    StableHlo.TRef.unary main_call3.v8 main_call3.v9 (broadcastInDim S128x27x512x1 ![0, 1, 2, 3] bcast_S1x1x1x1_S128x27x512x1_0_1_2_3),
    StableHlo.TRef.binary main_call3.v4 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S128x27x512x1_S128x27x512_d3 h_S_),
    StableHlo.TRef.binary main_call3.v5 main_call3.v4 main_call3.v13 (fun x i => Host.gather gather_S128x8192x3_S128x27x512x1_S128x27x512x3_3_1_0_0_1_3_113 x i),
    StableHlo.TRef.unary main_call3.v12 main_call3.v14 (broadcastInDim S128x27x512x3 ![0, 1, 2] bcast_S128x27x512_S128x27x512x3_0_1_2),
    StableHlo.TRef.nullary main_call3.cst (constant S_ .f32 0x7FC00000#32),
    StableHlo.TRef.unary main_call3.cst main_call3.v15 (broadcastInDim S128x27x512x3 ![] bcast_S_S128x27x512x3),
    StableHlo.TRef.ternary main_call3.v14 main_call3.v13 main_call3.v15 main_call3.v16 select,
    StableHlo.unary main_v0 main_v55 (broadcastInDim S128x27x1x3 ![0, 1, 3] bcast_S128x27x3_S128x27x1x3_0_1_3 : (⟨S128x27x3, .f32⟩ : BufTy).Contents (Elt F) → (⟨S128x27x1x3, .f32⟩ : BufTy).Contents (Elt F)),
    StableHlo.unary main_v55 main_v56 (broadcastInDim S128x27x512x3 ![0, 1, 2, 3] bcast_S128x27x1x3_S128x27x512x3_0_1_2_3 : (⟨S128x27x1x3, .f32⟩ : BufTy).Contents (Elt F) → (⟨S128x27x512x3, .f32⟩ : BufTy).Contents (Elt F)),
    StableHlo.binary main_v54 main_v56 main_v57 (subf : (⟨S128x27x512x3, .f32⟩ : BufTy).Contents (Elt F) → (⟨S128x27x512x3, .f32⟩ : BufTy).Contents (Elt F) → (⟨S128x27x512x3, .f32⟩ : BufTy).Contents (Elt F)),
    StableHlo.reshape main_v57 main_v58 rfl shapeCasts_S128x27x512x3_S3456x512x3 ]

set_option maxRecDepth 4096 in
set_option maxHeartbeats 4000000 in
/-- The host function is that straight line: with the helpers' definitions unfolded at their calls and sequencing
    re-associated, both sides are the same chain of steps. -/
theorem main_eq (c : Dev nD) : main (F := F) c = StableHlo.seq ops := by
  simp only [main, main_part0, main_part1, fn_cumsum.body, fn_cumsum_0.body, fn_where.body, fn_argmax.body, fn_take_along_axis.body,
    StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

open Idealize.ShloMosaic.StableHlo in
/-- Every operation touches only buffers of the device's one core. -/
theorem ops_sub : (ops : List (HloOp τ sig (Elt F))).Forall fun op => op.bufs ⊆ StableHlo.tcRefs τ sig :=
  ⟨unary_bufs_sub .., binary_bufs_sub .., nullary_bufs_sub .., binary_bufs_sub .., binary_bufs_sub .., nullary_bufs_sub ..,
    binary_bufs_sub .., binary_bufs_sub .., unary_bufs_sub .., unary_bufs_sub .., unary_bufs_sub .., unary_bufs_sub ..,
    binary_bufs_sub .., nullary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., nullary_bufs_sub .., nullary_bufs_sub .., nullary_bufs_sub .., quaternary_bufs_sub .., quaternary_bufs_sub ..,
    unary_bufs_sub .., unary_bufs_sub .., nullary_bufs_sub .., unary_bufs_sub .., nullary_bufs_sub .., unary_bufs_sub ..,
    nullary_bufs_sub .., unary_bufs_sub .., unary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., unary_bufs_sub .., unary_bufs_sub .., unary_bufs_sub .., nary_bufs_sub ..,
    ternary_bufs_sub .., unary_bufs_sub .., unary_bufs_sub .., nullary_bufs_sub .., unary_bufs_sub .., binary_bufs_sub ..,
    nullary_bufs_sub .., unary_bufs_sub .., binary_bufs_sub .., ternary_bufs_sub .., reshape_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., unary_bufs_sub .., binary_bufs_sub .., reshape_bufs_sub ..⟩

/-- For any float values, from any memory with zero counters: every weakly fair execution of the host function
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.Hand

end
-- ==== Proof.RefOut.lean ====
/-
  What the reference's host function leaves in its result buffer, as one pure function of the two argument arrays:
  the mask of points within the radius of each centre (the first twenty operations, stated apart) followed by
  the neighbour table, the gather and the subtraction of the centre (`tail`). The fold of the operations over any
  buffer contents, read at the result buffer, is that function of the contents of the two argument buffers — each
  operation's own result buffer is the only one it rewrites, so the fold unrolls to the composed term — and the
  argument buffers are never rewritten.
-/
import proofs.«112360_j40630390620888_2_alg».proof.Proof.RefOps
import proofs.«112360_j40630390620888_2_alg».proof.Proof.RefMask

noncomputable section

namespace Cert.ReferenceIdeal.Hand

open Idealize.ShloMosaic Idealize.ShloMosaic.TcCoe Idealize.SL.Sem Cert.ReferenceIdeal
open Cert.ReferenceIdeal.Facts₀ Cert.ReferenceIdeal.Facts

variable {F : FTy → Type} [FloatOps F] [Cert.ReferenceIdeal.Facts]

/-- Three index columns side by side: the (batch, centre, slot) coordinate triple of every (batch, centre, point). -/
def join3 (p q r : IVec S128x27x8192x1 32) : IVec S128x27x8192x3 32 :=
  concatenate S128x27x8192x3 3 [⟨S128x27x8192x1, p⟩, ⟨S128x27x8192x1, q⟩, ⟨S128x27x8192x1, r⟩] concatenates_S128x27x8192x1_S128x27x8192x1_S128x27x8192x1_S128x27x8192x3_d3

/-- The neighbour table of every centre as a function of the mask and of the mask widened to 32-bit counts, with a
    unit axis appended. The running count of mask bits along the point axis, less one, is the slot of each selected
    point among its centre's neighbours (512 where the point is not selected); each centre's table of 512 point indices
    starts filled with the first selected point's index and is overwritten, at those slots, with the selected points' own
    indices (slots outside the table are dropped). One line per operation, in the program's order. -/
def idxOf (mask : IVec S128x27x8192 1) (cs : IVec S128x27x8192 32) : IVec S128x27x512x1 32 :=
  -- the inclusive running sum of the counts along the point axis
  have s_c : IVec S_ 32 := constantI S_ 32 0#32
  have s_v0 : IVec S_ 32 := broadcastInDim S_ ![] bcast_S_S_ s_c
  have v16 : IVec S128x27x8192 32 := Host.reduceWindow IntOp.addi ![1, 1, 8192] ![1, 1, 1] ![0, 0, 8191] ![0, 0, 0] cs s_v0 reduceWindows_S128x27x8192_S128x27x8192_w1s1p0_0_w1s1p0_0_w8192s1p8191_0 h_S_
  have c_1 : IVec S_ 32 := constantI S_ 32 1#32
  have v17 : IVec S128x27x8192 32 := broadcastInDim S128x27x8192 ![] bcast_S_S128x27x8192 c_1
  have v18 : IVec S128x27x8192 32 := subi v16 v17
  have c_3 : IVec S_ 32 := constantI S_ 32 512#32
  -- the slot where the mask holds, 512 elsewhere
  have w_v0 : IVec S_ 32 := id c_3
  have w_v1 : IVec S128x27x8192 32 := broadcastInDim S128x27x8192 ![] bcast_S_S128x27x8192 w_v0
  have v19 : IVec S128x27x8192 32 := select mask v18 w_v1
  -- the index of the first point where the mask holds (0 where it holds nowhere)
  have a_v0 : IVec S128x27x8192 32 := iotaInDim S128x27x8192 32 2
  have a_c : IVec S_ 1 := constantI S_ 1 0#1
  have a_c_0 : IVec S_ 32 := constantI S_ 32 0#32
  have a_v1_0 : IVec S128x27 1 := fun j => (Host.reduce2 reducer_argmax_i1_i32 mask a_v0 a_c a_c_0 reducesTo_S128x27x8192_S128x27_d2 h_S_ j).1
  have v20 : IVec S128x27 32 := fun j => (Host.reduce2 reducer_argmax_i1_i32 mask a_v0 a_c a_c_0 reducesTo_S128x27x8192_S128x27_d2 h_S_ j).2
  have v21 : IVec S128x27x1 32 := broadcastInDim S128x27x1 ![0, 1] bcast_S128x27_S128x27x1_0_1 v20
  have v22 : IVec S128x27x512 32 := broadcastInDim S128x27x512 ![0, 1, 2] bcast_S128x27x1_S128x27x512_0_1_2 v21
  -- the three coordinates of every (batch, centre, point), and the point index as the value to write
  have v23 : IVec S128 32 := iotaInDim S128 32 0
  have v24 : IVec S128x1x1 32 := broadcastInDim S128x1x1 ![0] bcast_S128_S128x1x1_0 v23
  have v25 : IVec S27 32 := iotaInDim S27 32 0
  have v26 : IVec S1x27x1 32 := broadcastInDim S1x27x1 ![1] bcast_S27_S1x27x1_1 v25
  have v27 : IVec S8192 32 := iotaInDim S8192 32 0
  have v28 : IVec S1x1x8192 32 := broadcastInDim S1x1x8192 ![2] bcast_S8192_S1x1x8192_2 v27
  have v29 : IVec S128x27x8192 32 := broadcastInDim S128x27x8192 ![0, 1, 2] bcast_S1x1x8192_S128x27x8192_0_1_2 v28
  have c_4 : IVec S_ 32 := constantI S_ 32 0#32
  have v30 : IVec S128x1x1 32 := broadcastInDim S128x1x1 ![] bcast_S_S128x1x1 c_4
  have v31 : IVec S128x1x1 1 := cmpi .slt v24 v30
  have c_5 : IVec S_ 32 := constantI S_ 32 128#32
  have v32 : IVec S128x1x1 32 := broadcastInDim S128x1x1 ![] bcast_S_S128x1x1 c_5
  have v33 : IVec S128x1x1 32 := addi v24 v32
  have v34 : IVec S128x1x1 32 := select v31 v33 v24
  have c_6 : IVec S_ 32 := constantI S_ 32 0#32
  have v35 : IVec S1x27x1 32 := broadcastInDim S1x27x1 ![] bcast_S_S1x27x1 c_6
  have v36 : IVec S1x27x1 1 := cmpi .slt v26 v35
  have c_7 : IVec S_ 32 := constantI S_ 32 27#32
  have v37 : IVec S1x27x1 32 := broadcastInDim S1x27x1 ![] bcast_S_S1x27x1 c_7
  have v38 : IVec S1x27x1 32 := addi v26 v37
  have v39 : IVec S1x27x1 32 := select v36 v38 v26
  have c_8 : IVec S_ 32 := constantI S_ 32 0#32
  have v40 : IVec S128x27x8192 32 := broadcastInDim S128x27x8192 ![] bcast_S_S128x27x8192 c_8
  have v41 : IVec S128x27x8192 1 := cmpi .slt v19 v40
  have c_9 : IVec S_ 32 := constantI S_ 32 512#32
  have v42 : IVec S128x27x8192 32 := broadcastInDim S128x27x8192 ![] bcast_S_S128x27x8192 c_9
  have v43 : IVec S128x27x8192 32 := addi v19 v42
  have v44 : IVec S128x27x8192 32 := select v41 v43 v19
  have v45 : IVec S128x27x8192 32 := broadcastInDim S128x27x8192 ![0, 1, 2] bcast_S128x1x1_S128x27x8192_0_1_2 v34
  have v46 : IVec S128x27x8192 32 := broadcastInDim S128x27x8192 ![0, 1, 2] bcast_S1x27x1_S128x27x8192_0_1_2 v39
  have v47 : IVec S128x27x8192x1 32 := broadcastInDim S128x27x8192x1 ![0, 1, 2] bcast_S128x27x8192_S128x27x8192x1_0_1_2 v45
  have v48 : IVec S128x27x8192x1 32 := broadcastInDim S128x27x8192x1 ![0, 1, 2] bcast_S128x27x8192_S128x27x8192x1_0_1_2 v46
  have v49 : IVec S128x27x8192x1 32 := broadcastInDim S128x27x8192x1 ![0, 1, 2] bcast_S128x27x8192_S128x27x8192x1_0_1_2 v44
  have v50 : IVec S128x27x8192x3 32 := join3 v47 v48 v49
  -- the table: the first selected index everywhere, then each selected point's index written at its slot
  have v51 : IVec S128x27x512 32 := Host.scatter scatter_S128x27x512_S128x27x8192x3_S128x27x8192_n_012_012_3 (fun _ b => b) v22 v50 v29
  broadcastInDim S128x27x512x1 ![0, 1, 2] bcast_S128x27x512_S128x27x512x1_0_1_2 v51

/-- The gather and what follows it, as a function of the neighbour table `i41` (with its unit axis), the points with
    a unit centre axis `x4`, and the centres repeated over the batch `c3`: a negative index is wrapped by the number of
    points, an index outside the points is answered by the quiet NaN, otherwise the point at the index is read; the
    centre is subtracted and batch and centre are merged into one axis. One line per operation, in the program's order. -/
def tailB (i41 : IVec S128x27x512x1 32) (x4 : FVec F S128x1x8192x3 .f32) (c3 : FVec F S128x27x3 .f32) :
    FVec F S3456x512x3 .f32 :=
  have t_c : IVec S_ 32 := constantI S_ 32 0#32
  have t_v0 : IVec S128x27x512x1 32 := broadcastInDim S128x27x512x1 ![] bcast_S_S128x27x512x1 t_c
  have t_v1 : IVec S128x27x512x1 1 := cmpi .slt i41 t_v0
  have t_c_0 : IVec S_ 32 := constantI S_ 32 8192#32
  have t_v2 : IVec S128x27x512x1 32 := broadcastInDim S128x27x512x1 ![] bcast_S_S128x27x512x1 t_c_0
  have t_v3 : IVec S128x27x512x1 32 := addi i41 t_v2
  have t_v4 : IVec S128x27x512x1 32 := select t_v1 t_v3 i41
  have t_v5 : FVec F S128x8192x3 .f32 := shapeCast S128x8192x3 x4 shapeCasts_S128x1x8192x3_S128x8192x3
  have t_c_1 : IVec S1 32 := constantI S1 32 8191#32
  have t_c_2 : IVec S_ 32 := constantI S_ 32 0#32
  have t_v6 : IVec S128x27x512x1 32 := broadcastInDim S128x27x512x1 ![] bcast_S_S128x27x512x1 t_c_2
  have t_v7 : IVec S128x27x512x1 1 := cmpi .sge t_v4 t_v6
  have t_v8 : IVec S1x1x1x1 32 := broadcastInDim S1x1x1x1 ![3] bcast_S1_S1x1x1x1_3 t_c_1
  have t_v9 : IVec S128x27x512x1 32 := broadcastInDim S128x27x512x1 ![0, 1, 2, 3] bcast_S1x1x1x1_S128x27x512x1_0_1_2_3 t_v8
  have t_v10 : IVec S128x27x512x1 1 := cmpi .sle t_v4 t_v9
  have t_v11 : IVec S128x27x512x1 1 := andi t_v7 t_v10
  have t_c_3 : IVec S_ 1 := constantI S_ 1 1#1
  have t_v12 : IVec S128x27x512 1 := Host.reduce IntOp.andi t_v11 t_c_3 reducesTo_S128x27x512x1_S128x27x512_d3 h_S_
  have t_v13 : FVec F S128x27x512x3 .f32 := Host.gather gather_S128x8192x3_S128x27x512x1_S128x27x512x3_3_1_0_0_1_3_113 t_v5 t_v4
  have t_v14 : IVec S128x27x512x3 1 := broadcastInDim S128x27x512x3 ![0, 1, 2] bcast_S128x27x512_S128x27x512x3_0_1_2 t_v12
  have t_cst : FVec F S_ .f32 := constant S_ .f32 0x7FC00000#32
  have t_v15 : FVec F S128x27x512x3 .f32 := broadcastInDim S128x27x512x3 ![] bcast_S_S128x27x512x3 t_cst
  have v54 : FVec F S128x27x512x3 .f32 := select t_v14 t_v13 t_v15
  have v55 : FVec F S128x27x1x3 .f32 := broadcastInDim S128x27x1x3 ![0, 1, 3] bcast_S128x27x3_S128x27x1x3_0_1_3 c3
  have v56 : FVec F S128x27x512x3 .f32 := broadcastInDim S128x27x512x3 ![0, 1, 2, 3] bcast_S128x27x1x3_S128x27x512x3_0_1_2_3 v55
  have v57 : FVec F S128x27x512x3 .f32 := subf v54 v56
  shapeCast S3456x512x3 v57 shapeCasts_S128x27x512x3_S3456x512x3

/-- Everything the reference computes after its mask, as one function of the mask, the mask widened to 32-bit
    counts, and the two argument arrays: the neighbour table, then the gather over the points given a unit centre axis,
    less the centres repeated over the batch. -/
def tail (mask : IVec S128x27x8192 1) (cs : IVec S128x27x8192 32) (x : FVec F S128x8192x3 .f32) (c : FVec F S1x27x3 .f32) :
    FVec F S3456x512x3 .f32 :=
  tailB (idxOf mask cs) (broadcastInDim S128x1x8192x3 ![0, 2, 3] bcast_S128x8192x3_S128x1x8192x3_0_2_3 x)
    (broadcastInDim S128x27x3 ![0, 1, 2] bcast_S1x27x3_S128x27x3_0_1_2 c)

/-- The first seventy-five operations, each over its own buffers: the mask, the neighbour table, and the two re-layouts
    (of the points and of the table) that the gather reads. -/
abbrev opsA : List (HloOp τ sig (Elt F)) :=
  [ StableHlo.unary main_arg1 main_v0 (broadcastInDim S128x27x3 ![0, 1, 2] bcast_S1x27x3_S128x27x3_0_1_2 : (⟨S1x27x3, .f32⟩ : BufTy).Contents (Elt F) → (⟨S128x27x3, .f32⟩ : BufTy).Contents (Elt F)),
    StableHlo.binary main_arg0 main_arg0 main_v1 (mulf : (⟨S128x8192x3, .f32⟩ : BufTy).Contents (Elt F) → (⟨S128x8192x3, .f32⟩ : BufTy).Contents (Elt F) → (⟨S128x8192x3, .f32⟩ : BufTy).Contents (Elt F)),
    StableHlo.nullary main_cst (constant S_ .f32 0x00000000#32),
    StableHlo.binary main_v1 main_cst main_v2 ((fun x v => Host.reduceAdd x v reducesTo_S128x8192x3_S128x8192_d2 h_S_) : (⟨S128x8192x3, .f32⟩ : BufTy).Contents (Elt F) → (⟨S_, .f32⟩ : BufTy).Contents (Elt F) → (⟨S128x8192, .f32⟩ : BufTy).Contents (Elt F)),
    StableHlo.binary main_v0 main_v0 main_v3 (mulf : (⟨S128x27x3, .f32⟩ : BufTy).Contents (Elt F) → (⟨S128x27x3, .f32⟩ : BufTy).Contents (Elt F) → (⟨S128x27x3, .f32⟩ : BufTy).Contents (Elt F)),
    StableHlo.nullary main_cst_0 (constant S_ .f32 0x00000000#32),
    StableHlo.binary main_v3 main_cst_0 main_v4 ((fun x v => Host.reduceAdd x v reducesTo_S128x27x3_S128x27_d2 h_S_) : (⟨S128x27x3, .f32⟩ : BufTy).Contents (Elt F) → (⟨S_, .f32⟩ : BufTy).Contents (Elt F) → (⟨S128x27, .f32⟩ : BufTy).Contents (Elt F)),
    StableHlo.binary main_v0 main_arg0 main_v5 ((fun l r => Host.dotGeneral dot_S128x27x3_S128x8192x3_S128x27x8192_2_2_1_1_0_0 none l r) : (⟨S128x27x3, .f32⟩ : BufTy).Contents (Elt F) → (⟨S128x8192x3, .f32⟩ : BufTy).Contents (Elt F) → (⟨S128x27x8192, .f32⟩ : BufTy).Contents (Elt F)),
    StableHlo.unary main_v2 main_v6 (broadcastInDim S128x1x8192 ![0, 2] bcast_S128x8192_S128x1x8192_0_2 : (⟨S128x8192, .f32⟩ : BufTy).Contents (Elt F) → (⟨S128x1x8192, .f32⟩ : BufTy).Contents (Elt F)),
    StableHlo.unary main_v4 main_v7 (broadcastInDim S128x27x1 ![0, 1] bcast_S128x27_S128x27x1_0_1 : (⟨S128x27, .f32⟩ : BufTy).Contents (Elt F) → (⟨S128x27x1, .f32⟩ : BufTy).Contents (Elt F)),
    StableHlo.unary main_v6 main_v8 (broadcastInDim S128x27x8192 ![0, 1, 2] bcast_S128x1x8192_S128x27x8192_0_1_2 : (⟨S128x1x8192, .f32⟩ : BufTy).Contents (Elt F) → (⟨S128x27x8192, .f32⟩ : BufTy).Contents (Elt F)),
    StableHlo.unary main_v7 main_v9 (broadcastInDim S128x27x8192 ![0, 1, 2] bcast_S128x27x1_S128x27x8192_0_1_2 : (⟨S128x27x1, .f32⟩ : BufTy).Contents (Elt F) → (⟨S128x27x8192, .f32⟩ : BufTy).Contents (Elt F)),
    StableHlo.binary main_v8 main_v9 main_v10 (addf : (⟨S128x27x8192, .f32⟩ : BufTy).Contents (Elt F) → (⟨S128x27x8192, .f32⟩ : BufTy).Contents (Elt F) → (⟨S128x27x8192, .f32⟩ : BufTy).Contents (Elt F)),
    StableHlo.nullary main_cst_1 (constant S_ .f32 0x40000000#32),
    StableHlo.unary main_cst_1 main_v11 (broadcastInDim S128x27x8192 ![] bcast_S_S128x27x8192 : (⟨S_, .f32⟩ : BufTy).Contents (Elt F) → (⟨S128x27x8192, .f32⟩ : BufTy).Contents (Elt F)),
    StableHlo.binary main_v11 main_v5 main_v12 (mulf : (⟨S128x27x8192, .f32⟩ : BufTy).Contents (Elt F) → (⟨S128x27x8192, .f32⟩ : BufTy).Contents (Elt F) → (⟨S128x27x8192, .f32⟩ : BufTy).Contents (Elt F)),
    StableHlo.binary main_v10 main_v12 main_v13 (subf : (⟨S128x27x8192, .f32⟩ : BufTy).Contents (Elt F) → (⟨S128x27x8192, .f32⟩ : BufTy).Contents (Elt F) → (⟨S128x27x8192, .f32⟩ : BufTy).Contents (Elt F)),
    StableHlo.nullary main_cst_2 (constant S_ .f32 0x3D800000#32),
    StableHlo.unary main_cst_2 main_v14 (broadcastInDim S128x27x8192 ![] bcast_S_S128x27x8192 : (⟨S_, .f32⟩ : BufTy).Contents (Elt F) → (⟨S128x27x8192, .f32⟩ : BufTy).Contents (Elt F)),
    StableHlo.binary main_v13 main_v14 main_v15 (cmpf .olt : (⟨S128x27x8192, .f32⟩ : BufTy).Contents (Elt F) → (⟨S128x27x8192, .f32⟩ : BufTy).Contents (Elt F) → (⟨S128x27x8192, .i1⟩ : BufTy).Contents (Elt F)),
    StableHlo.unary main_v15 main_call0_v0 (extui 32 · natLt_1_32),
    StableHlo.nullary main_call0_call0_c (constantI S_ 32 0#32),
    StableHlo.unary main_call0_call0_c main_call0_call0_v0 (broadcastInDim S_ ![] bcast_S_S_),
    StableHlo.binary main_call0_v0 main_call0_call0_v0 main_v16 (fun x v => Host.reduceWindow IntOp.addi ![1, 1, 8192] ![1, 1, 1] ![0, 0, 8191] ![0, 0, 0] x v reduceWindows_S128x27x8192_S128x27x8192_w1s1p0_0_w1s1p0_0_w8192s1p8191_0 h_S_),
    StableHlo.nullary main_c (constantI S_ 32 1#32),
    StableHlo.unary main_c main_v17 (broadcastInDim S128x27x8192 ![] bcast_S_S128x27x8192 : (⟨S_, .i32⟩ : BufTy).Contents (Elt F) → (⟨S128x27x8192, .i32⟩ : BufTy).Contents (Elt F)),
    StableHlo.binary main_v16 main_v17 main_v18 (subi : (⟨S128x27x8192, .i32⟩ : BufTy).Contents (Elt F) → (⟨S128x27x8192, .i32⟩ : BufTy).Contents (Elt F) → (⟨S128x27x8192, .i32⟩ : BufTy).Contents (Elt F)),
    StableHlo.nullary main_c_3 (constantI S_ 32 512#32),
    StableHlo.unary main_c_3 main_call1_v0 id,
    StableHlo.unary main_call1_v0 main_call1_v1 (broadcastInDim S128x27x8192 ![] bcast_S_S128x27x8192),
    StableHlo.ternary main_v15 main_v18 main_call1_v1 main_v19 select,
    StableHlo.nullary main_call2_v0 (iotaInDim S128x27x8192 32 2),
    StableHlo.nullary main_call2_c (constantI S_ 1 0#1),
    StableHlo.nullary main_call2_c_0 (constantI S_ 32 0#32),
    StableHlo.quaternary main_v15 main_call2_v0 main_call2_c main_call2_c_0 main_call2_v1_0 (fun x y u v j => (Host.reduce2 reducer_argmax_i1_i32 x y u v reducesTo_S128x27x8192_S128x27_d2 h_S_ j).1),
    StableHlo.quaternary main_v15 main_call2_v0 main_call2_c main_call2_c_0 main_v20 (fun x y u v j => (Host.reduce2 reducer_argmax_i1_i32 x y u v reducesTo_S128x27x8192_S128x27_d2 h_S_ j).2),
    StableHlo.unary main_v20 main_v21 (broadcastInDim S128x27x1 ![0, 1] bcast_S128x27_S128x27x1_0_1 : (⟨S128x27, .i32⟩ : BufTy).Contents (Elt F) → (⟨S128x27x1, .i32⟩ : BufTy).Contents (Elt F)),
    StableHlo.unary main_v21 main_v22 (broadcastInDim S128x27x512 ![0, 1, 2] bcast_S128x27x1_S128x27x512_0_1_2 : (⟨S128x27x1, .i32⟩ : BufTy).Contents (Elt F) → (⟨S128x27x512, .i32⟩ : BufTy).Contents (Elt F)),
    StableHlo.nullary main_v23 (iotaInDim S128 32 0),
    StableHlo.unary main_v23 main_v24 (broadcastInDim S128x1x1 ![0] bcast_S128_S128x1x1_0 : (⟨S128, .i32⟩ : BufTy).Contents (Elt F) → (⟨S128x1x1, .i32⟩ : BufTy).Contents (Elt F)),
    StableHlo.nullary main_v25 (iotaInDim S27 32 0),
    StableHlo.unary main_v25 main_v26 (broadcastInDim S1x27x1 ![1] bcast_S27_S1x27x1_1 : (⟨S27, .i32⟩ : BufTy).Contents (Elt F) → (⟨S1x27x1, .i32⟩ : BufTy).Contents (Elt F)),
    StableHlo.nullary main_v27 (iotaInDim S8192 32 0),
    StableHlo.unary main_v27 main_v28 (broadcastInDim S1x1x8192 ![2] bcast_S8192_S1x1x8192_2 : (⟨S8192, .i32⟩ : BufTy).Contents (Elt F) → (⟨S1x1x8192, .i32⟩ : BufTy).Contents (Elt F)),
    StableHlo.unary main_v28 main_v29 (broadcastInDim S128x27x8192 ![0, 1, 2] bcast_S1x1x8192_S128x27x8192_0_1_2 : (⟨S1x1x8192, .i32⟩ : BufTy).Contents (Elt F) → (⟨S128x27x8192, .i32⟩ : BufTy).Contents (Elt F)),
    StableHlo.nullary main_c_4 (constantI S_ 32 0#32),
    StableHlo.unary main_c_4 main_v30 (broadcastInDim S128x1x1 ![] bcast_S_S128x1x1 : (⟨S_, .i32⟩ : BufTy).Contents (Elt F) → (⟨S128x1x1, .i32⟩ : BufTy).Contents (Elt F)),
    StableHlo.binary main_v24 main_v30 main_v31 (cmpi .slt : (⟨S128x1x1, .i32⟩ : BufTy).Contents (Elt F) → (⟨S128x1x1, .i32⟩ : BufTy).Contents (Elt F) → (⟨S128x1x1, .i1⟩ : BufTy).Contents (Elt F)),
    StableHlo.nullary main_c_5 (constantI S_ 32 128#32),
    StableHlo.unary main_c_5 main_v32 (broadcastInDim S128x1x1 ![] bcast_S_S128x1x1 : (⟨S_, .i32⟩ : BufTy).Contents (Elt F) → (⟨S128x1x1, .i32⟩ : BufTy).Contents (Elt F)),
    StableHlo.binary main_v24 main_v32 main_v33 (addi : (⟨S128x1x1, .i32⟩ : BufTy).Contents (Elt F) → (⟨S128x1x1, .i32⟩ : BufTy).Contents (Elt F) → (⟨S128x1x1, .i32⟩ : BufTy).Contents (Elt F)),
    StableHlo.ternary main_v31 main_v33 main_v24 main_v34 (select : (⟨S128x1x1, .i1⟩ : BufTy).Contents (Elt F) → (⟨S128x1x1, .i32⟩ : BufTy).Contents (Elt F) → (⟨S128x1x1, .i32⟩ : BufTy).Contents (Elt F) → (⟨S128x1x1, .i32⟩ : BufTy).Contents (Elt F)),
    StableHlo.nullary main_c_6 (constantI S_ 32 0#32),
    StableHlo.unary main_c_6 main_v35 (broadcastInDim S1x27x1 ![] bcast_S_S1x27x1 : (⟨S_, .i32⟩ : BufTy).Contents (Elt F) → (⟨S1x27x1, .i32⟩ : BufTy).Contents (Elt F)),
    StableHlo.binary main_v26 main_v35 main_v36 (cmpi .slt : (⟨S1x27x1, .i32⟩ : BufTy).Contents (Elt F) → (⟨S1x27x1, .i32⟩ : BufTy).Contents (Elt F) → (⟨S1x27x1, .i1⟩ : BufTy).Contents (Elt F)),
    StableHlo.nullary main_c_7 (constantI S_ 32 27#32),
    StableHlo.unary main_c_7 main_v37 (broadcastInDim S1x27x1 ![] bcast_S_S1x27x1 : (⟨S_, .i32⟩ : BufTy).Contents (Elt F) → (⟨S1x27x1, .i32⟩ : BufTy).Contents (Elt F)),
    StableHlo.binary main_v26 main_v37 main_v38 (addi : (⟨S1x27x1, .i32⟩ : BufTy).Contents (Elt F) → (⟨S1x27x1, .i32⟩ : BufTy).Contents (Elt F) → (⟨S1x27x1, .i32⟩ : BufTy).Contents (Elt F)),
    StableHlo.ternary main_v36 main_v38 main_v26 main_v39 (select : (⟨S1x27x1, .i1⟩ : BufTy).Contents (Elt F) → (⟨S1x27x1, .i32⟩ : BufTy).Contents (Elt F) → (⟨S1x27x1, .i32⟩ : BufTy).Contents (Elt F) → (⟨S1x27x1, .i32⟩ : BufTy).Contents (Elt F)),
    StableHlo.nullary main_c_8 (constantI S_ 32 0#32),
    StableHlo.unary main_c_8 main_v40 (broadcastInDim S128x27x8192 ![] bcast_S_S128x27x8192 : (⟨S_, .i32⟩ : BufTy).Contents (Elt F) → (⟨S128x27x8192, .i32⟩ : BufTy).Contents (Elt F)),
    StableHlo.binary main_v19 main_v40 main_v41 (cmpi .slt : (⟨S128x27x8192, .i32⟩ : BufTy).Contents (Elt F) → (⟨S128x27x8192, .i32⟩ : BufTy).Contents (Elt F) → (⟨S128x27x8192, .i1⟩ : BufTy).Contents (Elt F)),
    StableHlo.nullary main_c_9 (constantI S_ 32 512#32),
    StableHlo.unary main_c_9 main_v42 (broadcastInDim S128x27x8192 ![] bcast_S_S128x27x8192 : (⟨S_, .i32⟩ : BufTy).Contents (Elt F) → (⟨S128x27x8192, .i32⟩ : BufTy).Contents (Elt F)),
    StableHlo.binary main_v19 main_v42 main_v43 (addi : (⟨S128x27x8192, .i32⟩ : BufTy).Contents (Elt F) → (⟨S128x27x8192, .i32⟩ : BufTy).Contents (Elt F) → (⟨S128x27x8192, .i32⟩ : BufTy).Contents (Elt F)),
    StableHlo.ternary main_v41 main_v43 main_v19 main_v44 (select : (⟨S128x27x8192, .i1⟩ : BufTy).Contents (Elt F) → (⟨S128x27x8192, .i32⟩ : BufTy).Contents (Elt F) → (⟨S128x27x8192, .i32⟩ : BufTy).Contents (Elt F) → (⟨S128x27x8192, .i32⟩ : BufTy).Contents (Elt F)),
    StableHlo.unary main_v34 main_v45 (broadcastInDim S128x27x8192 ![0, 1, 2] bcast_S128x1x1_S128x27x8192_0_1_2 : (⟨S128x1x1, .i32⟩ : BufTy).Contents (Elt F) → (⟨S128x27x8192, .i32⟩ : BufTy).Contents (Elt F)),
    StableHlo.unary main_v39 main_v46 (broadcastInDim S128x27x8192 ![0, 1, 2] bcast_S1x27x1_S128x27x8192_0_1_2 : (⟨S1x27x1, .i32⟩ : BufTy).Contents (Elt F) → (⟨S128x27x8192, .i32⟩ : BufTy).Contents (Elt F)),
    StableHlo.unary main_v45 main_v47 (broadcastInDim S128x27x8192x1 ![0, 1, 2] bcast_S128x27x8192_S128x27x8192x1_0_1_2 : (⟨S128x27x8192, .i32⟩ : BufTy).Contents (Elt F) → (⟨S128x27x8192x1, .i32⟩ : BufTy).Contents (Elt F)),
    StableHlo.unary main_v46 main_v48 (broadcastInDim S128x27x8192x1 ![0, 1, 2] bcast_S128x27x8192_S128x27x8192x1_0_1_2 : (⟨S128x27x8192, .i32⟩ : BufTy).Contents (Elt F) → (⟨S128x27x8192x1, .i32⟩ : BufTy).Contents (Elt F)),
    StableHlo.unary main_v44 main_v49 (broadcastInDim S128x27x8192x1 ![0, 1, 2] bcast_S128x27x8192_S128x27x8192x1_0_1_2 : (⟨S128x27x8192, .i32⟩ : BufTy).Contents (Elt F) → (⟨S128x27x8192x1, .i32⟩ : BufTy).Contents (Elt F)),
    StableHlo.nary ![main_v47, main_v48, main_v49] main_v50 (fun u => concatenate S128x27x8192x3 3 [⟨S128x27x8192x1, u 0⟩, ⟨S128x27x8192x1, u 1⟩, ⟨S128x27x8192x1, u 2⟩] concatenates_S128x27x8192x1_S128x27x8192x1_S128x27x8192x1_S128x27x8192x3_d3),
    StableHlo.ternary main_v22 main_v50 main_v29 main_v51 ((fun x i u => Host.scatter scatter_S128x27x512_S128x27x8192x3_S128x27x8192_n_012_012_3 (fun _ b => b) x i u) : (⟨S128x27x512, .i32⟩ : BufTy).Contents (Elt F) → (⟨S128x27x8192x3, .i32⟩ : BufTy).Contents (Elt F) → (⟨S128x27x8192, .i32⟩ : BufTy).Contents (Elt F) → (⟨S128x27x512, .i32⟩ : BufTy).Contents (Elt F)),
    StableHlo.unary main_arg0 main_v52 (broadcastInDim S128x1x8192x3 ![0, 2, 3] bcast_S128x8192x3_S128x1x8192x3_0_2_3 : (⟨S128x8192x3, .f32⟩ : BufTy).Contents (Elt F) → (⟨S128x1x8192x3, .f32⟩ : BufTy).Contents (Elt F)),
    StableHlo.unary main_v51 main_v53 (broadcastInDim S128x27x512x1 ![0, 1, 2] bcast_S128x27x512_S128x27x512x1_0_1_2 : (⟨S128x27x512, .i32⟩ : BufTy).Contents (Elt F) → (⟨S128x27x512x1, .i32⟩ : BufTy).Contents (Elt F)) ]

/-- The last twenty-seven operations: the gather along the point axis with its bounds test, the subtraction of the
    centre, and the merge of batch and centre. -/
abbrev opsB : List (HloOp τ sig (Elt F)) :=
  [ StableHlo.nullary main_call3_c (constantI S_ 32 0#32),
    StableHlo.unary main_call3_c main_call3_v0 (broadcastInDim S128x27x512x1 ![] bcast_S_S128x27x512x1),
    StableHlo.binary main_v53 main_call3_v0 main_call3_v1 (cmpi .slt),
    StableHlo.nullary main_call3_c_0 (constantI S_ 32 8192#32),
    StableHlo.unary main_call3_c_0 main_call3_v2 (broadcastInDim S128x27x512x1 ![] bcast_S_S128x27x512x1),
    StableHlo.binary main_v53 main_call3_v2 main_call3_v3 addi,
    StableHlo.ternary main_call3_v1 main_call3_v3 main_v53 main_call3_v4 select,
    StableHlo.reshape main_v52 main_call3_v5 rfl shapeCasts_S128x1x8192x3_S128x8192x3,
    StableHlo.nullary main_call3_c_1 (constantI S1 32 8191#32),
    StableHlo.nullary main_call3_c_2 (constantI S_ 32 0#32),
    StableHlo.unary main_call3_c_2 main_call3_v6 (broadcastInDim S128x27x512x1 ![] bcast_S_S128x27x512x1),
    StableHlo.binary main_call3_v4 main_call3_v6 main_call3_v7 (cmpi .sge),
    StableHlo.unary main_call3_c_1 main_call3_v8 (broadcastInDim S1x1x1x1 ![3] bcast_S1_S1x1x1x1_3),
    StableHlo.unary main_call3_v8 main_call3_v9 (broadcastInDim S128x27x512x1 ![0, 1, 2, 3] bcast_S1x1x1x1_S128x27x512x1_0_1_2_3),
    StableHlo.binary main_call3_v4 main_call3_v9 main_call3_v10 (cmpi .sle),
    StableHlo.binary main_call3_v7 main_call3_v10 main_call3_v11 andi,
    StableHlo.nullary main_call3_c_3 (constantI S_ 1 1#1),
    StableHlo.binary main_call3_v11 main_call3_c_3 main_call3_v12 (fun x v => Host.reduce IntOp.andi x v reducesTo_S128x27x512x1_S128x27x512_d3 h_S_),
    StableHlo.binary main_call3_v5 main_call3_v4 main_call3_v13 (fun x i => Host.gather gather_S128x8192x3_S128x27x512x1_S128x27x512x3_3_1_0_0_1_3_113 x i),
    StableHlo.unary main_call3_v12 main_call3_v14 (broadcastInDim S128x27x512x3 ![0, 1, 2] bcast_S128x27x512_S128x27x512x3_0_1_2),
    StableHlo.nullary main_call3_cst (constant S_ .f32 0x7FC00000#32),
    StableHlo.unary main_call3_cst main_call3_v15 (broadcastInDim S128x27x512x3 ![] bcast_S_S128x27x512x3),
    StableHlo.ternary main_call3_v14 main_call3_v13 main_call3_v15 main_v54 select,
    StableHlo.unary main_v0 main_v55 (broadcastInDim S128x27x1x3 ![0, 1, 3] bcast_S128x27x3_S128x27x1x3_0_1_3 : (⟨S128x27x3, .f32⟩ : BufTy).Contents (Elt F) → (⟨S128x27x1x3, .f32⟩ : BufTy).Contents (Elt F)),
    StableHlo.unary main_v55 main_v56 (broadcastInDim S128x27x512x3 ![0, 1, 2, 3] bcast_S128x27x1x3_S128x27x512x3_0_1_2_3 : (⟨S128x27x1x3, .f32⟩ : BufTy).Contents (Elt F) → (⟨S128x27x512x3, .f32⟩ : BufTy).Contents (Elt F)),
    StableHlo.binary main_v54 main_v56 main_v57 (subf : (⟨S128x27x512x3, .f32⟩ : BufTy).Contents (Elt F) → (⟨S128x27x512x3, .f32⟩ : BufTy).Contents (Elt F) → (⟨S128x27x512x3, .f32⟩ : BufTy).Contents (Elt F)),
    StableHlo.reshape main_v57 main_v58 rfl shapeCasts_S128x27x512x3_S3456x512x3 ]

attribute [local irreducible] Host.reduce Host.reduce2 Host.reduceWindow Host.reduceAdd Host.gather Host.scatter concatenate
  broadcastInDim shapeCast constantI constant iotaInDim cmpi cmpf addi subi andi addf subf mulf select extui in
set_option maxRecDepth 16384 in
set_option maxHeartbeats 2000000 in
/-- The whole list is the two stretches one after the other: an operation of a helper, stated over the helper's typed
    buffers, is the same operation over the buffers themselves, the transport between the two types being the identity. -/
theorem ops_split : (ops : List (HloOp τ sig (Elt F))) = opsA ++ opsB := rfl

/-- The fold over two stretches is the fold over the second from the fold over the first. -/
theorem after_app {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-- The concatenation's result buffer after it: the three columns joined. -/
theorem join3_result' (hxs hy) (W : Valuation τ sig (Elt F)) :
    (StableHlo.nary (τ := τ) ![main_v47, main_v48, main_v49] main_v50
        (fun u => concatenate S128x27x8192x3 3 [⟨S128x27x8192x1, u 0⟩, ⟨S128x27x8192x1, u 1⟩, ⟨S128x27x8192x1, u 2⟩] concatenates_S128x27x8192x1_S128x27x8192x1_S128x27x8192x1_S128x27x8192x3_d3)
        hxs hy).result W (no_index (Proc.devRef .tc main_v50))
      = join3 (W (Proc.devRef .tc main_v47)) (W (Proc.devRef .tc main_v48)) (W (Proc.devRef .tc main_v49)) := by
  rw [StableHlo.nary_result]; rfl

open Idealize.ShloMosaic.StableHlo in
attribute [local irreducible] Host.reduce Host.reduce2 Host.reduceWindow Host.reduceAdd Host.gather Host.scatter concatenate
  broadcastInDim shapeCast constantI constant iotaInDim cmpi cmpf addi subi andi addf subf mulf select extui in
set_option maxRecDepth 16384 in
set_option maxHeartbeats 2000000 in
/-- The second stretch, from any contents: the result buffer ends at the gather of the points (as left in their
    re-laid buffer) at the table (as left in its buffer), less the centres (as left in theirs). -/
theorem opsB_out (W : Valuation τ sig (Elt F)) :
    after opsB W (main_v58 : DevRef τ sig)
      = tailB (W (main_v53 : DevRef τ sig)) (W (main_v52 : DevRef τ sig)) (W (main_v0 : DevRef τ sig)) := by
  simp (disch := decide) only [after_cons, after_nil,
    nullary_result', unary_result', binary_result', ternary_result', quaternary_result', reshape_result', join3_result',
    nullary_result_ne', unary_result_ne', binary_result_ne', ternary_result_ne', quaternary_result_ne', reshape_result_ne', nary_result_ne']
  unfold tailB
  dsimp only
  rfl

open Idealize.ShloMosaic.StableHlo in
attribute [local irreducible] Host.reduce Host.reduce2 Host.reduceWindow Host.reduceAdd Host.gather Host.scatter concatenate
  broadcastInDim shapeCast constantI constant iotaInDim cmpi cmpf addi subi andi addf subf mulf select extui in
set_option maxRecDepth 16384 in
set_option maxHeartbeats 2000000 in
/-- The first stretch leaves the neighbour table of the mask of the two argument arrays in the table's buffer. -/
theorem opsA_idx (V : Valuation τ sig (Elt F)) :
    after opsA V (main_v53 : DevRef τ sig)
      = idxOf (maskR (V (main_arg0 : DevRef τ sig)) (V (main_arg1 : DevRef τ sig))) (extui 32 (maskR (V (main_arg0 : DevRef τ sig)) (V (main_arg1 : DevRef τ sig))) natLt_1_32) := by
  simp (disch := decide) only [after_cons, after_nil,
    nullary_result', unary_result', binary_result', ternary_result', quaternary_result', reshape_result', join3_result',
    nullary_result_ne', unary_result_ne', binary_result_ne', ternary_result_ne', quaternary_result_ne', reshape_result_ne', nary_result_ne']
  unfold idxOf maskR
  dsimp only
  rfl

open Idealize.ShloMosaic.StableHlo in
attribute [local irreducible] Host.reduce Host.reduce2 Host.reduceWindow Host.reduceAdd Host.gather Host.scatter concatenate
  broadcastInDim shapeCast constantI constant iotaInDim cmpi cmpf addi subi andi addf subf mulf select extui in
set_option maxRecDepth 16384 in
/-- The first stretch leaves the points, given a unit centre axis, in their re-laid buffer. -/
theorem opsA_v52 (V : Valuation τ sig (Elt F)) :
    after opsA V (main_v52 : DevRef τ sig) = broadcastInDim S128x1x8192x3 ![0, 2, 3] bcast_S128x8192x3_S128x1x8192x3_0_2_3 (V (main_arg0 : DevRef τ sig)) := by
  simp (disch := decide) only [after_cons, after_nil,
    nullary_result', unary_result', binary_result', ternary_result', quaternary_result', reshape_result', join3_result',
    nullary_result_ne', unary_result_ne', binary_result_ne', ternary_result_ne', quaternary_result_ne', reshape_result_ne', nary_result_ne']

open Idealize.ShloMosaic.StableHlo in
attribute [local irreducible] Host.reduce Host.reduce2 Host.reduceWindow Host.reduceAdd Host.gather Host.scatter concatenate
  broadcastInDim shapeCast constantI constant iotaInDim cmpi cmpf addi subi andi addf subf mulf select extui in
set_option maxRecDepth 16384 in
/-- The first stretch leaves the centres, repeated over the batch, in their buffer. -/
theorem opsA_v0 (V : Valuation τ sig (Elt F)) :
    after opsA V (main_v0 : DevRef τ sig) = broadcastInDim S128x27x3 ![0, 1, 2] bcast_S1x27x3_S128x27x3_0_1_2 (V (main_arg1 : DevRef τ sig)) := by
  simp (disch := decide) only [after_cons, after_nil,
    nullary_result', unary_result', binary_result', ternary_result', quaternary_result', reshape_result', join3_result',
    nullary_result_ne', unary_result_ne', binary_result_ne', ternary_result_ne', quaternary_result_ne', reshape_result_ne', nary_result_ne']

/-- The fold of all the operations, read at the result buffer, is the tail of the mask of the two argument arrays. -/
theorem out_eq (V : Valuation τ sig (Elt F)) :
    StableHlo.after ops V (main_v58 : DevRef τ sig)
      = tail (maskR (V (main_arg0 : DevRef τ sig)) (V (main_arg1 : DevRef τ sig)))
          (extui 32 (maskR (V (main_arg0 : DevRef τ sig)) (V (main_arg1 : DevRef τ sig))) natLt_1_32)
          (V (main_arg0 : DevRef τ sig)) (V (main_arg1 : DevRef τ sig)) := by
  rw [ops_split, after_app, opsB_out, opsA_idx, opsA_v52, opsA_v0]
  rfl

open Idealize.ShloMosaic.StableHlo in
set_option maxRecDepth 16384 in
/-- No operation writes the first argument's buffer. -/
theorem arg0_eq (V : Valuation τ sig (Elt F)) :
    after ops V (main_arg0 : DevRef τ sig) = V (main_arg0 : DevRef τ sig) := by
  rw [ops_split, after_app]
  simp (disch := decide) only [after_cons, after_nil,
    nullary_result', unary_result', binary_result', ternary_result', quaternary_result', reshape_result', join3_result',
    nullary_result_ne', unary_result_ne', binary_result_ne', ternary_result_ne', quaternary_result_ne', reshape_result_ne', nary_result_ne']

open Idealize.ShloMosaic.StableHlo in
set_option maxRecDepth 16384 in
/-- No operation writes the second argument's buffer. -/
theorem arg1_eq (V : Valuation τ sig (Elt F)) :
    after ops V (main_arg1 : DevRef τ sig) = V (main_arg1 : DevRef τ sig) := by
  rw [ops_split, after_app]
  simp (disch := decide) only [after_cons, after_nil,
    nullary_result', unary_result', binary_result', ternary_result', quaternary_result', reshape_result', join3_result',
    nullary_result_ne', unary_result_ne', binary_result_ne', ternary_result_ne', quaternary_result_ne', reshape_result_ne', nary_result_ne']

/-- For any float values, from any memory with zero counters: every weakly fair execution of the reference's host
    function terminates with its result buffer at the tail of the mask of the two argument arrays as launched, and the
    two argument buffers unchanged. -/
theorem run_out (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v58)
          = tail (maskR (m ((c.tc : Thread nD τ).loc main_arg0)) (m ((c.tc : Thread nD τ).loc main_arg1)))
              (extui 32 (maskR (m ((c.tc : Thread nD τ).loc main_arg0)) (m ((c.tc : Thread nD τ).loc main_arg1))) natLt_1_32)
              (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c => ⟨(h c main_v58).trans (out_eq (StableHlo.launchContents m c)),
      (h c main_arg0).trans (arg0_eq (StableHlo.launchContents m c)),
      (h c main_arg1).trans (arg1_eq (StableHlo.launchContents m c))⟩)
    (run_main m ρ)

end Cert.ReferenceIdeal.Hand

end
-- ==== Proof.Bridge.lean ====
/-
  What joins the kernel program's host lines to the reference's. The kernel keeps the mask as 32-bit integers 0 / 1
  and reads it back through "positive", which gives back the mask it was widened from. From the mask on, the two
  programs apply the same lines — the running count, the slots, the first in-ball point, the scatter, the gather, the
  re-centring — so their `idxOf`, `tailB` and `tail` functions are one function: the same operations of the same
  operands, line by line.
-/
import proofs.«112360_j40630390620888_2_alg».proof.Proof.KTail
import proofs.«112360_j40630390620888_2_alg».proof.Proof.RefOut
import proofs.«112360_j40630390620888_2_alg».proof.Proof.Gen.KernelIdeal
import proofs.«112360_j40630390620888_2_alg».proof.Proof.Gen.ReferenceIdeal
import Idealize.ShloMosaic.PureOps.Ideal

noncomputable section

namespace Cert.Bridge

open Idealize.ShloMosaic

/-- Widening a bit to 32 bits and asking whether the result is positive gives the bit back. -/
theorem positive_widen (b : BitVec 1) : IntOp.cmpi .sgt (b.setWidth 32) 0#32 = b := by
  rcases BitVec.eq_zero_or_eq_one b with h | h <;> subst h <;> decide

/-- The mask read back from its widened form is the mask. -/
theorem maskOf_extui (mask : IVec Cert.KernelIdeal.S128x27x8192 1) (h : 1 < 32) :
    Cert.KernelIdeal.Hand.maskOf (extui 32 mask h) = mask := by
  funext i
  exact positive_widen (mask i)

attribute [local irreducible] Host.reduce Host.reduce2 Host.reduceWindow Host.gather Host.scatter concatenate in
/-- The chosen indices are computed by the same lines in both programs. -/
theorem idxOf_eq (mask : IVec Cert.KernelIdeal.S128x27x8192 1) (cs : IVec Cert.KernelIdeal.S128x27x8192 32) :
    Cert.KernelIdeal.Hand.idxOf mask cs = Cert.ReferenceIdeal.Hand.idxOf mask cs := rfl

attribute [local irreducible] Host.reduce Host.reduce2 Host.reduceWindow Host.gather Host.scatter concatenate in
/-- The gather and the re-centring are the same lines in both programs. -/
theorem tailB_eq (i41 : IVec Cert.KernelIdeal.S128x27x512x1 32) (x4 : FVec Ideal Cert.KernelIdeal.S128x1x8192x3 .f32)
    (c3 : FVec Ideal Cert.KernelIdeal.S128x27x3 .f32) :
    Cert.KernelIdeal.Hand.tailB (F := Ideal) i41 x4 c3 = Cert.ReferenceIdeal.Hand.tailB (F := Ideal) i41 x4 c3 := rfl

/-- From the mask on, the two programs compute one function. -/
theorem tail_eq (mask : IVec Cert.KernelIdeal.S128x27x8192 1) (cs : IVec Cert.KernelIdeal.S128x27x8192 32)
    (x : FVec Ideal Cert.KernelIdeal.S128x8192x3 .f32) (c : FVec Ideal Cert.KernelIdeal.S1x27x3 .f32) :
    Cert.KernelIdeal.Hand.tail (F := Ideal) mask cs x c = Cert.ReferenceIdeal.Hand.tail (F := Ideal) mask cs x c := by
  unfold Cert.KernelIdeal.Hand.tail Cert.ReferenceIdeal.Hand.tail
  rw [idxOf_eq, tailB_eq]

end Cert.Bridge

end
-- ==== Proof.lean ====
/-
  The certificate of the ball-query grouping kernel against its reference, over the extended reals.

  Both programs compute, for every batch b, centre p and point n, whether |x[b,n]|² + |c[p]|² − 2⟨c[p], x[b,n]⟩ < 1/16,
  and from that mask the same grouping: every in-ball point gets the slot "its rank among the row's in-ball points",
  the first in-ball point fills the row's 512 slots, each point is written to its slot (slots past 511 dropped), the
  points at the chosen indices are gathered and the row's centre subtracted. The kernel computes the mask one batch
  at a time on the device, as 32-bit integers, with the inner product as a [27,3] × [8192,3]ᵀ matrix product; the
  reference computes it for all batches at once with a batched contraction. Over the extended reals the two masks are
  equal entry by entry: both are the comparison of the same sums over the three coordinates. The host lines after the
  mask are the same in both programs, except that the kernel reads the mask back from its integers through "positive",
  which returns the mask. Nothing in the argument needs the inputs to be finite.

  The three frames: the two kernel programs' are the launch theorem for one region followed by host lines, on proof
  data naming each staging buffer after the body; the reference has no kernel and its frame is its run.
-/
import proofs.«112360_j40630390620888_2_alg».proof.Defs
import proofs.«112360_j40630390620888_2_alg».proof.Proof.Gen.Kernel
import proofs.«112360_j40630390620888_2_alg».proof.Proof.Gen.KernelIdeal
import proofs.«112360_j40630390620888_2_alg».proof.Proof.Gen.ReferenceIdeal
import proofs.«112360_j40630390620888_2_alg».proof.Proof.Gen.Pre_finite_inputs
import proofs.«112360_j40630390620888_2_alg».proof.Proof.KFrame
import proofs.«112360_j40630390620888_2_alg».proof.Proof.KIFrame
import proofs.«112360_j40630390620888_2_alg».proof.Proof.KIRun
import proofs.«112360_j40630390620888_2_alg».proof.Proof.RefOut
import proofs.«112360_j40630390620888_2_alg».proof.Proof.Bridge

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run_out (F := Ideal) m ρ)

/-- The two runs end at one function of the arguments: the kernel's mask array is the reference's mask widened, reading
    it back gives the mask, and from there on the lines agree. -/
theorem algebraic : Cert.algebraic_KernelIdeal_ReferenceIdeal := by
  intro m ρ m' ρ' _ hagree
  refine ⟨_, Cert.KernelIdeal.HandValue.run_value m ρ, ?_⟩
  refine (θ_run Cert.ReferenceIdeal.defs _ _).mono (fun _ h c => ⟨(h c).1.trans ?_, (h c).2⟩)
    (Cert.ReferenceIdeal.Hand.run_out (F := Ideal) m' ρ')
  rw [(hagree c).1, (hagree c).2]
  dsimp only [Cert.KernelIdeal.HandValue.G]
  rw [Cert.Bridge.maskOf_extui]
  exact (Cert.Bridge.tail_eq _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
